-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x3 : Shape := ⟨2, ![10000, 3]⟩
abbrev S2x320000 : Shape := ⟨2, ![2, 320000]⟩
abbrev S513x256 : Shape := ⟨2, ![513, 256]⟩
abbrev S256 : Shape := ⟨1, ![256]⟩
abbrev S256x256 : Shape := ⟨2, ![256, 256]⟩
abbrev S512x256 : Shape := ⟨2, ![512, 256]⟩
abbrev S256x1 : Shape := ⟨2, ![256, 1]⟩
abbrev S1 : Shape := ⟨1, ![1]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x3 : S_.BroadcastsInDim S10000x3 (![] : Fin 0 → Fin S10000x3.rank)
  reducesTo_S10000x3_S_d0_1 : S10000x3.ReducesTo [0, 1] S_
  bcast_S_S513x256 : S_.BroadcastsInDim S513x256 (![] : Fin 0 → Fin S513x256.rank)
  reducesTo_S513x256_S_d0_1 : S513x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S256 .f32) (main_arg13 : FVec F S256x1 .f32) (main_arg14 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x1 .f32 := Host.absf main_arg13
  let main_cst_22 : FVec F S_ .f32 := constant S_ .f32 0x7F800000#32
  let main_v60 : FVec F S256x1 .f32 := broadcastInDim S256x1 ![] bcast_S_S256x1 main_cst_22
  let main_v61 : IVec S256x1 1 := cmpf .olt main_v59 main_v60
  let main_c_23 : IVec S_ 1 := constantI S_ 1 1#1
  let main_v62 : IVec S_ 1 := (fun x v => Host.reduce IntOp.andi x v reducesTo_S256x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S256 .f32) (main_arg9 : FVec F S256x256 .f32) (main_arg10 : FVec F S256 .f32) (main_arg11 : FVec F S256x256 .f32) (main_arg12 : FVec F S256 .f32) (main_arg13 : FVec F S256x1 .f32) (main_arg14 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg12 main_arg13 main_arg14 main_v48 main_v49 main_v50

def fn_part1 {F : FTy → Type} [FloatOps F] (main_arg5 : FVec F S256x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) (main_arg13 : FVec F S256x1 .f32) (main_arg14 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg7
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S10000x256 .f32) (main_arg1 : FVec F S10000x3 .f32) (main_arg2 : IVec S2x320000 32) (main_arg3 : FVec F S513x256 .f32) (main_arg4 : FVec F S256 .f32) (main_arg5 : FVec F S256x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) (main_arg13 : FVec F S256x1 .f32) (main_arg14 : FVec F S1 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x3 .f32 := Host.absf main_arg1
  let main_cst_0 : FVec F S_ .f32 := constant S_ .f32 0x7F800000#32
  let main_v5 : FVec F S10000x3 .f32 := broadcastInDim S10000x3 ![] bcast_S_S10000x3 main_cst_0
  let main_v6 : IVec S10000x3 1 := cmpf .olt main_v4 main_v5
  let main_c_1 : IVec S_ 1 := constantI S_ 1 1#1
  let main_v7 : IVec S_ 1 := (fun x v => Host.reduce IntOp.andi x v reducesTo_S10000x3_S_d0_1 h_S_) main_v6 main_c_1
  let main_v8 : IVec S_ 1 := andi main_v3 main_v7
  let main_v9 : FVec F S513x256 .f32 := Host.absf main_arg3
  let main_cst_2 : FVec F S_ .f32 := constant S_ .f32 0x7F800000#32
  let main_v10 : FVec F S513x256 .f32 := broadcastInDim S513x256 ![] bcast_S_S513x256 main_cst_2
  let main_v11 : IVec S513x256 1 := cmpf .olt main_v9 main_v10
  let main_c_3 : IVec S_ 1 := constantI S_ 1 1#1
  let main_v12 : IVec S_ 1 := (fun x v => Host.reduce IntOp.andi x v reducesTo_S513x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_v13 main_v16
-- ==== Kernel.lean ====
abbrev S10000x256 : Shape := ⟨2, ![10000, 256]⟩
abbrev S10000x3 : Shape := ⟨2, ![10000, 3]⟩
abbrev S2x320000 : Shape := ⟨2, ![2, 320000]⟩
abbrev S513x256 : Shape := ⟨2, ![513, 256]⟩
abbrev S256 : Shape := ⟨1, ![256]⟩
abbrev S256x256 : Shape := ⟨2, ![256, 256]⟩
abbrev S512x256 : Shape := ⟨2, ![512, 256]⟩
abbrev S256x1 : Shape := ⟨2, ![256, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S320000x3 : Shape := ⟨2, ![320000, 3]⟩
abbrev S1x256 : Shape := ⟨2, ![1, 256]⟩
abbrev S1x1 : Shape := ⟨2, ![1, 1]⟩
abbrev S3200x256 : Shape := ⟨2, ![3200, 256]⟩
abbrev S3200x1 : Shape := ⟨2, ![3200, 1]⟩
abbrev S3200 : Shape := ⟨1, ![3200]⟩
abbrev S10000 : Shape := ⟨1, ![10000]⟩
abbrev S10000x1 : Shape := ⟨2, ![10000, 1]⟩
abbrev S1000x256 : Shape := ⟨2, ![1000, 256]⟩

abbrev nBuf : Space → Nat
  | .hbm => 108
  | .vmem => 31
  | .smem => 0
  | _ => 0

abbrev bufTy : (tb : Table) → Fin (tcTables nBuf tb) → BufTy
  | .hbm, ⟨0, _⟩ => ⟨S10000x256, .f32⟩
  | .hbm, ⟨1, _⟩ => ⟨S10000x3, .f32⟩
  | .hbm, ⟨2, _⟩ => ⟨S2x320000, .i32⟩
  | .hbm, ⟨3, _⟩ => ⟨S513x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x1, .f32⟩
  | .hbm, ⟨14, _⟩ => ⟨S1, .f32⟩
  | .hbm, ⟨15, _⟩ => ⟨S1x320000, .i32⟩
  | .hbm, ⟨16, _⟩ => ⟨S320000, .i32⟩
  | .hbm, ⟨17, _⟩ => ⟨S1x320000, .i32⟩
  | .hbm, ⟨18, _⟩ => ⟨S320000, .i32⟩
  | .hbm, ⟨19, _⟩ => ⟨S10000x256, .bf16⟩
  | .hbm, ⟨20, _⟩ => ⟨S_, .i32⟩
  | .hbm, ⟨21, _⟩ => ⟨S320000, .i32⟩
  | .hbm, ⟨22, _⟩ => ⟨S320000, .i1⟩
  | .hbm, ⟨23, _⟩ => ⟨S_, .i32⟩
  | .hbm, ⟨24, _⟩ => ⟨S320000, .i32⟩
  | .hbm, ⟨25, _⟩ => ⟨S320000, .i32⟩
  | .hbm, ⟨26, _⟩ => ⟨S320000, .i32⟩
  | .hbm, ⟨27, _⟩ => ⟨S320000x1, .i32⟩
  | .hbm, ⟨28, _⟩ => ⟨S320000x256, .bf16⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S320000x256, .bf16⟩
  | .hbm, ⟨38, _⟩ => ⟨S_, .i32⟩
  | .hbm, ⟨39, _⟩ => ⟨S320000, .i32⟩
  | .hbm, ⟨40, _⟩ => ⟨S320000, .i1⟩
  | .hbm, ⟨41, _⟩ => ⟨S_, .i32⟩
  | .hbm, ⟨42, _⟩ => ⟨S320000, .i32⟩
  | .hbm, ⟨43, _⟩ => ⟨S320000, .i32⟩
  | .hbm, ⟨44, _⟩ => ⟨S320000, .i32⟩
  | .hbm, ⟨45, _⟩ => ⟨S320000x1, .i32⟩
  | .hbm, ⟨46, _⟩ => ⟨S320000x3, .f32⟩
  | .hbm, ⟨47, _⟩ => ⟨S_, .i32⟩
  | .hbm, ⟨48, _⟩ => ⟨S320000, .i32⟩
  | .hbm, ⟨49, _⟩ => ⟨S320000, .i1⟩
  | .hbm, ⟨50, _⟩ => ⟨S_, .i32⟩
  | .hbm, ⟨51, _⟩ => ⟨S320000, .i32⟩
  | .hbm, ⟨52, _⟩ => ⟨S320000, .i32⟩
  | .hbm, ⟨53, _⟩ => ⟨S320000, .i32⟩
  | .hbm, ⟨54, _⟩ => ⟨S320000x1, .i32⟩
  | .hbm, ⟨55, _⟩ => ⟨S320000x3, .f32⟩
  | .hbm, ⟨56, _⟩ => ⟨S320000x3, .f32⟩
  | .hbm, ⟨57, _⟩ => ⟨S320000x3, .f32⟩
  | .hbm, ⟨58, _⟩ => ⟨S_, .f32⟩
  | .hbm, ⟨59, _⟩ => ⟨S320000, .f32⟩
  | .hbm, ⟨60, _⟩ => ⟨S320000x1, .f32⟩
  | .hbm, ⟨61, _⟩ => ⟨S256x256, .f32⟩
  | .hbm, ⟨62, _⟩ => ⟨S256x256, .bf16⟩
  | .hbm, ⟨63, _⟩ => ⟨S256x256, .f32⟩
  | .hbm, ⟨64, _⟩ => ⟨S256x256, .bf16⟩
  | .hbm, ⟨65, _⟩ => ⟨S1x256, .f32⟩
  | .hbm, ⟨66, _⟩ => ⟨S1x256, .f32⟩
  | .hbm, ⟨67, _⟩ => ⟨S256x256, .bf16⟩
  | .hbm, ⟨68, _⟩ => ⟨S1x256, .f32⟩
  | .hbm, ⟨69, _⟩ => ⟨S256x256, .bf16⟩
  | .hbm, ⟨70, _⟩ => ⟨S1x256, .f32⟩
  | .hbm, ⟨71, _⟩ => ⟨S1x256, .f32⟩
  | .hbm, ⟨72, _⟩ => ⟨S1x1, .f32⟩
  | .hbm, ⟨73, _⟩ => ⟨S320000x256, .bf16⟩
  | .hbm, ⟨74, _⟩ => ⟨S320000x1, .f32⟩
  | .hbm, ⟨75, _⟩ => ⟨S320000x3, .f32⟩
  | .hbm, ⟨76, _⟩ => ⟨S320000x3, .f32⟩
  | .hbm, ⟨77, _⟩ => ⟨S_, .f32⟩
  | .hbm, ⟨78, _⟩ => ⟨S10000x3, .f32⟩
  | .hbm, ⟨79, _⟩ => ⟨S320000x1, .i32⟩
  | .hbm, ⟨80, _⟩ => ⟨S10000x3, .f32⟩
  | .hbm, ⟨81, _⟩ => ⟨S_, .f32⟩
  | .hbm, ⟨82, _⟩ => ⟨S320000, .f32⟩
  | .hbm, ⟨83, _⟩ => ⟨S_, .f32⟩
  | .hbm, ⟨84, _⟩ => ⟨S10000, .f32⟩
  | .hbm, ⟨85, _⟩ => ⟨S320000x1, .i32⟩
  | .hbm, ⟨86, _⟩ => ⟨S10000, .f32⟩
  | .hbm, ⟨87, _⟩ => ⟨S_, .f32⟩
  | .hbm, ⟨88, _⟩ => ⟨S_, .f32⟩
  | .hbm, ⟨89, _⟩ => ⟨S10000, .f32⟩
  | .hbm, ⟨90, _⟩ => ⟨S10000, .f32⟩
  | .hbm, ⟨91, _⟩ => ⟨S10000x1, .f32⟩
  | .hbm, ⟨92, _⟩ => ⟨S10000x3, .f32⟩
  | .hbm, ⟨93, _⟩ => ⟨S10000x3, .f32⟩
  | .hbm, ⟨94, _⟩ => ⟨S10000x3, .f32⟩
  | .hbm, ⟨95, _⟩ => ⟨S320000x256, .f32⟩
  | .hbm, ⟨96, _⟩ => ⟨S_, .f32⟩
  | .hbm, ⟨97, _⟩ => ⟨S10000x256, .f32⟩
  | .hbm, ⟨98, _⟩ => ⟨S320000x1, .i32⟩
  | .hbm, ⟨99, _⟩ => ⟨S10000x256, .f32⟩
  | .hbm, ⟨100, _⟩ => ⟨S256x256, .f32⟩
  | .hbm, ⟨101, _⟩ => ⟨S256x256, .bf16⟩
  | .hbm, ⟨102, _⟩ => ⟨S256x256, .f32⟩
  | .hbm, ⟨103, _⟩ => ⟨S256x256, .bf16⟩
  | .hbm, ⟨104, _⟩ => ⟨S1x256, .f32⟩
  | .hbm, ⟨105, _⟩ => ⟨S256x256, .bf16⟩
  | .hbm, ⟨106, _⟩ => ⟨S1x256, .f32⟩
  | .hbm, ⟨107, _⟩ => ⟨S10000x256, .f32⟩
  | .local _ .vmem, ⟨0, _⟩ => ⟨S3200x256, .bf16⟩
  | .local _ .vmem, ⟨1, _⟩ => ⟨S3200x256, .bf16⟩
  | .local _ .vmem, ⟨2, _⟩ => ⟨S3200x256, .bf16⟩
  | .local _ .vmem, ⟨3, _⟩ => ⟨S3200x256, .bf16⟩
  | .local _ .vmem, ⟨4, _⟩ => ⟨S3200x1, .f32⟩
  | .local _ .vmem, ⟨5, _⟩ => ⟨S3200x1, .f32⟩
  | .local _ .vmem, ⟨6, _⟩ => ⟨S256x256, .bf16⟩
  | .local _ .vmem, ⟨7, _⟩ => ⟨S256x256, .bf16⟩
  | .local _ .vmem, ⟨8, _⟩ => ⟨S1x256, .f32⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S1x256, .f32⟩
  | .local _ .vmem, ⟨15, _⟩ => ⟨S1x1, .f32⟩
  | .local _ .vmem, ⟨16, _⟩ => ⟨S3200x256, .bf16⟩
  | .local _ .vmem, ⟨17, _⟩ => ⟨S3200x256, .bf16⟩
  | .local _ .vmem, ⟨18, _⟩ => ⟨S3200x1, .f32⟩
  | .local _ .vmem, ⟨19, _⟩ => ⟨S3200x1, .f32⟩
  | .local _ .vmem, ⟨20, _⟩ => ⟨S1000x256, .bf16⟩
  | .local _ .vmem, ⟨21, _⟩ => ⟨S1000x256, .bf16⟩
  | .local _ .vmem, ⟨22, _⟩ => ⟨S1000x256, .f32⟩
  | .local _ .vmem, ⟨23, _⟩ => ⟨S1000x256, .f32⟩
  | .local _ .vmem, ⟨24, _⟩ => ⟨S256x256, .bf16⟩
  | .local _ .vmem, ⟨25, _⟩ => ⟨S256x256, .bf16⟩
  | .local _ .vmem, ⟨26, _⟩ => ⟨S1x256, .f32⟩
  | .local _ .vmem, ⟨27, _⟩ => ⟨S256x256, .bf16⟩
  | .local _ .vmem, ⟨28, _⟩ => ⟨S1x256, .f32⟩
  | .local _ .vmem, ⟨29, _⟩ => ⟨S1000x256, .f32⟩
  | .local _ .vmem, ⟨30, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49_0 : Ref sig .tc := ⟨.hbm, 73, rfl⟩
abbrev main_v49_1 : Ref sig .tc := ⟨.hbm, 74, rfl⟩
abbrev main_v50 : Ref sig .tc := ⟨.hbm, 75, rfl⟩
abbrev main_v51 : Ref sig .tc := ⟨.hbm, 76, rfl⟩
abbrev main_cst_7 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_8 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_call0_v0 : Ref sig .tc := ⟨.hbm, 88, rfl⟩
abbrev main_call0_v1 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg7_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem7_1 : DmaSem sig := 30

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S3200x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S3200x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bitsLt_bf16_f32 : FTy.bits .bf16 < FTy.bits .f32
  bcast_S_S320000 : S_.BroadcastsInDim S320000 (![] : Fin 0 → Fin S320000.rank)
  bcast_S320000_S320000x1_0 : S320000.BroadcastsInDim S320000x1 (![0] : Fin 1 → Fin S320000x1.rank)
  reducesTo_S320000x3_S320000_d1 : S320000x3.ReducesTo [1] S320000
  h_S_ : 0 < S_.numel
  slices_S513x256_S256x256_0_0 : S513x256.Slices ![0, 0] S256x256
  slices_S513x256_S256x256_256_0 : S513x256.Slices ![256, 0] S256x256
  slices_S513x256_S1x256_512_0 : S513x256.Slices ![512, 0] S1x256
  shapeCasts_S256_S1x256 : S256.ShapeCasts S1x256
  shapeCasts_S256x1_S1x256 : S256x1.ShapeCasts S1x256
  shapeCasts_S1_S1x1 : S1.ShapeCasts S1x1
  inb_S3200x256_S3200x256_0_0 : ∀ a, (![0, 0] : Fin 2 → Nat) a + S3200x256.size a ≤ S3200x256.size a
  h_S3200x256 : 0 < S3200x256.numel
  shapeCasts_S3200x256_S3200x256 : S3200x256.ShapeCasts S3200x256
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S3200x1_S3200x256 : S3200x1.Broadcasts S3200x256
  broadcasts_S1x256_S3200x256 : S1x256.Broadcasts S3200x256
  packedbf16_S3200x256_S3200x256_0_0 : (Rect.unit (s := S3200x256) ![0, 0] S3200x256.size inb_S3200x256_S3200x256_0_0).PackedRows (EltTy.packing .bf16)
  reduces_S3200x256_S3200 : S3200x256.Reduces [1] S3200
  shapeCasts_S3200_S3200x1 : S3200.ShapeCasts S3200x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S3200x1 : S1x1.Broadcasts S3200x1
  bcast_S320000x1_S320000x3_0_1 : S320000x1.BroadcastsInDim S320000x3 (![0, 1] : Fin 2 → Fin S320000x3.rank)
  bcast_S_S10000x3 : S_.BroadcastsInDim S10000x3 (![] : Fin 0 → Fin S10000x3.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x3_0_1 : S10000x1.BroadcastsInDim S10000x3 (![0, 1] : Fin 2 → Fin S10000x3.rank)
  bcast_S_S10000x256 : S_.BroadcastsInDim S10000x256 (![] : Fin 0 → Fin S10000x256.rank)
  slices_S512x256_S256x256_0_0 : S512x256.Slices ![0, 0] S256x256
  slices_S512x256_S256x256_256_0 : S512x256.Slices ![256, 0] S256x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  broadcasts_S1x256_S1000x256 : S1x256.Broadcasts S1000x256
  gather_S10000x256_S320000x1_S320000x256_1_0_n_n_0_1_1256_wf : GatherDims.WF S10000x256 S320000x1 S320000x256 [1] [0] [] [0] [] 1 ![1, 256]
  gather_S10000x3_S320000x1_S320000x3_1_0_n_n_0_1_13_wf : GatherDims.WF S10000x3 S320000x1 S320000x3 [1] [0] [] [0] [] 1 ![1, 3]
  dot_S3200x256_S256x256_S3200x256_1_0_0_1_n_n_wf : DotDims.WF S3200x256 S256x256 S3200x256 [1] [0] [0] [1] [] []
  scatter_S10000x3_S320000x1_S320000x3_1_0_0_1_wf : ScatterDims.WF S10000x3 S320000x1 S320000x3 [1] [0] [0] 1
  scatter_S10000_S320000x1_S320000_n_0_0_1_wf : ScatterDims.WF S10000 S320000x1 S320000 [] [0] [0] 1
  scatter_S10000x256_S320000x1_S320000x256_1_0_0_1_wf : ScatterDims.WF S10000x256 S320000x1 S320000x256 [1] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x256.size a ≤ S320000x256.size a
  hwx0_0 : ∀ i : grid0.Coords, EltTy.bits .bf16 = 32 ∨ (Rect.block (s := S320000x256) S3200x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x256.size a ≤ S320000x256.size a
  hwx0_1 : ∀ i : grid0.Coords, EltTy.bits .bf16 = 32 ∨ (Rect.block (s := S320000x256) S3200x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x1.size a ≤ S320000x1.size a
  hwx0_2 : ∀ i : grid0.Coords, EltTy.bits .f32 = 32 ∨ (Rect.block (s := S320000x1) S3200x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S3200x256.size a ≤ S320000x256.size a
  hwx0_13 : ∀ i : grid0.Coords, EltTy.bits .bf16 = 32 ∨ (Rect.block (s := S320000x256) S3200x256.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S3200x1.size a ≤ S320000x1.size a
  hwx0_14 : ∀ i : grid0.Coords, EltTy.bits .f32 = 32 ∨ (Rect.block (s := S320000x1) S3200x1.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .bf16 = 32 ∨ (Rect.block (s := S10000x256) S1000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S10000x256.size a
  hwx1_1 : ∀ i : grid1.Coords, EltTy.bits .f32 = 32 ∨ (Rect.block (s := S10000x256) S1000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x256.size a ≤ S10000x256.size a
  hwx1_7 : ∀ i : grid1.Coords, EltTy.bits .f32 = 32 ∨ (Rect.block (s := S10000x256) S1000x256.size (cc1_transform_7 i) (hinb1_7 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def gather_S10000x3_S320000x1_S320000x3_1_0_n_n_0_1_13 : GatherDims S10000x3 S320000x1 S320000x3 where
  offsetDims := [1]
  collapsedSliceDims := [0]
  operandBatchingDims := []
  startIndicesBatchingDims := []
  startIndexMap := [0]
  indexVectorDim := 1
  sliceSizes := ![1, 3]
  wf := gather_S10000x3_S320000x1_S320000x3_1_0_n_n_0_1_13_wf
def dot_S3200x256_S256x256_S3200x256_1_0_0_1_n_n : DotDims S3200x256 S256x256 S3200x256 where
  lhsContracting := [1]
  rhsContracting := [0]
  lhsNonContracting := [0]
  rhsNonContracting := [1]
  lhsBatch := []
  rhsBatch := []
  wf := dot_S3200x256_S256x256_S3200x256_1_0_0_1_n_n_wf
def scatter_S10000x3_S320000x1_S320000x3_1_0_0_1 : ScatterDims S10000x3 S320000x1 S320000x3 where
  updateWindowDims := [1]
  insertedWindowDims := [0]
  scatterDimsToOperandDims := [0]
  indexVectorDim := 1
  wf := scatter_S10000x3_S320000x1_S320000x3_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_v11) S3200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S3200x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S3200x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v44) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v45) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v46) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v47) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v48) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v49_0) S3200x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v49_1) S3200x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v4) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v67) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v69) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v71) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v72) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v73) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v74) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v75) S1000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x256 : Shape := ⟨2, ![10000, 256]⟩
abbrev S10000x3 : Shape := ⟨2, ![10000, 3]⟩
abbrev S2x320000 : Shape := ⟨2, ![2, 320000]⟩
abbrev S513x256 : Shape := ⟨2, ![513, 256]⟩
abbrev S256 : Shape := ⟨1, ![256]⟩
abbrev S256x256 : Shape := ⟨2, ![256, 256]⟩
abbrev S512x256 : Shape := ⟨2, ![512, 256]⟩
abbrev S256x1 : Shape := ⟨2, ![256, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x3 : Shape := ⟨2, ![320000, 3]⟩
abbrev S320000x256 : Shape := ⟨2, ![320000, 256]⟩
abbrev S320000x513 : Shape := ⟨2, ![320000, 513]⟩
abbrev S1x256 : Shape := ⟨2, ![1, 256]⟩
abbrev S1x1 : Shape := ⟨2, ![1, 1]⟩
abbrev S10000x512 : Shape := ⟨2, ![10000, 512]⟩

abbrev nBuf : Space → Nat
  | .hbm => 144
  | .vmem => 0
  | .smem => 0
  | _ => 0

abbrev hbmTy0_0 (i : Nat) : BufTy := match i % 128 with
  | 0 => ⟨S10000x256, .f32⟩
  | 1 => ⟨S10000x3, .f32⟩
  | 2 => ⟨S2x320000, .i32⟩
  | 3 => ⟨S513x256, .f32⟩
  | 4 => ⟨S256, .f32⟩
  | 5 => ⟨S256x256, .f32⟩
  | 6 => ⟨S256, .f32⟩
  | 7 => ⟨S512x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256x1, .f32⟩
  | 14 => ⟨S1, .f32⟩
  | 15 => ⟨S1x320000, .i32⟩
  | 16 => ⟨S320000, .i32⟩
  | 17 => ⟨S1x320000, .i32⟩
  | 18 => ⟨S320000, .i32⟩
  | 19 => ⟨S_, .i32⟩
  | 20 => ⟨S320000, .i32⟩
  | 21 => ⟨S320000, .i1⟩
  | 22 => ⟨S_, .i32⟩
  | 23 => ⟨S320000, .i32⟩
  | 24 => ⟨S320000, .i32⟩
  | 25 => ⟨S320000, .i32⟩
  | 26 => ⟨S320000x1, .i32⟩
  | 27 => ⟨S320000x3, .f32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S320000x3, .f32⟩
  | 37 => ⟨S320000x3, .f32⟩
  | 38 => ⟨S320000x3, .f32⟩
  | 39 => ⟨S_, .f32⟩
  | 40 => ⟨S320000, .f32⟩
  | 41 => ⟨S320000x1, .f32⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S320000x256, .f32⟩
  | 51 => ⟨S_, .i32⟩
  | 52 => ⟨S320000, .i32⟩
  | 53 => ⟨S320000, .i1⟩
  | 54 => ⟨S_, .i32⟩
  | 55 => ⟨S320000, .i32⟩
  | 56 => ⟨S320000, .i32⟩
  | 57 => ⟨S320000, .i32⟩
  | 58 => ⟨S320000x1, .i32⟩
  | 59 => ⟨S320000x256, .f32⟩
  | 60 => ⟨S320000x513, .f32⟩
  | 61 => ⟨S320000x256, .f32⟩
  | 62 => ⟨S1x256, .f32⟩
  | 63 => ⟨S320000x256, .f32⟩
  | 64 => ⟨S320000x256, .f32⟩
  | 65 => ⟨S320000x256, .f32⟩
  | 66 => ⟨S320000x256, .f32⟩
  | 67 => ⟨S_, .f32⟩
  | 68 => ⟨S320000x256, .f32⟩
  | 69 => ⟨S320000x256, .f32⟩
  | 70 => ⟨S_, .f32⟩
  | 71 => ⟨S320000x256, .f32⟩
  | 72 => ⟨S320000x256, .f32⟩
  | 73 => ⟨S320000x256, .f32⟩
  | 74 => ⟨S320000x256, .f32⟩
  | 75 => ⟨S1x256, .f32⟩
  | 76 => ⟨S320000x256, .f32⟩
  | 77 => ⟨S320000x256, .f32⟩
  | 78 => ⟨S320000x256, .f32⟩
  | 79 => ⟨S320000x256, .f32⟩
  | 80 => ⟨S_, .f32⟩
  | 81 => ⟨S320000x256, .f32⟩
  | 82 => ⟨S320000x256, .f32⟩
  | 83 => ⟨S_, .f32⟩
  | 84 => ⟨S320000x256, .f32⟩
  | 85 => ⟨S320000x256, .f32⟩
  | 86 => ⟨S320000x256, .f32⟩
  | 87 => ⟨S320000x256, .f32⟩
  | 88 => ⟨S1x256, .f32⟩
  | 89 => ⟨S320000x256, .f32⟩
  | 90 => ⟨S320000x256, .f32⟩
  | 91 => ⟨S320000x256, .f32⟩
  | 92 => ⟨S320000x256, .f32⟩
  | 93 => ⟨S_, .f32⟩
  | 94 => ⟨S320000x256, .f32⟩
  | 95 => ⟨S320000x256, .f32⟩
  | 96 => ⟨S_, .f32⟩
  | 97 => ⟨S320000x256, .f32⟩
  | 98 => ⟨S320000x256, .f32⟩
  | 99 => ⟨S320000x256, .f32⟩
  | 100 => ⟨S320000x1, .f32⟩
  | 101 => ⟨S1x1, .f32⟩
  | 102 => ⟨S320000x1, .f32⟩
  | 103 => ⟨S320000x1, .f32⟩
  | 104 => ⟨S320000x3, .f32⟩
  | 105 => ⟨S320000x3, .f32⟩
  | 106 => ⟨S_, .f32⟩
  | 107 => ⟨S10000x3, .f32⟩
  | 108 => ⟨S320000x1, .i32⟩
  | 109 => ⟨S10000x3, .f32⟩
  | 110 => ⟨S_, .f32⟩
  | 111 => ⟨S320000x3, .f32⟩
  | 112 => ⟨S_, .f32⟩
  | 113 => ⟨S10000x3, .f32⟩
  | 114 => ⟨S320000x1, .i32⟩
  | 115 => ⟨S10000x3, .f32⟩
  | 116 => ⟨S_, .f32⟩
  | 117 => ⟨S_, .f32⟩
  | 118 => ⟨S10000x3, .f32⟩
  | 119 => ⟨S10000x3, .f32⟩
  | 120 => ⟨S10000x3, .f32⟩
  | 121 => ⟨S10000x3, .f32⟩
  | 122 => ⟨S_, .f32⟩
  | 123 => ⟨S10000x256, .f32⟩
  | 124 => ⟨S320000x1, .i32⟩
  | 125 => ⟨S10000x256, .f32⟩
  | 126 => ⟨S10000x512, .f32⟩
  | 127 => ⟨S10000x256, .f32⟩
  | _ => ⟨S10000x256, .f32⟩

abbrev hbmTy0_1 (i : Nat) : BufTy := match i % 128 with
  | 0 => ⟨S1x256, .f32⟩
  | 1 => ⟨S10000x256, .f32⟩
  | 2 => ⟨S10000x256, .f32⟩
  | 3 => ⟨S10000x256, .f32⟩
  | 4 => ⟨S10000x256, .f32⟩
  | 5 => ⟨S_, .f32⟩
  | 6 => ⟨S10000x256, .f32⟩
  | 7 => ⟨S10000x256, .f32⟩
  | 8 => ⟨S_, .f32⟩
  | 9 => ⟨S10000x256, .f32⟩
  | 10 => ⟨S10000x256, .f32⟩
  | 11 => ⟨S10000x256, .f32⟩
  | 12 => ⟨S10000x256, .f32⟩
  | 13 => ⟨S1x256, .f32⟩
  | 14 => ⟨S10000x256, .f32⟩
  | 15 => ⟨S10000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_c_3 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_call1_v5 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_call2_v0 : Ref sig .tc := ⟨.hbm, 91, rfl⟩
abbrev main_call2_v1 : Ref sig .tc := ⟨.hbm, 92, rfl⟩
abbrev main_call2_cst : Ref sig .tc := ⟨.hbm, 93, rfl⟩
abbrev main_call2_v2 : Ref sig .tc := ⟨.hbm, 94, rfl⟩
abbrev main_call2_v3 : Ref sig .tc := ⟨.hbm, 95, rfl⟩
abbrev main_call2_cst_0 : Ref sig .tc := ⟨.hbm, 96, rfl⟩
abbrev main_call2_v4 : Ref sig .tc := ⟨.hbm, 97, rfl⟩
abbrev main_call2_v5 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_7 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_cst_8 : Ref sig .tc := ⟨.hbm, 110, rfl⟩
abbrev main_v61 : Ref sig .tc := ⟨.hbm, 111, rfl⟩
abbrev main_cst_9 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_cst_10 : Ref sig .tc := ⟨.hbm, 116, rfl⟩
abbrev main_call3_v0 : Ref sig .tc := ⟨.hbm, 117, rfl⟩
abbrev main_call3_v1 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_cst_11 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_call4_v0 : Ref sig .tc := ⟨.hbm, 131, rfl⟩
abbrev main_call4_v1 : Ref sig .tc := ⟨.hbm, 132, rfl⟩
abbrev main_call4_cst : Ref sig .tc := ⟨.hbm, 133, rfl⟩
abbrev main_call4_v2 : Ref sig .tc := ⟨.hbm, 134, rfl⟩
abbrev main_call4_v3 : Ref sig .tc := ⟨.hbm, 135, rfl⟩
abbrev main_call4_cst_0 : Ref sig .tc := ⟨.hbm, 136, rfl⟩
abbrev main_call4_v4 : Ref sig .tc := ⟨.hbm, 137, rfl⟩
abbrev main_call4_v5 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  reducesTo_S320000x3_S320000_d1 : S320000x3.ReducesTo [1] S320000
  h_S_ : 0 < S_.numel
  concatenates_S320000x256_S320000x256_S320000x1_S320000x513_d1 : Shape.Concatenates [S320000x256, S320000x256, S320000x1] S320000x513 1
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  bcast_S320000x1_S320000x3_0_1 : S320000x1.BroadcastsInDim S320000x3 (![0, 1] : Fin 2 → Fin S320000x3.rank)
  bcast_S_S10000x3 : S_.BroadcastsInDim S10000x3 (![] : Fin 0 → Fin S10000x3.rank)
  bcast_S_S320000x3 : S_.BroadcastsInDim S320000x3 (![] : Fin 0 → Fin S320000x3.rank)
  bcast_S_S10000x256 : S_.BroadcastsInDim S10000x256 (![] : Fin 0 → Fin S10000x256.rank)
  concatenates_S10000x256_S10000x256_S10000x512_d1 : Shape.Concatenates [S10000x256, S10000x256] S10000x512 1
  bcast_S1x256_S10000x256_0_1 : S1x256.BroadcastsInDim S10000x256 (![0, 1] : Fin 2 → Fin S10000x256.rank)
  gather_S10000x3_S320000x1_S320000x3_1_0_n_n_0_1_13_wf : GatherDims.WF S10000x3 S320000x1 S320000x3 [1] [0] [] [0] [] 1 ![1, 3]
  gather_S10000x256_S320000x1_S320000x256_1_0_n_n_0_1_1256_wf : GatherDims.WF S10000x256 S320000x1 S320000x256 [1] [0] [] [0] [] 1 ![1, 256]
  dot_S320000x513_S513x256_S320000x256_1_0_0_1_n_n_wf : DotDims.WF S320000x513 S513x256 S320000x256 [1] [0] [0] [1] [] []
  dot_S320000x256_S256x256_S320000x256_1_0_0_1_n_n_wf : DotDims.WF S320000x256 S256x256 S320000x256 [1] [0] [0] [1] [] []
  dot_S320000x256_S256x1_S320000x1_1_0_0_1_n_n_wf : DotDims.WF S320000x256 S256x1 S320000x1 [1] [0] [0] [1] [] []
  scatter_S10000x3_S320000x1_S320000x3_1_0_0_1_wf : ScatterDims.WF S10000x3 S320000x1 S320000x3 [1] [0] [0] 1
  scatter_S10000x256_S320000x1_S320000x256_1_0_0_1_wf : ScatterDims.WF S10000x256 S320000x1 S320000x256 [1] [0] [0] 1
  dot_S10000x512_S512x256_S10000x256_1_0_0_1_n_n_wf : DotDims.WF S10000x512 S512x256 S10000x256 [1] [0] [0] [1] [] []
  dot_S10000x256_S256x256_S10000x256_1_0_0_1_n_n_wf : DotDims.WF S10000x256 S256x256 S10000x256 [1] [0] [0] [1] [] []

variable [Facts₀]

def gather_S10000x3_S320000x1_S320000x3_1_0_n_n_0_1_13 : GatherDims S10000x3 S320000x1 S320000x3 where
  offsetDims := [1]
  collapsedSliceDims := [0]
  operandBatchingDims := []
  startIndicesBatchingDims := []
  startIndexMap := [0]
  indexVectorDim := 1
  sliceSizes := ![1, 3]
  wf := gather_S10000x3_S320000x1_S320000x3_1_0_n_n_0_1_13_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x513_S513x256_S320000x256_1_0_0_1_n_n : DotDims S320000x513 S513x256 S320000x256 where
  lhsContracting := [1]
  rhsContracting := [0]
  lhsNonContracting := [0]
  rhsNonContracting := [1]
  lhsBatch := []
  rhsBatch := []
  wf := dot_S320000x513_S513x256_S320000x256_1_0_0_1_n_n_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def dot_S320000x256_S256x1_S320000x1_1_0_0_1_n_n : DotDims S320000x256 S256x1 S320000x1 where
  lhsContracting := [1]
  rhsContracting := [0]
  lhsNonContracting := [0]
  rhsNonContracting := [1]
  lhsBatch := []
  rhsBatch := []
  wf := dot_S320000x256_S256x1_S320000x1_1_0_0_1_n_n_wf
def scatter_S10000x3_S320000x1_S320000x3_1_0_0_1 : ScatterDims S10000x3 S320000x1 S320000x3 where
  updateWindowDims := [1]
  insertedWindowDims := [0]
  scatterDimsToOperandDims := [0]
  indexVectorDim := 1
  wf := scatter_S10000x3_S320000x1_S320000x3_1_0_0_1_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.KernelRun.lean ====
/-
  The idealized kernel program, run from any memory with every counter at zero.

  @main is four stretches of host operations around two kernel regions. Along that walk the contents of every buffer at
  each boundary are a known function of the launch memory: a host stretch applies its operations to the contents before
  it, and a region replaces each of its arrays by what its grid points wrote back. Every weakly fair execution
  terminates without a fault, and in its final state every buffer that is not scoped to a region holds the contents of
  the last boundary. Read at the two buffers the program returns and at its fifteen arguments, that is: the node
  features and the coordinates end at the last boundary's contents, and every argument ends as it was launched.
-/
import proofs.«162943_j20607253086819_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the two returned buffers end at the contents of
    the last segment boundary, and the argument arrays end as launched. -/
theorem run : θ_run defs (onTc (τ := τ) (main (F := F))) ⟨m, fun _ => 0, ρ⟩ (fun r => ∀ c : Dev nD,
      r.2.mem ((c.tc : Thread nD τ).loc main_v75) = W6 m ρ c (Proc.devRef .tc main_v75)
      ∧ r.2.mem ((c.tc : Thread nD τ).loc main_v63) = W6 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v75 (by decide)),
       h c _ (mem_uc main_v63 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.Named

end
-- ==== Proof.Layer.lean ====
/-
  One message-passing layer of an equivariant graph network, row by row, on the extended reals.

  For an edge e from node row(e) to node col(e), with h the node features, x the coordinates and
  rad(e) = |x(row e) − x(col e)|²:

      m₁(e)  = silu ([h(row e), h(col e), rad(e)] · We1 + be1)          a row of 256
      ef(e)  = silu (m₁(e) · We2 + be2)                                   the edge features, a row of 256
      cs(e)  = silu (ef(e) · Wc1 + bc1) · Wc2 + bc2                       one scalar per edge

  and for a node n, with agg(n) the sum of ef(e) over the edges e that end in n:

      out(n) = silu ([h(n), agg(n)] · Wn1 + bn1) · Wn2 + bn2              a row of 256.

  Here silu t = t · 1/(1 + e^(−t)) and [u, v, r] is the row u followed by the row v followed by the scalar r. A product
  of such a joined row with a matrix is a sum over the joined axis, and a sum over a joined axis is the sum of the sums
  over its parts: so [u, v, r] · W = u · W[0:256] + v · W[256:512] + r · W[512]. That regrouping uses only that
  addition is commutative and associative, which holds on the extended reals as in any commutative monoid: no entry
  needs to be finite.
-/
import Idealize.ShloMosaic.PureOps.Ideal
import Idealize.ShloMosaic.Lib.ValueIdx

noncomputable section

open scoped BigOperators

namespace Cert.Layer

open Idealize.ShloMosaic Idealize.ShloMosaic.ValueIdx

/-! ## Rows -/

/-- `silu t = t · 1/(1 + e^(−t))`. -/
def silu (t : EReal) : EReal := t * Ideal.logistic t

/-- Column `j` of `x · W + b` for one row `x`. -/
def dense {K N : Nat} (x : Fin K → EReal) (W : Fin K → Fin N → EReal) (b : Fin N → EReal) (j : Fin N) : EReal :=
  (∑ k, x k * W k j) + b j

/-- A row of `a` entries, a row of `b` entries and one more entry, laid end to end. -/
def cat3 {a b : Nat} (u : Fin a → EReal) (v : Fin b → EReal) (r : EReal) (k : Fin (a + b + 1)) : EReal :=
  if h : k.val < a then u ⟨k.val, h⟩ else if h' : k.val < a + b then v ⟨k.val - a, by omega⟩ else r

/-- A row of `a` entries and a row of `b` entries, laid end to end. -/
def cat2 {a b : Nat} (u : Fin a → EReal) (v : Fin b → EReal) (k : Fin (a + b)) : EReal :=
  if h : k.val < a then u ⟨k.val, h⟩ else v ⟨k.val - a, by have := k.isLt; omega⟩

/-- A sum over an axis of `a + b + 1` positions is the sum over the first `a`, plus the sum over the next `b`, plus
    the last term. -/
theorem sum_three {M : Type} [AddCommMonoid M] (a b : Nat) (f : Fin (a + b + 1) → M) :
    ∑ k, f k = (∑ i : Fin a, f ⟨i.val, by have := i.isLt; omega⟩)
      + (∑ i : Fin b, f ⟨a + i.val, by have := i.isLt; omega⟩) + f ⟨a + b, by omega⟩ := by
  rw [Fin.sum_univ_castSucc, Fin.sum_univ_add]
  rfl

/-- A sum over an axis of `a + b` positions is the sum over the first `a` plus the sum over the next `b`. -/
theorem sum_two {M : Type} [AddCommMonoid M] (a b : Nat) (f : Fin (a + b) → M) :
    ∑ k, f k = (∑ i : Fin a, f ⟨i.val, by have := i.isLt; omega⟩)
      + (∑ i : Fin b, f ⟨a + i.val, by have := i.isLt; omega⟩) := by
  rw [Fin.sum_univ_add]
  rfl

/-- THE LAW OF THE EDGE LAYER: a joined row `[u, v, r]` times a matrix, plus a bias, is `u` times the first `a` rows
    of the matrix plus `v` times the next `b` rows plus `r` times the last row, plus the bias. -/
theorem dense_cat3 {a b N : Nat} (u : Fin a → EReal) (v : Fin b → EReal) (r : EReal)
    (W : Fin (a + b + 1) → Fin N → EReal) (bias : Fin N → EReal) (j : Fin N) :
    dense (cat3 u v r) W bias j
      = (∑ i : Fin a, u i * W ⟨i.val, by have := i.isLt; omega⟩ j)
        + (∑ i : Fin b, v i * W ⟨a + i.val, by have := i.isLt; omega⟩ j)
        + r * W ⟨a + b, by omega⟩ j + bias j := by
  unfold dense
  rw [sum_three a b fun k => cat3 u v r k * W k j]
  congr 1
  congr 1
  · congr 1
    · refine Finset.sum_congr rfl fun i _ => ?_
      have hi := i.isLt
      simp only [cat3, dif_pos hi]
    · refine Finset.sum_congr rfl fun i _ => ?_
      have hi := i.isLt
      have h1 : ¬ a + i.val < a := by omega
      have h2 : a + i.val < a + b := by omega
      simp only [cat3, dif_neg h1, dif_pos h2, Nat.add_sub_cancel_left]
  · have h1 : ¬ a + b < a := by omega
    have h2 : ¬ a + b < a + b := by omega
    simp only [cat3, dif_neg h1, dif_neg h2]

/-- THE LAW OF THE NODE LAYER: a joined row `[u, v]` times a matrix, plus a bias, is `u` times the first `a` rows of
    the matrix plus `v` times the next `b` rows, plus the bias. -/
theorem dense_cat2 {a b N : Nat} (u : Fin a → EReal) (v : Fin b → EReal)
    (W : Fin (a + b) → Fin N → EReal) (bias : Fin N → EReal) (j : Fin N) :
    dense (cat2 u v) W bias j
      = (∑ i : Fin a, u i * W ⟨i.val, by have := i.isLt; omega⟩ j)
        + (∑ i : Fin b, v i * W ⟨a + i.val, by have := i.isLt; omega⟩ j) + bias j := by
  unfold dense
  rw [sum_two a b fun k => cat2 u v k * W k j]
  congr 1
  congr 1
  · refine Finset.sum_congr rfl fun i _ => ?_
    have hi := i.isLt
    simp only [cat2, dif_pos hi]
  · refine Finset.sum_congr rfl fun i _ => ?_
    have hi := i.isLt
    have h1 : ¬ a + i.val < a := by omega
    simp only [cat2, dif_neg h1, Nat.add_sub_cancel_left]

/-! ## Arrays: each result as one function of the arrays it is computed from, index by index -/

/-- Shorthand: an array of extended reals over a literal two-axis shape. -/
abbrev Arr2 (R C : Nat) : Type := (⟨2, ![R, C]⟩ : Shape).Idx → EReal
/-- Shorthand: an array of extended reals over a literal one-axis shape. -/
abbrev Arr1 (C : Nat) : Type := (⟨1, ![C]⟩ : Shape).Idx → EReal

/-- Row `r` of a two-axis array. -/
def rowOfArr {R C : Nat} (A : Arr2 R C) (r : Fin R) : Fin C → EReal := fun k => A (ix2 r k)
/-- A two-axis array read by coordinates. -/
def mat {R C : Nat} (A : Arr2 R C) : Fin R → Fin C → EReal := fun a b => A (ix2 a b)
/-- A one-axis array read by its coordinate. -/
def vec {C : Nat} (A : Arr1 C) : Fin C → EReal := fun b => A (ix1 b)

/-- The first hidden row of edge `e`: `silu ([h(row e), h(col e), rad(e)] · We1 + be1)`. -/
def edgeHidden (HR HC : Arr2 320000 256) (RAD : Arr2 320000 1) (We1 : Arr2 513 256) (be1 : Arr1 256)
    (e : Fin 320000) : Fin 256 → EReal :=
  fun k => silu (dense (cat3 (a := 256) (b := 256) (rowOfArr HR e) (rowOfArr HC e) (RAD (ix2 e 0))) (mat We1) (vec be1) k)

/-- The edge features of edge `e`: `silu (m₁(e) · We2 + be2)`. -/
def edgeFeat (HR HC : Arr2 320000 256) (RAD : Arr2 320000 1) (We1 : Arr2 513 256) (be1 : Arr1 256)
    (We2 : Arr2 256 256) (be2 : Arr1 256) (e : Fin 320000) : Fin 256 → EReal :=
  fun j => silu (dense (edgeHidden HR HC RAD We1 be1 e) (mat We2) (vec be2) j)

/-- The coordinate weight of an edge whose features are the row `ef`: `silu (ef · Wc1 + bc1) · Wc2 + bc2`. -/
def coordScalar (ef : Fin 256 → EReal) (Wc1 : Arr2 256 256) (bc1 : Arr1 256) (Wc2 : Arr2 256 1) (bc2 : Arr1 1) : EReal :=
  (∑ k : Fin 256, silu (dense ef (mat Wc1) (vec bc1) k) * Wc2 (ix2 k 0)) + bc2 (ix1 0)

/-- The new features of a node with features `h` and aggregated edge features `agg`:
    `silu ([h, agg] · Wn1 + bn1) · Wn2 + bn2`. -/
def nodeOut (h agg : Fin 256 → EReal) (Wn1 : Arr2 512 256) (bn1 : Arr1 256) (Wn2 : Arr2 256 256) (bn2 : Arr1 256) :
    Fin 256 → EReal :=
  fun j => dense (fun k => silu (dense (cat2 (a := 256) (b := 256) h agg) (mat Wn1) (vec bn1) k)) (mat Wn2) (vec bn2) j

end Cert.Layer

end
-- ==== Proof.LibDenseRow.lean ====
/-
  A dense layer read on one row, on the extended reals.

  A layer y = x · W + b applied to a batch of rows acts on each row by itself:

      y(r, j) = (∑ₖ x(r, k) · W(k, j)) + b(j).

  This file states that once, for a rows × columns contraction of any extents, in the two spellings a program can
  give it: a matrix product accumulated into a zero array and then a bias row broadcast down the rows, and a host
  contraction followed by a bias vector broadcast to a row and then down the rows. Both are `affine` of the row, of
  the weights read by coordinates, and of the bias read by its column. Nothing here needs finiteness: only the
  definitions of the operations on the extended reals are opened, no law of arithmetic is used.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibDenseRow

open Idealize.ShloMosaic Idealize.ShloMosaic.ValueIdx

/-- Column `j` of `x · W + b` for one row `x`. -/
def affine {K N : Nat} (x : Fin K → EReal) (W : Fin K → Fin N → EReal) (b : Fin N → EReal) (j : Fin N) : EReal :=
  (∑ k, x k * W k j) + b j

/-- The contraction of a rows × columns product at entry `(p, q)` runs over the one shared axis: it is the sum over
    `k` of the left operand at `(p, k)` times the right operand at `(k, q)`. -/
theorem plain_contraction (M K N : Nat) (l : (⟨2, ![M, K]⟩ : Shape).Idx → EReal) (r : (⟨2, ![K, N]⟩ : Shape).Idx → EReal)
    (p : Fin M) (q : Fin N) :
    ∑ c : (DotDims.plain M K N).contr.Idx,
        l ((DotDims.plain M K N).lhsIdx (ix2 p q) c) * r ((DotDims.plain M K N).rhsIdx (ix2 p q) c)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A matrix product accumulated into the zero array, at entry `(p, q)`. -/
theorem matmul_zero_apply (M K N : Nat) {φ₁ φ₂ : FTy} (prec : Option ContractPrecision)
    (X : FVec Ideal ⟨2, ![M, K]⟩ φ₁) (W : FVec Ideal ⟨2, ![K, N]⟩ φ₂) (p : Fin M) (q : Fin N) :
    matmul (DotDims.plain M K N) prec X W (constant ⟨2, ![M, N]⟩ .f32 0x00000000#32) (ix2 p q)
      = ∑ k : Fin K, X (ix2 p k) * W (ix2 k q) :=
  (Ideal.matmul_constant_zero_apply (DotDims.plain M K N) prec X W (ix2 p q)).trans (plain_contraction M K N X W p q)

/-- A host contraction, at entry `(p, q)`. -/
theorem dotGeneral_apply (M K N : Nat) {φ₁ φ₂ : FTy} (prec : Option ContractPrecision)
    (X : FVec Ideal ⟨2, ![M, K]⟩ φ₁) (W : FVec Ideal ⟨2, ![K, N]⟩ φ₂) (p : Fin M) (q : Fin N) :
    Host.dotGeneral (DotDims.plain M K N) prec X W (ix2 p q) = ∑ k : Fin K, X (ix2 p k) * W (ix2 k q) :=
  (Ideal.dotGeneral_apply (DotDims.plain M K N) prec .single X W (ix2 p q)).trans (plain_contraction M K N X W p q)

/-- A bias row `[1, N]` broadcast down `M` rows reads its column. -/
theorem biasRow_apply {α : Type} (M N : Nat) (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 0 q) :=
  broadcastTo_apply b h (ix2 p q) (ix2 0 q) (fun a => by
    match a with
    | ⟨0, _⟩ => rfl
    | ⟨1, _⟩ =>
      show q.val = if N = 1 then 0 else q.val
      split
      · have := q.isLt; omega
      · rfl)

/-- A bias vector `[N]` broadcast to a row `[1, N]` and then down `M` rows reads its entry. -/
theorem biasVec_apply {α : Type} (M N : Nat) (b : (⟨1, ![N]⟩ : Shape).Idx → α)
    (h₁ : (⟨1, ![N]⟩ : Shape).BroadcastsInDim ⟨2, ![1, N]⟩ ![1])
    (h₂ : (⟨2, ![1, N]⟩ : Shape).BroadcastsInDim ⟨2, ![M, N]⟩ ![0, 1]) (p : Fin M) (q : Fin N) :
    broadcastInDim ⟨2, ![M, N]⟩ ![0, 1] h₂ (broadcastInDim ⟨2, ![1, N]⟩ ![1] h₁ b) (ix2 p q) = b (ix1 q) := by
  rw [broadcastInDim_apply ![0, 1] h₂ _ (ix2 p q) (ix2 0 q) (fun a => by
    match a with
    | ⟨0, _⟩ => rfl
    | ⟨1, _⟩ =>
      show q.val = if N = 1 then 0 else q.val
      split
      · have := q.isLt; omega
      · rfl)]
  exact broadcastInDim_apply ![1] h₁ b (ix2 0 q) (ix1 q) (fun a => by
    match a with
    | ⟨0, _⟩ =>
      show q.val = if N = 1 then 0 else q.val
      split
      · have := q.isLt; omega
      · rfl)

end Cert.LibDenseRow

end
-- ==== Proof.Region0Row.lean ====
/-
  The edge kernel's block arithmetic, read at one entry.

  At one grid point the edge kernel holds a block of 3200 edges: their source rows `a`, their target rows `b` (3200 × 256
  each), their squared distances `r` (3200 × 1), and the weights. It computes, for every edge `p` of the block and
  every column,

      m₁(p, k) = silu ( ∑ᵢ a(p,i)·A(i,k) + ∑ᵢ b(p,i)·B(i,k) + r(p)·c(k) + β₁(k) )
      ef(p, q) = silu ( ∑ₖ m₁(p,k)·W₂(k,q) + β₂(q) )
      cs(p)    = ∑ₖ silu ( ∑ⱼ ef(p,j)·W₃(j,k) + β₃(k) ) · w(k) + β₄

  where `A`, `B`, `c` are the first 256 rows, the next 256 rows and the last row of the first weight matrix. Each
  matrix product is accumulated into a zero block, so at an entry it is the plain sum over the shared axis; a bias is
  a single row repeated down the block; a change of float format is the identity on the extended reals. Row `p` of
  each result depends on row `p` of `a`, `b`, `r` only.
-/
import proofs.«162943_j20607253086819_2_alg».proof.Proof.Gen.KernelIdeal.Skeleton
import proofs.«162943_j20607253086819_2_alg».proof.Proof.Layer
import proofs.«162943_j20607253086819_2_alg».proof.Proof.LibDenseRow
import Idealize.ShloMosaic.Lib.ValueIdx
import Idealize.ShloMosaic.Lib.Pipeline.Value
import Idealize.ShloMosaic.PureOps.Ideal.Laws

noncomputable section

open scoped BigOperators

namespace Cert.Region0

open Cert.KernelIdeal Cert.KernelIdeal.Gen Cert.Layer
open Idealize.ShloMosaic Idealize.ShloMosaic.ValueIdx

/-- The printed contraction of a 3200 × 256 block with a 256 × 256 matrix is the plain rows-by-columns one. -/
theorem dot_block : dot_S3200x256_S256x256_S3200x256_1_0_0_1_n_n = DotDims.plain 3200 256 256 := rfl

/-- A block times a matrix, accumulated into zeros, plus a bias row repeated down the block: at entry `(p, q)` it is
    column `q` of `x · W + β` for the row `x` = row `p` of the block. -/
theorem dense_block {φ₁ φ₂ : FTy} (X : FVec Ideal S3200x256 φ₁) (W : FVec Ideal S256x256 φ₂) (β : FVec Ideal S1x256 .f32)
    (p : Fin 3200) (q : Fin 256) :
    addf (matmul dot_S3200x256_S256x256_S3200x256_1_0_0_1_n_n none X W (constant S3200x256 .f32 0x00000000#32))
        (broadcastTo S3200x256 β broadcasts_S1x256_S3200x256) (ix2 p q)
      = dense (fun k => X (ix2 p k)) (fun a c => W (ix2 a c)) (fun c => β (ix2 0 c)) q := by
  rw [addf_apply, dot_block, Cert.LibDenseRow.matmul_zero_apply 3200 256 256 none X W p q,
    Cert.LibDenseRow.biasRow_apply 3200 256 β broadcasts_S1x256_S3200x256 p q]
  rfl

/-- The first hidden block at entry `(p, k)`, before its activation: the two products, the distance term and the bias. -/
theorem hidden_pre (a b : FVec Ideal S3200x256 .bf16) (r : FVec Ideal S3200x1 .f32) (A B : FVec Ideal S256x256 .bf16)
    (c β₁ : FVec Ideal S1x256 .f32) (p : Fin 3200) (k : Fin 256) :
    addf (addf (addf (matmul dot_S3200x256_S256x256_S3200x256_1_0_0_1_n_n none a A (constant S3200x256 .f32 0x00000000#32))
            (matmul dot_S3200x256_S256x256_S3200x256_1_0_0_1_n_n none b B (constant S3200x256 .f32 0x00000000#32)))
          (mulf (broadcastTo S3200x256 r broadcasts_S3200x1_S3200x256) (broadcastTo S3200x256 c broadcasts_S1x256_S3200x256)))
        (broadcastTo S3200x256 β₁ broadcasts_S1x256_S3200x256) (ix2 p k)
      = (∑ i : Fin 256, a (ix2 p i) * A (ix2 i k)) + (∑ i : Fin 256, b (ix2 p i) * B (ix2 i k))
          + r (ix2 p 0) * c (ix2 0 k) + β₁ (ix2 0 k) := by
  rw [addf_apply, addf_apply, addf_apply, mulf_apply, dot_block,
    Cert.LibDenseRow.matmul_zero_apply 3200 256 256 none a A p k,
    Cert.LibDenseRow.matmul_zero_apply 3200 256 256 none b B p k,
    Cert.LibDenseRow.biasRow_apply 3200 256 c broadcasts_S1x256_S3200x256 p k,
    Cert.LibDenseRow.biasRow_apply 3200 256 β₁ broadcasts_S1x256_S3200x256 p k,
    broadcastTo_apply r broadcasts_S3200x1_S3200x256 (ix2 p k) (ix2 p 0) (fun d => by
      match d with
      | ⟨0, _⟩ => rfl
      | ⟨1, _⟩ => rfl)]

/-- A sum along the lanes of a 3200 × 256 block, started from zero, at row `p`: the sum of the row's entries. -/
theorem lane_sum (src : FVec Ideal S3200x256 .f32) (p : Fin 3200) :
    multiReduction (F := Ideal) .add [1] S3200 src 0x00000000#32 reduces_S3200x256_S3200 (.inl rfl) rfl (ix1 p)
      = ∑ k : Fin 256, src (ix2 p k) := by
  refine (Ideal.multiReduction_add_single src 0x00000000#32 reduces_S3200x256_S3200 (.inl rfl) rfl (ix1 p)).trans ?_
  show ∑ k : Fin 256, src (reduces_S3200x256_S3200.lift (ix1 p) k) = _
  refine Finset.sum_congr rfl fun k _ => congrArg src (funext fun d => ?_)
  match d with
  | ⟨0, _⟩ => rfl
  | ⟨1, _⟩ => rfl

/-- The first hidden row of edge `p` of a block, in the kernel's arrangement of the first layer. -/
def hiddenRow (a b : FVec Ideal S3200x256 .bf16) (r : FVec Ideal S3200x1 .f32) (A B : FVec Ideal S256x256 .bf16)
    (c β₁ : FVec Ideal S1x256 .f32) (p : Fin 3200) : Fin 256 → EReal :=
  fun k => silu ((∑ i : Fin 256, a (ix2 p i) * A (ix2 i k)) + (∑ i : Fin 256, b (ix2 p i) * B (ix2 i k))
    + r (ix2 p 0) * c (ix2 0 k) + β₁ (ix2 0 k))

/-- THE EDGE FEATURES OF A BLOCK at entry `(p, q)`: `silu (m₁(p) · W₂ + β₂)` at column `q`, with `m₁(p)` the hidden row. -/
theorem edge_block (a b : Vec Ideal S3200x256 .bf16) (r : Vec Ideal S3200x1 .f32) (A B : Vec Ideal S256x256 .bf16)
    (c β₁ : Vec Ideal S1x256 .f32) (W₂ : Vec Ideal S256x256 .bf16) (β₂ : Vec Ideal S1x256 .f32) (p : Fin 3200) (q : Fin 256) :
    k0_pay2 (F := Ideal) a b r A B c β₁ W₂ β₂ (ix2 p q)
      = silu (dense (hiddenRow a b r A B c β₁ p) (fun x y => W₂ (ix2 x y)) (fun y => β₂ (ix2 0 y)) q) := by
  unfold k0_pay2
  simp only [shapeCast_self]
  rw [mulf_apply]
  refine congrArg₂ (· * ·) ?_ (congrArg Ideal.logistic ?_) <;>
  · refine (dense_block _ W₂ β₂ p q).trans ?_
    refine congrArg (fun x => dense x (fun x y => W₂ (ix2 x y)) (fun y => β₂ (ix2 0 y)) q) (funext fun k => ?_)
    rw [truncf_apply, mulf_apply]
    exact congrArg₂ (· * ·) (hidden_pre a b r A B c β₁ p k) (congrArg Ideal.logistic (hidden_pre a b r A B c β₁ p k))

/-- What the edge kernel stores for a block is its edge features: the narrower float format is the identity here. -/
theorem edge_block_stored (a b : Vec Ideal S3200x256 .bf16) (r : Vec Ideal S3200x1 .f32) (A B : Vec Ideal S256x256 .bf16)
    (c β₁ : Vec Ideal S1x256 .f32) (W₂ : Vec Ideal S256x256 .bf16) (β₂ : Vec Ideal S1x256 .f32) (p : Fin 3200) (q : Fin 256) :
    k0_pay3 (F := Ideal) a b r A B c β₁ W₂ β₂ (ix2 p q)
      = silu (dense (hiddenRow a b r A B c β₁ p) (fun x y => W₂ (ix2 x y)) (fun y => β₂ (ix2 0 y)) q) :=
  edge_block a b r A B c β₁ W₂ β₂ p q

/-- THE COORDINATE WEIGHTS OF A BLOCK at edge `p`, from the block's edge features `ef`:
    `∑ₖ silu (ef(p) · W₃ + β₃)(k) · w(k) + β₄`. -/
theorem coord_block (ef : FVec Ideal S3200x256 .f32) (W₃ : Vec Ideal S256x256 .bf16) (β₃ w : Vec Ideal S1x256 .f32)
    (β₄ : Vec Ideal S1x1 .f32) (p : Fin 3200) :
    k0_pay1 (F := Ideal) ef W₃ β₃ w β₄ (ix2 p 0)
      = (∑ k : Fin 256, silu (dense (fun j => ef (ix2 p j)) (fun x y => W₃ (ix2 x y)) (fun y => β₃ (ix2 0 y)) k) * w (ix2 0 k))
        + β₄ (ix2 0 0) := by
  unfold k0_pay1
  simp only [shapeCast_self]
  rw [addf_apply]
  refine congrArg₂ (· + ·) ?_ ?_
  · rw [shapeCast_apply _ shapeCasts_S3200_S3200x1 (ix2 p 0) (ix1 p) (by
      rw [Shape.rowMajor_val_one, Shape.rowMajor_val_two]
      show p.val = p.val * 1 + 0
      omega)]
    refine (lane_sum _ p).trans (Finset.sum_congr rfl fun k _ => ?_)
    rw [mulf_apply, Cert.LibDenseRow.biasRow_apply 3200 256 w broadcasts_S1x256_S3200x256 p k, mulf_apply]
    refine congrArg (· * w (ix2 0 k)) ?_
    have hd := dense_block (φ₁ := .bf16) (φ₂ := .bf16) (truncf .bf16 ef bitsLt_bf16_f32) W₃ β₃ p k
    exact congrArg₂ (· * ·) hd (congrArg Ideal.logistic hd)
  · exact broadcastTo_apply β₄ broadcasts_S1x1_S3200x1 (ix2 p 0) (ix2 0 0) (fun d => by
      match d with
      | ⟨0, _⟩ => rfl
      | ⟨1, _⟩ => rfl)

end Cert.Region0

end
-- ==== Proof.Region0.lean ====
/-
  The edge kernel's two output arrays, as functions of what the region finds in its input arrays.

  The region runs the edge kernel at 100 grid points; point `t` reads rows 3200·t … 3200·t + 3199 of the two gathered
  feature arrays and of the distance column, reads every weight array whole, and writes back rows 3200·t … 3200·t + 3199
  of the edge-feature array (320000 × 256) and of the coordinate-weight column (320000 × 1). The 100 row ranges are
  disjoint and fill the 320000 rows, so after the region each output array is, row by row, what the one point that owns
  the row wrote: row `e` of the edge features is `Layer.edgeFeat … e`, and entry `e` of the column is
  `Layer.coordScalar` of that row. The first layer meets the specification's joined-row form by the law
  `Layer.dense_cat3`: the three weight arrays the kernel reads are the first 256 rows, the next 256 rows and the last
  row of the one 513 × 256 matrix.
-/
import proofs.«162943_j20607253086819_2_alg».proof.Proof.Gen.KernelIdeal.Frame
import proofs.«162943_j20607253086819_2_alg».proof.Proof.Region0Row

set_option maxRecDepth 16384

noncomputable section

open scoped BigOperators

namespace Cert.Region0

open Cert.KernelIdeal Cert.KernelIdeal.Gen Cert.Layer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b)) (c : Dev nD)

/-- How the arrays the region finds read against the arrays of the specification: the two gathered feature arrays and the
    distance column as they are; the three pieces of the first weight matrix as its rows 0–255, 256–511 and 512; each
    bias and the last weight vector, which the region finds as a single row, by its column. -/
structure Entry (HR HC : Arr2 320000 256) (RAD : Arr2 320000 1) (We1 : Arr2 513 256) (be1 : Arr1 256)
    (We2 : Arr2 256 256) (be2 : Arr1 256) (Wc1 : Arr2 256 256) (bc1 : Arr1 256) (Wc2 : Arr2 256 1) (bc2 : Arr1 1) : Prop where
  hHR : ∀ (e : Fin 320000) (k : Fin 256), V c main_v11 (ix2 e k) = HR (ix2 e k)
  hHC : ∀ (e : Fin 320000) (k : Fin 256), V c main_v18 (ix2 e k) = HC (ix2 e k)
  hRAD : ∀ e : Fin 320000, V c main_v36 (ix2 e 0) = RAD (ix2 e 0)
  hA : ∀ k j : Fin 256, V c main_v38 (ix2 k j) = We1 (ix2 ⟨k.val, by have := k.isLt; omega⟩ j)
  hB : ∀ k j : Fin 256, V c main_v40 (ix2 k j) = We1 (ix2 ⟨256 + k.val, by have := k.isLt; omega⟩ j)
  hC : ∀ j : Fin 256, V c main_v41 (ix2 0 j) = We1 (ix2 ⟨512, by omega⟩ j)
  hb1 : ∀ j : Fin 256, V c main_v42 (ix2 0 j) = be1 (ix1 j)
  hW2 : ∀ k j : Fin 256, V c main_v43 (ix2 k j) = We2 (ix2 k j)
  hb2 : ∀ j : Fin 256, V c main_v44 (ix2 0 j) = be2 (ix1 j)
  hW3 : ∀ k j : Fin 256, V c main_v45 (ix2 k j) = Wc1 (ix2 k j)
  hb3 : ∀ j : Fin 256, V c main_v46 (ix2 0 j) = bc1 (ix1 j)
  hw : ∀ k : Fin 256, V c main_v47 (ix2 0 k) = Wc2 (ix2 k 0)
  hb4 : V c main_v48 (ix2 0 0) = bc2 (ix1 0)

/-! ## Where each window's block sits, decided once over the grid -/

theorem hz : (![0, 0] : Fin 2 → Nat) = fun _ => 0 := funext fun a => by fin_cases a <;> rfl

/-- The three row-blocked inputs and the two outputs take block `(t, 0)` at point `t`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

/-- Every weight window takes the one block `(0, 0)` at every point. -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- The global row of entry `p` of point `t`'s block. -/
def rowAt (t : Fin cfg0.N) (p : Fin 3200) : Fin 320000 :=
  ⟨t.val * 3200 + p.val, by have := t.isLt; have := p.isLt; have hN : cfg0.N = 100 := N_0; omega⟩

/-! ## Where an entry of a block sits in its array -/

/-- Entry `(p, k)` of point `t`'s block of window 0 is entry `(3200·t + p, k)` of its array. -/
theorem emb_0 (t : Fin cfg0.N) (p : Fin 3200) (k : Fin 256) :
    ((cfg0.win 0).blk t).view.emb (ix2 p k) = ix2 (rowAt t p) k := by
  obtain ⟨e00, e01, e10, e11, e20, e21, e130, e131, e140, e141⟩ := idx_rows t
  refine funext fun a => Fin.ext ?_
  match a with
  | ⟨0, _⟩ =>
    show win0_0.index t (0 : Fin 2) * 3200 + 1 * p.val = t.val * 3200 + p.val
    omega
  | ⟨1, _⟩ =>
    show win0_0.index t (1 : Fin 2) * 256 + 1 * k.val = k.val
    omega

theorem blk_0 (t : Fin cfg0.N) (p : Fin 3200) (k : Fin 256) :
    iblk0 V c 0 t (ix2 p k) = V c main_v11 (ix2 (rowAt t p) k) :=
  congrArg (V c main_v11) (emb_0 t p k)

/-- Entry `(p, k)` of point `t`'s block of window 1 is entry `(3200·t + p, k)` of its array. -/
theorem emb_1 (t : Fin cfg0.N) (p : Fin 3200) (k : Fin 256) :
    ((cfg0.win 1).blk t).view.emb (ix2 p k) = ix2 (rowAt t p) k := by
  obtain ⟨e00, e01, e10, e11, e20, e21, e130, e131, e140, e141⟩ := idx_rows t
  refine funext fun a => Fin.ext ?_
  match a with
  | ⟨0, _⟩ =>
    show win0_1.index t (0 : Fin 2) * 3200 + 1 * p.val = t.val * 3200 + p.val
    omega
  | ⟨1, _⟩ =>
    show win0_1.index t (1 : Fin 2) * 256 + 1 * k.val = k.val
    omega

theorem blk_1 (t : Fin cfg0.N) (p : Fin 3200) (k : Fin 256) :
    iblk0 V c 1 t (ix2 p k) = V c main_v18 (ix2 (rowAt t p) k) :=
  congrArg (V c main_v18) (emb_1 t p k)

/-- Entry `(p, k)` of point `t`'s block of window 2 is entry `(3200·t + p, k)` of its array. -/
theorem emb_2 (t : Fin cfg0.N) (p : Fin 3200) (k : Fin 1) :
    ((cfg0.win 2).blk t).view.emb (ix2 p k) = ix2 (rowAt t p) k := by
  obtain ⟨e00, e01, e10, e11, e20, e21, e130, e131, e140, e141⟩ := idx_rows t
  refine funext fun a => Fin.ext ?_
  match a with
  | ⟨0, _⟩ =>
    show win0_2.index t (0 : Fin 2) * 3200 + 1 * p.val = t.val * 3200 + p.val
    omega
  | ⟨1, _⟩ =>
    show win0_2.index t (1 : Fin 2) * 1 + 1 * k.val = k.val
    omega

theorem blk_2 (t : Fin cfg0.N) (p : Fin 3200) (k : Fin 1) :
    iblk0 V c 2 t (ix2 p k) = V c main_v36 (ix2 (rowAt t p) k) :=
  congrArg (V c main_v36) (emb_2 t p k)

/-- Entry `(p, k)` of point `t`'s block of window 13 is entry `(3200·t + p, k)` of its array. -/
theorem emb_13 (t : Fin cfg0.N) (p : Fin 3200) (k : Fin 256) :
    ((cfg0.win 13).blk t).view.emb (ix2 p k) = ix2 (rowAt t p) k := by
  obtain ⟨e00, e01, e10, e11, e20, e21, e130, e131, e140, e141⟩ := idx_rows t
  refine funext fun a => Fin.ext ?_
  match a with
  | ⟨0, _⟩ =>
    show win0_13.index t (0 : Fin 2) * 3200 + 1 * p.val = t.val * 3200 + p.val
    omega
  | ⟨1, _⟩ =>
    show win0_13.index t (1 : Fin 2) * 256 + 1 * k.val = k.val
    omega

/-- Entry `(p, k)` of point `t`'s block of window 14 is entry `(3200·t + p, k)` of its array. -/
theorem emb_14 (t : Fin cfg0.N) (p : Fin 3200) (k : Fin 1) :
    ((cfg0.win 14).blk t).view.emb (ix2 p k) = ix2 (rowAt t p) k := by
  obtain ⟨e00, e01, e10, e11, e20, e21, e130, e131, e140, e141⟩ := idx_rows t
  refine funext fun a => Fin.ext ?_
  match a with
  | ⟨0, _⟩ =>
    show win0_14.index t (0 : Fin 2) * 3200 + 1 * p.val = t.val * 3200 + p.val
    omega
  | ⟨1, _⟩ =>
    show win0_14.index t (1 : Fin 2) * 1 + 1 * k.val = k.val
    omega

/-- Window 3 is its whole array at every point. -/
theorem emb_3 (t : Fin cfg0.N) (a : Fin 256) (b : Fin 256) :
    ((cfg0.win 3).blk t).view.emb (ix2 a b) = ix2 a b := by
  obtain ⟨h3, h4, h5, h6, h7, h8, h9, h10, h11, h12⟩ := idx_whole t
  refine funext fun d => Fin.ext ?_
  match d with
  | ⟨0, _⟩ =>
    show win0_3.index t (0 : Fin 2) * 256 + 1 * a.val = a.val
    have := h3.1; omega
  | ⟨1, _⟩ =>
    show win0_3.index t (1 : Fin 2) * 256 + 1 * b.val = b.val
    have := h3.2; omega

theorem blk_3 (t : Fin cfg0.N) (a : Fin 256) (b : Fin 256) :
    iblk0 V c 3 t (ix2 a b) = V c main_v38 (ix2 a b) :=
  congrArg (V c main_v38) (emb_3 t a b)

/-- Window 4 is its whole array at every point. -/
theorem emb_4 (t : Fin cfg0.N) (a : Fin 256) (b : Fin 256) :
    ((cfg0.win 4).blk t).view.emb (ix2 a b) = ix2 a b := by
  obtain ⟨h3, h4, h5, h6, h7, h8, h9, h10, h11, h12⟩ := idx_whole t
  refine funext fun d => Fin.ext ?_
  match d with
  | ⟨0, _⟩ =>
    show win0_4.index t (0 : Fin 2) * 256 + 1 * a.val = a.val
    have := h4.1; omega
  | ⟨1, _⟩ =>
    show win0_4.index t (1 : Fin 2) * 256 + 1 * b.val = b.val
    have := h4.2; omega

theorem blk_4 (t : Fin cfg0.N) (a : Fin 256) (b : Fin 256) :
    iblk0 V c 4 t (ix2 a b) = V c main_v40 (ix2 a b) :=
  congrArg (V c main_v40) (emb_4 t a b)

/-- Window 5 is its whole array at every point. -/
theorem emb_5 (t : Fin cfg0.N) (a : Fin 1) (b : Fin 256) :
    ((cfg0.win 5).blk t).view.emb (ix2 a b) = ix2 a b := by
  obtain ⟨h3, h4, h5, h6, h7, h8, h9, h10, h11, h12⟩ := idx_whole t
  refine funext fun d => Fin.ext ?_
  match d with
  | ⟨0, _⟩ =>
    show win0_5.index t (0 : Fin 2) * 1 + 1 * a.val = a.val
    have := h5.1; omega
  | ⟨1, _⟩ =>
    show win0_5.index t (1 : Fin 2) * 256 + 1 * b.val = b.val
    have := h5.2; omega

theorem blk_5 (t : Fin cfg0.N) (a : Fin 1) (b : Fin 256) :
    iblk0 V c 5 t (ix2 a b) = V c main_v41 (ix2 a b) :=
  congrArg (V c main_v41) (emb_5 t a b)

/-- Window 6 is its whole array at every point. -/
theorem emb_6 (t : Fin cfg0.N) (a : Fin 1) (b : Fin 256) :
    ((cfg0.win 6).blk t).view.emb (ix2 a b) = ix2 a b := by
  obtain ⟨h3, h4, h5, h6, h7, h8, h9, h10, h11, h12⟩ := idx_whole t
  refine funext fun d => Fin.ext ?_
  match d with
  | ⟨0, _⟩ =>
    show win0_6.index t (0 : Fin 2) * 1 + 1 * a.val = a.val
    have := h6.1; omega
  | ⟨1, _⟩ =>
    show win0_6.index t (1 : Fin 2) * 256 + 1 * b.val = b.val
    have := h6.2; omega

theorem blk_6 (t : Fin cfg0.N) (a : Fin 1) (b : Fin 256) :
    iblk0 V c 6 t (ix2 a b) = V c main_v42 (ix2 a b) :=
  congrArg (V c main_v42) (emb_6 t a b)

/-- Window 7 is its whole array at every point. -/
theorem emb_7 (t : Fin cfg0.N) (a : Fin 256) (b : Fin 256) :
    ((cfg0.win 7).blk t).view.emb (ix2 a b) = ix2 a b := by
  obtain ⟨h3, h4, h5, h6, h7, h8, h9, h10, h11, h12⟩ := idx_whole t
  refine funext fun d => Fin.ext ?_
  match d with
  | ⟨0, _⟩ =>
    show win0_7.index t (0 : Fin 2) * 256 + 1 * a.val = a.val
    have := h7.1; omega
  | ⟨1, _⟩ =>
    show win0_7.index t (1 : Fin 2) * 256 + 1 * b.val = b.val
    have := h7.2; omega

theorem blk_7 (t : Fin cfg0.N) (a : Fin 256) (b : Fin 256) :
    iblk0 V c 7 t (ix2 a b) = V c main_v43 (ix2 a b) :=
  congrArg (V c main_v43) (emb_7 t a b)

/-- Window 8 is its whole array at every point. -/
theorem emb_8 (t : Fin cfg0.N) (a : Fin 1) (b : Fin 256) :
    ((cfg0.win 8).blk t).view.emb (ix2 a b) = ix2 a b := by
  obtain ⟨h3, h4, h5, h6, h7, h8, h9, h10, h11, h12⟩ := idx_whole t
  refine funext fun d => Fin.ext ?_
  match d with
  | ⟨0, _⟩ =>
    show win0_8.index t (0 : Fin 2) * 1 + 1 * a.val = a.val
    have := h8.1; omega
  | ⟨1, _⟩ =>
    show win0_8.index t (1 : Fin 2) * 256 + 1 * b.val = b.val
    have := h8.2; omega

theorem blk_8 (t : Fin cfg0.N) (a : Fin 1) (b : Fin 256) :
    iblk0 V c 8 t (ix2 a b) = V c main_v44 (ix2 a b) :=
  congrArg (V c main_v44) (emb_8 t a b)

/-- Window 9 is its whole array at every point. -/
theorem emb_9 (t : Fin cfg0.N) (a : Fin 256) (b : Fin 256) :
    ((cfg0.win 9).blk t).view.emb (ix2 a b) = ix2 a b := by
  obtain ⟨h3, h4, h5, h6, h7, h8, h9, h10, h11, h12⟩ := idx_whole t
  refine funext fun d => Fin.ext ?_
  match d with
  | ⟨0, _⟩ =>
    show win0_9.index t (0 : Fin 2) * 256 + 1 * a.val = a.val
    have := h9.1; omega
  | ⟨1, _⟩ =>
    show win0_9.index t (1 : Fin 2) * 256 + 1 * b.val = b.val
    have := h9.2; omega

theorem blk_9 (t : Fin cfg0.N) (a : Fin 256) (b : Fin 256) :
    iblk0 V c 9 t (ix2 a b) = V c main_v45 (ix2 a b) :=
  congrArg (V c main_v45) (emb_9 t a b)

/-- Window 10 is its whole array at every point. -/
theorem emb_10 (t : Fin cfg0.N) (a : Fin 1) (b : Fin 256) :
    ((cfg0.win 10).blk t).view.emb (ix2 a b) = ix2 a b := by
  obtain ⟨h3, h4, h5, h6, h7, h8, h9, h10, h11, h12⟩ := idx_whole t
  refine funext fun d => Fin.ext ?_
  match d with
  | ⟨0, _⟩ =>
    show win0_10.index t (0 : Fin 2) * 1 + 1 * a.val = a.val
    have := h10.1; omega
  | ⟨1, _⟩ =>
    show win0_10.index t (1 : Fin 2) * 256 + 1 * b.val = b.val
    have := h10.2; omega

theorem blk_10 (t : Fin cfg0.N) (a : Fin 1) (b : Fin 256) :
    iblk0 V c 10 t (ix2 a b) = V c main_v46 (ix2 a b) :=
  congrArg (V c main_v46) (emb_10 t a b)

/-- Window 11 is its whole array at every point. -/
theorem emb_11 (t : Fin cfg0.N) (a : Fin 1) (b : Fin 256) :
    ((cfg0.win 11).blk t).view.emb (ix2 a b) = ix2 a b := by
  obtain ⟨h3, h4, h5, h6, h7, h8, h9, h10, h11, h12⟩ := idx_whole t
  refine funext fun d => Fin.ext ?_
  match d with
  | ⟨0, _⟩ =>
    show win0_11.index t (0 : Fin 2) * 1 + 1 * a.val = a.val
    have := h11.1; omega
  | ⟨1, _⟩ =>
    show win0_11.index t (1 : Fin 2) * 256 + 1 * b.val = b.val
    have := h11.2; omega

theorem blk_11 (t : Fin cfg0.N) (a : Fin 1) (b : Fin 256) :
    iblk0 V c 11 t (ix2 a b) = V c main_v47 (ix2 a b) :=
  congrArg (V c main_v47) (emb_11 t a b)

/-- Window 12 is its whole array at every point. -/
theorem emb_12 (t : Fin cfg0.N) (a : Fin 1) (b : Fin 1) :
    ((cfg0.win 12).blk t).view.emb (ix2 a b) = ix2 a b := by
  obtain ⟨h3, h4, h5, h6, h7, h8, h9, h10, h11, h12⟩ := idx_whole t
  refine funext fun d => Fin.ext ?_
  match d with
  | ⟨0, _⟩ =>
    show win0_12.index t (0 : Fin 2) * 1 + 1 * a.val = a.val
    have := h12.1; omega
  | ⟨1, _⟩ =>
    show win0_12.index t (1 : Fin 2) * 1 + 1 * b.val = b.val
    have := h12.2; omega

theorem blk_12 (t : Fin cfg0.N) (a : Fin 1) (b : Fin 1) :
    iblk0 V c 12 t (ix2 a b) = V c main_v48 (ix2 a b) :=
  congrArg (V c main_v48) (emb_12 t a b)

/-! ## What a point writes back -/

/-- The hidden row the kernel computes for entry `p` of point `t`'s block is the specification's hidden row of edge
    `3200·t + p`: the joined-row product regrouped into its three parts. -/
theorem hidden_eq {HR HC : Arr2 320000 256} {RAD : Arr2 320000 1} {We1 : Arr2 513 256} {be1 : Arr1 256}
    {We2 : Arr2 256 256} {be2 : Arr1 256} {Wc1 : Arr2 256 256} {bc1 : Arr1 256} {Wc2 : Arr2 256 1} {bc2 : Arr1 1}
    (E : Entry V c HR HC RAD We1 be1 We2 be2 Wc1 bc1 Wc2 bc2) (t : Fin cfg0.N) (p : Fin 3200) :
    hiddenRow (iblk0 V c 0 t) (iblk0 V c 1 t) (iblk0 V c 2 t) (iblk0 V c 3 t) (iblk0 V c 4 t) (iblk0 V c 5 t) (iblk0 V c 6 t) p = edgeHidden HR HC RAD We1 be1 (rowAt t p) := by
  funext k
  unfold hiddenRow edgeHidden
  rw [dense_cat3]
  simp only [blk_0 V c t, blk_1 V c t, blk_2 V c t, blk_3 V c t, blk_4 V c t, blk_5 V c t, blk_6 V c t,
    E.hHR, E.hHC, E.hRAD, E.hA, E.hB, E.hC, E.hb1]
  rfl

/-- The edge-feature row the kernel computes for entry `p` of point `t`'s block. -/
theorem feat_eq {HR HC : Arr2 320000 256} {RAD : Arr2 320000 1} {We1 : Arr2 513 256} {be1 : Arr1 256}
    {We2 : Arr2 256 256} {be2 : Arr1 256} {Wc1 : Arr2 256 256} {bc1 : Arr1 256} {Wc2 : Arr2 256 1} {bc2 : Arr1 1}
    (E : Entry V c HR HC RAD We1 be1 We2 be2 Wc1 bc1 Wc2 bc2) (t : Fin cfg0.N) (p : Fin 3200) (q : Fin 256) :
    k0_pay2 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 p q)
      = edgeFeat HR HC RAD We1 be1 We2 be2 (rowAt t p) q := by
  refine (edge_block (iblk0 V c 0 t) (iblk0 V c 1 t) (iblk0 V c 2 t) (iblk0 V c 3 t) (iblk0 V c 4 t) (iblk0 V c 5 t) (iblk0 V c 6 t) (iblk0 V c 7 t) (iblk0 V c 8 t) p q).trans ?_
  unfold edgeFeat
  rw [hidden_eq V c E t p]
  simp only [blk_7 V c t, blk_8 V c t, E.hW2, E.hb2]
  rfl

/-- WHAT POINT `t` WRITES BACK to the edge-feature array: rows 3200·t … of `Layer.edgeFeat`. -/
theorem flushed13 {HR HC : Arr2 320000 256} {RAD : Arr2 320000 1} {We1 : Arr2 513 256} {be1 : Arr1 256}
    {We2 : Arr2 256 256} {be2 : Arr1 256} {Wc1 : Arr2 256 256} {bc1 : Arr1 256} {Wc2 : Arr2 256 1} {bc2 : Arr1 1}
    (E : Entry V c HR HC RAD We1 be1 We2 be2 Wc1 bc1 Wc2 bc2) (t : Fin cfg0.N) :
    (dat0 V c).flushed 13 t = ((cfg0.win 13).blk t).view.read (Elt Ideal)
      (fun i : S320000x256.Idx => edgeFeat HR HC RAD We1 be1 We2 be2 (i 0) (i 1)) := by
  show (cfg0.win 13).cut (grid0.coords t) ((dat0 V c).after 13 t) = _
  rw [after0_13]
  unfold out0_13
  rw [View.canon_unit_zero hz]
  simp only [View.ld_unit_zero (S := S3200x256) hz, View.ld_unit_zero (S := S3200x1) hz,
    View.ld_unit_zero (S := S256x256) hz, View.ld_unit_zero (S := S1x256) hz]
  funext j
  obtain ⟨p, q, rfl⟩ : ∃ (p : Fin 3200) (q : Fin 256), j = ix2 p q := ⟨j 0, j 1, eq_ix2 j⟩
  show k0_pay3 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix2 p q)
    = (fun i : S320000x256.Idx => edgeFeat HR HC RAD We1 be1 We2 be2 (i 0) (i 1)) (((cfg0.win 13).blk t).view.emb (ix2 p q))
  rw [emb_13 t p q]
  exact feat_eq V c E t p q

/-- WHAT POINT `t` WRITES BACK to the coordinate-weight column: entries 3200·t … of `Layer.coordScalar` of the edge
    features. -/
theorem flushed14 {HR HC : Arr2 320000 256} {RAD : Arr2 320000 1} {We1 : Arr2 513 256} {be1 : Arr1 256}
    {We2 : Arr2 256 256} {be2 : Arr1 256} {Wc1 : Arr2 256 256} {bc1 : Arr1 256} {Wc2 : Arr2 256 1} {bc2 : Arr1 1}
    (E : Entry V c HR HC RAD We1 be1 We2 be2 Wc1 bc1 Wc2 bc2) (t : Fin cfg0.N) :
    (dat0 V c).flushed 14 t = ((cfg0.win 14).blk t).view.read (Elt Ideal)
      (fun i : S320000x1.Idx => coordScalar (edgeFeat HR HC RAD We1 be1 We2 be2 (i 0)) Wc1 bc1 Wc2 bc2) := by
  show (cfg0.win 14).cut (grid0.coords t) ((dat0 V c).after 14 t) = _
  rw [after0_14]
  unfold out0_14
  rw [View.canon_unit_zero hz]
  simp only [View.ld_unit_zero (S := S3200x256) hz, View.ld_unit_zero (S := S3200x1) hz,
    View.ld_unit_zero (S := S256x256) hz, View.ld_unit_zero (S := S1x256) hz, View.ld_unit_zero (S := S1x1) hz]
  funext j
  obtain ⟨p, z, rfl⟩ : ∃ (p : Fin 3200) (z : Fin 1), j = ix2 p z := ⟨j 0, j 1, eq_ix2 j⟩
  obtain rfl : z = 0 := Subsingleton.elim _ _
  show k0_pay1 (F := Ideal) (k0_pay2 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t)) (iblk0 V c 9 t) (iblk0 V c 10 t) (iblk0 V c 11 t) (iblk0 V c 12 t) (ix2 p 0)
    = (fun i : S320000x1.Idx => coordScalar (edgeFeat HR HC RAD We1 be1 We2 be2 (i 0)) Wc1 bc1 Wc2 bc2) (((cfg0.win 14).blk t).view.emb (ix2 p 0))
  rw [emb_14 t p 0]
  refine (coord_block (k0_pay2 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t)) (iblk0 V c 9 t) (iblk0 V c 10 t) (iblk0 V c 11 t) (iblk0 V c 12 t) p).trans ?_
  unfold coordScalar
  simp only [feat_eq V c E t p, blk_9 V c t, blk_10 V c t, blk_11 V c t, blk_12 V c t, E.hW3, E.hb3, E.hw, E.hb4]
  rfl

/-! ## The blocks fill the arrays -/

theorem mem_blk13 (t : Fin cfg0.N) (i : S320000x256.Idx) :
    i ∈ ((cfg0.win 13).blk t).view.set ↔ ∀ a : Fin 2, win0_13.index t a * S3200x256.size a ≤ (i a).val
      ∧ (i a).val < win0_13.index t a * S3200x256.size a + S3200x256.size a := by
  show i ∈ ((View.whole main_v49_0).slice (win0_13.rect t)).set ↔ _
  rw [View.set_slice_whole, Rect.mem_set_unit]
  exact Iff.rfl

theorem mem_blk14 (t : Fin cfg0.N) (i : S320000x1.Idx) :
    i ∈ ((cfg0.win 14).blk t).view.set ↔ ∀ a : Fin 2, win0_14.index t a * S3200x1.size a ≤ (i a).val
      ∧ (i a).val < win0_14.index t a * S3200x1.size a + S3200x1.size a := by
  show i ∈ ((View.whole main_v49_1).slice (win0_14.rect t)).set ↔ _
  rw [View.set_slice_whole, Rect.mem_set_unit]
  exact Iff.rfl

/-- Row `r` of the edge-feature array lies in the block of point `⌊r / 3200⌋`. -/
theorem cover13 (i : S320000x256.Idx) :
    ∃ t : Fin cfg0.N, (cfg0.win 13).flush t = true ∧ i ∈ ((cfg0.win 13).blk t).view.set := by
  have hi0 : (i 0).val < 320000 := (i 0).isLt
  have hi1 : (i 1).val < 256 := (i 1).isLt
  have hN : cfg0.N = 100 := N_0
  have hN' : grid0.N = 100 := N_0
  refine ⟨⟨(i 0).val / 3200, by omega⟩, flush0_13 _, ?_⟩
  rw [mem_blk13]
  obtain ⟨e00, e01, e10, e11, e20, e21, e130, e131, e140, e141⟩ := idx_rows ⟨(i 0).val / 3200, by omega⟩
  have e130' : win0_13.index ⟨(i 0).val / 3200, by omega⟩ (0 : Fin 2) = (i 0).val / 3200 := e130
  intro a
  match a with
  | ⟨0, _⟩ =>
    show win0_13.index ⟨(i 0).val / 3200, _⟩ (0 : Fin 2) * 3200 ≤ (i 0).val
      ∧ (i 0).val < win0_13.index ⟨(i 0).val / 3200, _⟩ (0 : Fin 2) * 3200 + 3200
    omega
  | ⟨1, _⟩ =>
    show win0_13.index ⟨(i 0).val / 3200, _⟩ (1 : Fin 2) * 256 ≤ (i 1).val
      ∧ (i 1).val < win0_13.index ⟨(i 0).val / 3200, _⟩ (1 : Fin 2) * 256 + 256
    omega

/-- Entry `r` of the coordinate-weight column lies in the block of point `⌊r / 3200⌋`. -/
theorem cover14 (i : S320000x1.Idx) :
    ∃ t : Fin cfg0.N, (cfg0.win 14).flush t = true ∧ i ∈ ((cfg0.win 14).blk t).view.set := by
  have hi0 : (i 0).val < 320000 := (i 0).isLt
  have hi1 : (i 1).val < 1 := (i 1).isLt
  have hN : cfg0.N = 100 := N_0
  have hN' : grid0.N = 100 := N_0
  refine ⟨⟨(i 0).val / 3200, by omega⟩, flush0_14 _, ?_⟩
  rw [mem_blk14]
  obtain ⟨e00, e01, e10, e11, e20, e21, e130, e131, e140, e141⟩ := idx_rows ⟨(i 0).val / 3200, by omega⟩
  have e140' : win0_14.index ⟨(i 0).val / 3200, by omega⟩ (0 : Fin 2) = (i 0).val / 3200 := e140
  intro a
  match a with
  | ⟨0, _⟩ =>
    show win0_14.index ⟨(i 0).val / 3200, _⟩ (0 : Fin 2) * 3200 ≤ (i 0).val
      ∧ (i 0).val < win0_14.index ⟨(i 0).val / 3200, _⟩ (0 : Fin 2) * 3200 + 3200
    omega
  | ⟨1, _⟩ =>
    show win0_14.index ⟨(i 0).val / 3200, _⟩ (1 : Fin 2) * 1 ≤ (i 1).val
      ∧ (i 1).val < win0_14.index ⟨(i 0).val / 3200, _⟩ (1 : Fin 2) * 1 + 1
    omega

/-! ## The two arrays after the region -/

/-- THE EDGE-FEATURE ARRAY after the region: row `e` is `Layer.edgeFeat … e`. -/
theorem edge_array {HR HC : Arr2 320000 256} {RAD : Arr2 320000 1} {We1 : Arr2 513 256} {be1 : Arr1 256}
    {We2 : Arr2 256 256} {be2 : Arr1 256} {Wc1 : Arr2 256 256} {bc1 : Arr1 256} {Wc2 : Arr2 256 1} {bc2 : Arr1 1}
    (E : Entry V c HR HC RAD We1 be1 We2 be2 Wc1 bc1 Wc2 bc2) :
    (dat0 V c).arrAt 13 cfg0.N = fun i : S320000x256.Idx => edgeFeat HR HC RAD We1 be1 We2 be2 (i 0) (i 1) :=
  (dat0 V c).arrAt_eq_of_cover 13 _ (fun t _ => flushed13 V c E t) cover13

/-- THE COORDINATE-WEIGHT COLUMN after the region: entry `e` is `Layer.coordScalar` of edge `e`'s features. -/
theorem coord_array {HR HC : Arr2 320000 256} {RAD : Arr2 320000 1} {We1 : Arr2 513 256} {be1 : Arr1 256}
    {We2 : Arr2 256 256} {be2 : Arr1 256} {Wc1 : Arr2 256 256} {bc1 : Arr1 256} {Wc2 : Arr2 256 1} {bc2 : Arr1 1}
    (E : Entry V c HR HC RAD We1 be1 We2 be2 Wc1 bc1 Wc2 bc2) :
    (dat0 V c).arrAt 14 cfg0.N
      = fun i : S320000x1.Idx => coordScalar (edgeFeat HR HC RAD We1 be1 We2 be2 (i 0)) Wc1 bc1 Wc2 bc2 :=
  (dat0 V c).arrAt_eq_of_cover 14 _ (fun t _ => flushed14 V c E t) cover14

end Cert.Region0

end
-- ==== Proof.Region1.lean ====
/-
  The node kernel's output array is the node layer's output, row by row.

  The kernel runs over ten points. At point t it holds rows 1000·t … 1000·t + 999 of the node features h and of the
  aggregated edge features agg, and the whole of the two halves of the first weight matrix (its rows 0 … 255 and
  256 … 511), of the first bias, of the second weight matrix and of the second bias. For each of its 1000 rows it forms

      n_pre = h · Wn1[0:256] + agg · Wn1[256:512] + bn1,      n = n_pre · 1/(1 + e^(−n_pre)),      out = n · Wn2 + bn2

  and writes the 1000 × 256 result back as rows 1000·t … 1000·t + 999 of the output array.

  Three steps. (1) One entry (p, q) of what a point stores, as a formula in the entries of its seven blocks: each of the
  three matrix products accumulates into a zero array, so it is the plain sum over the shared axis; a bias row is
  broadcast down the rows; rounding to a narrower format is the identity on the extended reals. (2) Row p of point t's
  block is row 1000·t + p of the arrays, and the weights and biases are the same at every point; the two half products
  add up to the joined row [h, agg] times the whole first weight matrix (the split-sum law of a joined row, which only
  uses that addition is commutative and associative). So what point t writes back is block t of the layer's output
  array. (3) Row r of the output lies in the block of point r / 1000 and every point writes its block back, so the ten
  blocks cover the array, and the array after the last point is the layer's output. No entry needs to be finite.
-/
import proofs.«162943_j20607253086819_2_alg».proof.Proof.Gen.KernelIdeal.Frame
import proofs.«162943_j20607253086819_2_alg».proof.Proof.Layer
import proofs.«162943_j20607253086819_2_alg».proof.Proof.LibDenseRow
import Idealize.ShloMosaic.Lib.Pipeline.Value

-- membership of an index in a rectangle of these extents is decided coordinate by coordinate
set_option maxRecDepth 16384

noncomputable section

open scoped BigOperators

namespace Cert.Region1

open Cert.KernelIdeal Cert.KernelIdeal.Gen Idealize.ShloMosaic Idealize.ShloMosaic.TcCoe Idealize.ShloMosaic.ValueIdx Idealize.SL.Sem
open Idealize.ShloMosaic.Pipeline (Dat)

/-! ## One entry of what a point stores -/

/-- The printed contraction record is the plain rows × columns contraction: one shared axis, the left operand's columns
    against the right operand's rows. -/
theorem dot_plain : dot_S1000x256_S256x256_S1000x256_1_0_0_1_n_n = DotDims.plain 1000 256 256 := rfl

/-- The hidden row before its activation, at row `p` of the block and column `k`: the node's own features times the
    upper half of the first weight matrix, plus its aggregated edge features times the lower half, plus the bias. -/
theorem preact_apply (x0 : FVec Ideal S1000x256 .bf16) (x1 : FVec Ideal S1000x256 .f32) (x2 x3 : FVec Ideal S256x256 .bf16)
    (x4 : FVec Ideal S1x256 .f32) (p : Fin 1000) (k : Fin 256) :
    addf (addf (matmul (φ₁ := .bf16) (φ₂ := .bf16) (DotDims.plain 1000 256 256) none x0 x2 (constant (F := Ideal) S1000x256 .f32 0x00000000#32))
        (matmul (φ₁ := .bf16) (φ₂ := .bf16) (DotDims.plain 1000 256 256) none (truncf .bf16 x1 bitsLt_bf16_f32) x3 (constant (F := Ideal) S1000x256 .f32 0x00000000#32)))
      (broadcastTo S1000x256 x4 broadcasts_S1x256_S1000x256) (ix2 p k)
      = (∑ i : Fin 256, x0 (ix2 p i) * x2 (ix2 i k)) + (∑ i : Fin 256, x1 (ix2 p i) * x3 (ix2 i k)) + x4 (ix2 0 k) :=
  congrArg₂ (· + ·)
    (congrArg₂ (· + ·) (Cert.LibDenseRow.matmul_zero_apply 1000 256 256 (φ₁ := .bf16) (φ₂ := .bf16) none x0 x2 p k)
      (Cert.LibDenseRow.matmul_zero_apply 1000 256 256 (φ₁ := .bf16) (φ₂ := .bf16) none (truncf .bf16 x1 bitsLt_bf16_f32) x3 p k))
    (Cert.LibDenseRow.biasRow_apply 1000 256 x4 broadcasts_S1x256_S1000x256 p k)

/-- THE BODY AT AN ENTRY. What the node kernel stores at row `p`, column `q` of its output block, from the seven blocks
    it loads: the second dense layer, at column `q`, of the activated hidden row of block row `p`. The three matrix
    products accumulate into zero arrays, so each is the plain sum over the shared axis; the two bias rows are broadcast
    down the block's rows; rounding to the narrower format is the identity on the extended reals. -/
theorem payload_apply (x0 : Vec Ideal S1000x256 .bf16) (x1 : Vec Ideal S1000x256 .f32) (x2 x3 : Vec Ideal S256x256 .bf16)
    (x4 : Vec Ideal S1x256 .f32) (x5 : Vec Ideal S256x256 .bf16) (x6 : Vec Ideal S1x256 .f32) (p : Fin 1000) (q : Fin 256) :
    k1_pay1 (F := Ideal) x0 x1 x2 x3 x4 x5 x6 (ix2 p q)
      = Cert.Layer.dense (fun k => Cert.Layer.silu ((∑ i : Fin 256, x0 (ix2 p i) * x2 (ix2 i k)) + (∑ i : Fin 256, x1 (ix2 p i) * x3 (ix2 i k)) + x4 (ix2 0 k)))
          (fun a b => x5 (ix2 a b)) (fun b => x6 (ix2 0 b)) q := by
  unfold k1_pay1
  simp only [shapeCast_self]
  rw [dot_plain]
  unfold Cert.Layer.dense
  refine congrArg₂ (· + ·) ?_ (Cert.LibDenseRow.biasRow_apply 1000 256 x6 broadcasts_S1x256_S1000x256 p q)
  refine (Cert.LibDenseRow.matmul_zero_apply 1000 256 256 (φ₁ := .bf16) (φ₂ := .bf16) none _ x5 p q).trans ?_
  refine Finset.sum_congr rfl fun k _ => ?_
  refine congrArg (· * x5 (ix2 k q)) ?_
  exact congrArg Cert.Layer.silu (preact_apply x0 x1 x2 x3 x4 p k)

variable (V : (c : Dev nD) → (b : Ref sig .tc) → Buf (Elt Ideal) ((c : Thread nD τ).loc b))

/-! ## What a point writes back is its block of the layer's output -/

/-- The offset of a load or store of a whole block: zero on both axes. -/
theorem hz : (![0, 0] : Fin 2 → Nat) = fun _ => 0 := funext fun a => by fin_cases a <;> rfl

/-- The printed index maps, decided over the ten points: the two row-blocked inputs and the output take block `t` on the
    row axis and block 0 on the column axis; the five weight and bias windows take block 0 on both axes at every point. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of point `t`'s block of the node features is row `1000·t + p` of the array. -/
theorem block0_apply (c : Dev nD) (t : Fin cfg1.N) (p : Fin 1000) (k : Fin 256) (n : Fin 10000)
    (hn : n.val = 1000 * t.val + p.val) :
    (iblk1 V c 0 t : Vec Ideal S1000x256 .bf16) (ix2 p k) = (V c main_v4 : S10000x256.Idx → EReal) (ix2 n k) := by
  obtain ⟨e0, e1, f0, f1, -⟩ := index_facts t
  unfold iblk1
  rw [View.read_apply]
  show V c main_v4 _ = V c main_v4 _
  refine congrArg (V c main_v4) ?_
  funext d
  apply Fin.ext
  match d with
  | ⟨0, _⟩ => show win1_0.index t 0 * 1000 + 1 * p.val = n.val; rw [e0, hn]; omega
  | ⟨1, _⟩ => show win1_0.index t 1 * 256 + 1 * k.val = k.val; rw [e1]; omega

/-- Row `p` of point `t`'s block of the aggregated edge features is row `1000·t + p` of the array. -/
theorem block1_apply (c : Dev nD) (t : Fin cfg1.N) (p : Fin 1000) (k : Fin 256) (n : Fin 10000)
    (hn : n.val = 1000 * t.val + p.val) :
    (iblk1 V c 1 t : Vec Ideal S1000x256 .f32) (ix2 p k) = (V c main_v67 : S10000x256.Idx → EReal) (ix2 n k) := by
  obtain ⟨e0, e1, f0, f1, -⟩ := index_facts t
  unfold iblk1
  rw [View.read_apply]
  show V c main_v67 _ = V c main_v67 _
  refine congrArg (V c main_v67) ?_
  funext d
  apply Fin.ext
  match d with
  | ⟨0, _⟩ => show win1_1.index t 0 * 1000 + 1 * p.val = n.val; rw [f0, hn]; omega
  | ⟨1, _⟩ => show win1_1.index t 1 * 256 + 1 * k.val = k.val; rw [f1]; omega

/-- The upper half of the first weight matrix is the same whole array at every point. -/
theorem block2_apply (c : Dev nD) (t : Fin cfg1.N) (a : Fin 256) (b : Fin 256) :
    (iblk1 V c 2 t : Vec Ideal S256x256 .bf16) (ix2 a b) = (V c main_v69 : S256x256.Idx → EReal) (ix2 a b) := by
  obtain ⟨-, -, -, -, g0, g1, h0, h1, k0, k1, l0, l1, m0, m1, -, -⟩ := index_facts t
  unfold iblk1
  rw [View.read_apply]
  show V c main_v69 _ = V c main_v69 _
  refine congrArg (V c main_v69) ?_
  funext d
  apply Fin.ext
  match d with
  | ⟨0, _⟩ => show win1_2.index t 0 * 256 + 1 * a.val = a.val; rw [g0]; omega
  | ⟨1, _⟩ => show win1_2.index t 1 * 256 + 1 * b.val = b.val; rw [g1]; omega

/-- The lower half of the first weight matrix is the same whole array at every point. -/
theorem block3_apply (c : Dev nD) (t : Fin cfg1.N) (a : Fin 256) (b : Fin 256) :
    (iblk1 V c 3 t : Vec Ideal S256x256 .bf16) (ix2 a b) = (V c main_v71 : S256x256.Idx → EReal) (ix2 a b) := by
  obtain ⟨-, -, -, -, g0, g1, h0, h1, k0, k1, l0, l1, m0, m1, -, -⟩ := index_facts t
  unfold iblk1
  rw [View.read_apply]
  show V c main_v71 _ = V c main_v71 _
  refine congrArg (V c main_v71) ?_
  funext d
  apply Fin.ext
  match d with
  | ⟨0, _⟩ => show win1_3.index t 0 * 256 + 1 * a.val = a.val; rw [h0]; omega
  | ⟨1, _⟩ => show win1_3.index t 1 * 256 + 1 * b.val = b.val; rw [h1]; omega

/-- The first bias row is the same whole array at every point. -/
theorem block4_apply (c : Dev nD) (t : Fin cfg1.N) (a : Fin 1) (b : Fin 256) :
    (iblk1 V c 4 t : Vec Ideal S1x256 .f32) (ix2 a b) = (V c main_v72 : S1x256.Idx → EReal) (ix2 a b) := by
  obtain ⟨-, -, -, -, g0, g1, h0, h1, k0, k1, l0, l1, m0, m1, -, -⟩ := index_facts t
  unfold iblk1
  rw [View.read_apply]
  show V c main_v72 _ = V c main_v72 _
  refine congrArg (V c main_v72) ?_
  funext d
  apply Fin.ext
  match d with
  | ⟨0, _⟩ => show win1_4.index t 0 * 1 + 1 * a.val = a.val; rw [k0]; omega
  | ⟨1, _⟩ => show win1_4.index t 1 * 256 + 1 * b.val = b.val; rw [k1]; omega

/-- The second weight matrix is the same whole array at every point. -/
theorem block5_apply (c : Dev nD) (t : Fin cfg1.N) (a : Fin 256) (b : Fin 256) :
    (iblk1 V c 5 t : Vec Ideal S256x256 .bf16) (ix2 a b) = (V c main_v73 : S256x256.Idx → EReal) (ix2 a b) := by
  obtain ⟨-, -, -, -, g0, g1, h0, h1, k0, k1, l0, l1, m0, m1, -, -⟩ := index_facts t
  unfold iblk1
  rw [View.read_apply]
  show V c main_v73 _ = V c main_v73 _
  refine congrArg (V c main_v73) ?_
  funext d
  apply Fin.ext
  match d with
  | ⟨0, _⟩ => show win1_5.index t 0 * 256 + 1 * a.val = a.val; rw [l0]; omega
  | ⟨1, _⟩ => show win1_5.index t 1 * 256 + 1 * b.val = b.val; rw [l1]; omega

/-- The second bias row is the same whole array at every point. -/
theorem block6_apply (c : Dev nD) (t : Fin cfg1.N) (a : Fin 1) (b : Fin 256) :
    (iblk1 V c 6 t : Vec Ideal S1x256 .f32) (ix2 a b) = (V c main_v74 : S1x256.Idx → EReal) (ix2 a b) := by
  obtain ⟨-, -, -, -, g0, g1, h0, h1, k0, k1, l0, l1, m0, m1, -, -⟩ := index_facts t
  unfold iblk1
  rw [View.read_apply]
  show V c main_v74 _ = V c main_v74 _
  refine congrArg (V c main_v74) ?_
  funext d
  apply Fin.ext
  match d with
  | ⟨0, _⟩ => show win1_6.index t 0 * 1 + 1 * a.val = a.val; rw [m0]; omega
  | ⟨1, _⟩ => show win1_6.index t 1 * 256 + 1 * b.val = b.val; rw [m1]; omega

/-- The node layer's output as one array: entry `(n, j)` is column `j` of the new feature row of node `n`. -/
def nodeArray (H AGG : Cert.Layer.Arr2 10000 256) (Wn1 : Cert.Layer.Arr2 512 256) (bn1 : Cert.Layer.Arr1 256)
    (Wn2 : Cert.Layer.Arr2 256 256) (bn2 : Cert.Layer.Arr1 256) : S10000x256.Idx → EReal :=
  fun i => Cert.Layer.nodeOut (Cert.Layer.rowOfArr H (i 0)) (Cert.Layer.rowOfArr AGG (i 0)) Wn1 bn1 Wn2 bn2 (i 1)

/-- WHAT POINT `t` WRITES BACK is block `t` of the node layer's output array: rows `1000·t … 1000·t + 999`. Row `p` of the
    block is node `1000·t + p`; its two input rows are rows `p` of the blocks of the features and of the aggregated edge
    features; the weights and biases are the same whole arrays at every point. The first layer arrives as two products,
    with the upper and the lower 256 rows of its weight matrix: by the split-sum law of a joined row they add up to the
    joined row `[h, agg]` times the whole matrix. -/
theorem flushed_eq (c : Dev nD) (H AGG : Cert.Layer.Arr2 10000 256) (Wn1 : Cert.Layer.Arr2 512 256) (bn1 : Cert.Layer.Arr1 256)
    (Wn2 : Cert.Layer.Arr2 256 256) (bn2 : Cert.Layer.Arr1 256)
    (hH   : ∀ (n : Fin 10000) (k : Fin 256), (V c main_v4 : S10000x256.Idx → EReal) (ix2 n k) = H (ix2 n k))
    (hAGG : ∀ (n : Fin 10000) (k : Fin 256), (V c main_v67 : S10000x256.Idx → EReal) (ix2 n k) = AGG (ix2 n k))
    (hW1a : ∀ (k j : Fin 256), (V c main_v69 : S256x256.Idx → EReal) (ix2 k j) = Wn1 (ix2 ⟨k.val, by omega⟩ j))
    (hW1b : ∀ (k j : Fin 256), (V c main_v71 : S256x256.Idx → EReal) (ix2 k j) = Wn1 (ix2 ⟨256 + k.val, by omega⟩ j))
    (hb1  : ∀ j : Fin 256, (V c main_v72 : S1x256.Idx → EReal) (ix2 0 j) = bn1 (ix1 j))
    (hW2  : ∀ (k j : Fin 256), (V c main_v73 : S256x256.Idx → EReal) (ix2 k j) = Wn2 (ix2 k j))
    (hb2  : ∀ j : Fin 256, (V c main_v74 : S1x256.Idx → EReal) (ix2 0 j) = bn2 (ix1 j)) (t : Fin cfg1.N) :
    (dat1 V c).flushed 7 t = ((cfg1.win 7).blk t).view.read (Elt Ideal) (nodeArray H AGG Wn1 bn1 Wn2 bn2) := by
  show (cfg1.win 7).cut (grid1.coords t) ((dat1 V c).after 7 t) = _
  rw [after1_7]
  unfold out1_7
  rw [View.canon_unit_zero hz]
  simp only [View.ld_unit_zero (S := S1000x256) hz, View.ld_unit_zero (S := S256x256) hz, View.ld_unit_zero (S := S1x256) hz]
  refine funext fun (j : S1000x256.Idx) => ?_
  obtain ⟨p, q, rfl⟩ : ∃ (p : Fin 1000) (q : Fin 256), j = ix2 p q := ⟨j 0, j 1, eq_ix2 j⟩
  have ht : t.val < 10 := lt_of_lt_of_eq t.isLt N_1
  obtain ⟨n, hn⟩ : ∃ n : Fin 10000, n.val = 1000 * t.val + p.val := ⟨⟨1000 * t.val + p.val, by have := p.isLt; omega⟩, rfl⟩
  obtain ⟨-, -, -, -, -, -, -, -, -, -, -, -, -, -, o0, o1⟩ := index_facts t
  have hemb : ((cfg1.win 7).blk t).view.emb (ix2 p q) = (ix2 n q : S10000x256.Idx) := by
    funext d
    apply Fin.ext
    match d with
    | ⟨0, _⟩ => show win1_7.index t 0 * 1000 + 1 * p.val = n.val; rw [o0, hn]; omega
    | ⟨1, _⟩ => show win1_7.index t 1 * 256 + 1 * q.val = q.val; rw [o1]; omega
  rw [View.read_apply, hemb]
  show k1_pay1 (F := Ideal) (iblk1 V c 0 t) (iblk1 V c 1 t) (iblk1 V c 2 t) (iblk1 V c 3 t) (iblk1 V c 4 t) (iblk1 V c 5 t) (iblk1 V c 6 t) (ix2 p q)
    = Cert.Layer.nodeOut (Cert.Layer.rowOfArr H n) (Cert.Layer.rowOfArr AGG n) Wn1 bn1 Wn2 bn2 q
  refine (payload_apply (iblk1 V c 0 t) (iblk1 V c 1 t) (iblk1 V c 2 t) (iblk1 V c 3 t) (iblk1 V c 4 t) (iblk1 V c 5 t) (iblk1 V c 6 t) p q).trans ?_
  have e0 : ∀ k : Fin 256, (iblk1 V c 0 t : Vec Ideal S1000x256 .bf16) (ix2 p k) = H (ix2 n k) :=
    fun k => (block0_apply V c t p k n hn).trans (hH n k)
  have e1 : ∀ k : Fin 256, (iblk1 V c 1 t : Vec Ideal S1000x256 .f32) (ix2 p k) = AGG (ix2 n k) :=
    fun k => (block1_apply V c t p k n hn).trans (hAGG n k)
  have e2 : ∀ a b : Fin 256, (iblk1 V c 2 t : Vec Ideal S256x256 .bf16) (ix2 a b) = Wn1 (ix2 ⟨a.val, by omega⟩ b) :=
    fun a b => (block2_apply V c t a b).trans (hW1a a b)
  have e3 : ∀ a b : Fin 256, (iblk1 V c 3 t : Vec Ideal S256x256 .bf16) (ix2 a b) = Wn1 (ix2 ⟨256 + a.val, by omega⟩ b) :=
    fun a b => (block3_apply V c t a b).trans (hW1b a b)
  have e4 : ∀ b : Fin 256, (iblk1 V c 4 t : Vec Ideal S1x256 .f32) (ix2 0 b) = bn1 (ix1 b) :=
    fun b => (block4_apply V c t 0 b).trans (hb1 b)
  have e5 : ∀ a b : Fin 256, (iblk1 V c 5 t : Vec Ideal S256x256 .bf16) (ix2 a b) = Wn2 (ix2 a b) :=
    fun a b => (block5_apply V c t a b).trans (hW2 a b)
  have e6 : ∀ b : Fin 256, (iblk1 V c 6 t : Vec Ideal S1x256 .f32) (ix2 0 b) = bn2 (ix1 b) :=
    fun b => (block6_apply V c t 0 b).trans (hb2 b)
  simp only [e0, e1, e2, e3, e4, e5, e6]
  unfold Cert.Layer.nodeOut
  refine congrArg (fun f => Cert.Layer.dense f (Cert.Layer.mat Wn2) (Cert.Layer.vec bn2) q) ?_
  funext k
  rw [Cert.Layer.dense_cat2]
  rfl

/-! ## The blocks cover the array -/

/-- An index of the output array is in point `t`'s block iff each coordinate is in the block's range on its axis. -/
theorem mem_block (t : Fin cfg1.N) (i : S10000x256.Idx) :
    i ∈ ((cfg1.win 7).blk t).view.set ↔ ∀ a : Fin 2, win1_7.index t a * S1000x256.size a ≤ (i a).val ∧ (i a).val < win1_7.index t a * S1000x256.size a + S1000x256.size a := by
  show i ∈ ((View.whole main_v75).slice (win1_7.rect t)).set ↔ _
  rw [View.set_slice_whole, Rect.mem_set_unit]
  exact Iff.rfl

/-- THE BLOCKS COVER THE ARRAY: row `r` lies in the block of point `r / 1000`, and every point writes its block back. -/
theorem covered (i : S10000x256.Idx) :
    ∃ t : Fin cfg1.N, (cfg1.win 7).flush t = true ∧ i ∈ ((cfg1.win 7).blk t).view.set := by
  have hi0 : (i 0).val < 10000 := (i 0).isLt
  have hi1 : (i 1).val < 256 := (i 1).isLt
  obtain ⟨t, ht⟩ : ∃ t : Fin cfg1.N, t.val = (i 0).val / 1000 :=
    ⟨⟨(i 0).val / 1000, lt_of_lt_of_eq (by omega : (i 0).val / 1000 < 10) N_1.symm⟩, rfl⟩
  obtain ⟨-, -, -, -, -, -, -, -, -, -, -, -, -, -, o0, o1⟩ := index_facts t
  refine ⟨t, flush1_7 t, ?_⟩
  rw [mem_block]
  intro a
  match a with
  | ⟨0, _⟩ =>
    show win1_7.index t (0 : Fin 2) * 1000 ≤ (i 0).val ∧ (i 0).val < win1_7.index t (0 : Fin 2) * 1000 + 1000
    rw [o0, ht]; omega
  | ⟨1, _⟩ =>
    show win1_7.index t (1 : Fin 2) * 256 ≤ (i 1).val ∧ (i 1).val < win1_7.index t (1 : Fin 2) * 256 + 256
    rw [o1]; omega

/-- THE NODE KERNEL'S OUTPUT ARRAY after its ten points is the node layer's output, row by row: entry `(n, j)` is column
    `j` of `silu ([h(n), agg(n)] · Wn1 + bn1) · Wn2 + bn2`, whatever the entries are (no entry needs to be finite). -/
theorem node_array (c : Dev nD) (H AGG : Cert.Layer.Arr2 10000 256) (Wn1 : Cert.Layer.Arr2 512 256) (bn1 : Cert.Layer.Arr1 256)
    (Wn2 : Cert.Layer.Arr2 256 256) (bn2 : Cert.Layer.Arr1 256)
    (hH   : ∀ (n : Fin 10000) (k : Fin 256), (V c main_v4 : S10000x256.Idx → EReal) (ix2 n k) = H (ix2 n k))
    (hAGG : ∀ (n : Fin 10000) (k : Fin 256), (V c main_v67 : S10000x256.Idx → EReal) (ix2 n k) = AGG (ix2 n k))
    (hW1a : ∀ (k j : Fin 256), (V c main_v69 : S256x256.Idx → EReal) (ix2 k j) = Wn1 (ix2 ⟨k.val, by omega⟩ j))
    (hW1b : ∀ (k j : Fin 256), (V c main_v71 : S256x256.Idx → EReal) (ix2 k j) = Wn1 (ix2 ⟨256 + k.val, by omega⟩ j))
    (hb1  : ∀ j : Fin 256, (V c main_v72 : S1x256.Idx → EReal) (ix2 0 j) = bn1 (ix1 j))
    (hW2  : ∀ (k j : Fin 256), (V c main_v73 : S256x256.Idx → EReal) (ix2 k j) = Wn2 (ix2 k j))
    (hb2  : ∀ j : Fin 256, (V c main_v74 : S1x256.Idx → EReal) (ix2 0 j) = bn2 (ix1 j)) :
    (dat1 V c).arrAt 7 cfg1.N
      = fun i : S10000x256.Idx => Cert.Layer.nodeOut (Cert.Layer.rowOfArr H (i 0)) (Cert.Layer.rowOfArr AGG (i 0)) Wn1 bn1 Wn2 bn2 (i 1) :=
  (dat1 V c).arrAt_eq_of_cover 7 (nodeArray H AGG Wn1 bn1 Wn2 bn2)
    (fun t _ => flushed_eq V c H AGG Wn1 bn1 Wn2 bn2 hH hAGG hW1a hW1b hb1 hW2 hb2 t) covered

end Cert.Region1

end
-- ==== Proof.GlueWeights.lean ====
/-
  The weights as the two kernels find them.

  Before each kernel runs, the host program lays its weights out for it. Each array a kernel reads as a weight or a bias
  is one argument array under operations that move no number: a change of format (the identity on the extended
  reals), a slice of consecutive rows, or a change of layout between a vector `[a]`, a row `[1, a]` and a column `[a, 1]`.
  This file reads every such array at an index, as an entry of the argument it comes from.

  For the edge kernel: the first edge weight matrix has 513 rows, rows 0 … 255 meet the sender's features, rows
  256 … 511 the receiver's, row 512 the squared distance, and the kernel receives them as three arrays; its bias and
  the second layer's matrix and bias follow, then the coordinate layer's matrix, bias, its second weight (a column of
  256 entries, read as a row) and its last bias (one number). For the node kernel: the first node weight matrix has
  512 rows, rows 0 … 255 meet the node's own features and rows 256 … 511 the aggregated edge features, received as two
  arrays; its bias, the second matrix and the second bias follow; and the node features themselves are the first
  argument, rounded once before the edge kernel and not written again.

  Between the two kernels the host program scatters the edge kernel's results. It writes no argument array, so an
  argument is read back through those operations, and through the edge kernel, as it was at launch.
-/
import proofs.«162943_j20607253086819_2_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.Glue

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ) (ρ : Dev nD → PrngReg) (c : Dev nD)

/-! ## The host operations that prepare the weights, read at an index -/

/-- Rows `off … off + T − 1` of an array of `R` rows: entry `(k, j)` of the slice is entry `(off + k, j)` of the array. -/
theorem rows_apply {R T : Nat} (off : Nat) (X : (⟨2, ![R, 256]⟩ : Shape).Idx → EReal)
    (h : (⟨2, ![R, 256]⟩ : Shape).Slices ![off, 0] ⟨2, ![T, 256]⟩) (k : Fin T) (j : Fin 256) (n : Fin R)
    (hn : n.val = off + k.val) :
    extractStridedSlice ⟨2, ![T, 256]⟩ ![off, 0] X h (ix2 k j) = X (ix2 n j) :=
  extractStridedSlice_apply ![off, 0] X h (ix2 k j) (ix2 n j) fun a => by
    match a with
    | ⟨0, _⟩ => show n.val = off + k.val; exact hn
    | ⟨1, _⟩ => show j.val = 0 + j.val; omega

/-- A column `[256, 1]` laid out as a row `[1, 256]`: entry `(0, k)` of the row is entry `(k, 0)` of the column. -/
theorem column_as_row_apply (x : (⟨2, ![256, 1]⟩ : Shape).Idx → EReal)
    (h : (⟨2, ![256, 1]⟩ : Shape).ShapeCasts ⟨2, ![1, 256]⟩) (k : Fin 256) :
    shapeCast ⟨2, ![1, 256]⟩ x h (ix2 0 k) = x (ix2 k 0) :=
  shapeCast_apply x h _ _ (by
    rw [Shape.rowMajor_val_two, Shape.rowMajor_val_two]
    show k.val * 1 + 0 = 0 * 256 + k.val
    omega)

/-- A vector `[a]` laid out as a row `[1, a]`: entry `(0, i)` of the row is entry `i` of the vector. -/
theorem vector_as_row_apply {a : Nat} (x : (⟨1, ![a]⟩ : Shape).Idx → EReal)
    (h : (⟨1, ![a]⟩ : Shape).ShapeCasts ⟨2, ![1, a]⟩) (i : Fin a) :
    shapeCast ⟨2, ![1, a]⟩ x h (ix2 0 i) = x (ix1 i) :=
  shapeCast_apply x h _ _ (by
    rw [Shape.rowMajor_val_two, Shape.rowMajor_val_one]
    show i.val = 0 * a + i.val
    omega)

/-! ## Region 0's entry: the edge kernel's weights -/

/-- Rows 0 … 255 of the first edge weight matrix, as one array. -/
theorem v38_eq : (V1 m ρ c main_v38 : (⟨S256x256, .bf16⟩ : BufTy).Contents (Elt Ideal))
    = truncf (F := Ideal) .bf16 (extractStridedSlice S256x256 ![0, 0] (m ((c : Thread nD τ).loc main_arg3) : (⟨S513x256, .f32⟩ : BufTy).Contents (Elt Ideal)) slices_S513x256_S256x256_0_0) bitsLt_bf16_f32 := by
  show StableHlo.after hostOps0 (W0 m ρ c) (Proc.devRef .tc main_v38) = _
  dsimp only [hostOps0]
  after_results_simp
  try rfl

/-- Rows 256 … 511 of the first edge weight matrix, as one array. -/
theorem v40_eq : (V1 m ρ c main_v40 : (⟨S256x256, .bf16⟩ : BufTy).Contents (Elt Ideal))
    = truncf (F := Ideal) .bf16 (extractStridedSlice S256x256 ![256, 0] (m ((c : Thread nD τ).loc main_arg3) : (⟨S513x256, .f32⟩ : BufTy).Contents (Elt Ideal)) slices_S513x256_S256x256_256_0) bitsLt_bf16_f32 := by
  show StableHlo.after hostOps0 (W0 m ρ c) (Proc.devRef .tc main_v40) = _
  dsimp only [hostOps0]
  after_results_simp
  try rfl

/-- Row 512 of the first edge weight matrix, as one array. -/
theorem v41_eq : (V1 m ρ c main_v41 : (⟨S1x256, .f32⟩ : BufTy).Contents (Elt Ideal))
    = extractStridedSlice S1x256 ![512, 0] (m ((c : Thread nD τ).loc main_arg3) : (⟨S513x256, .f32⟩ : BufTy).Contents (Elt Ideal)) slices_S513x256_S1x256_512_0 := by
  show StableHlo.after hostOps0 (W0 m ρ c) (Proc.devRef .tc main_v41) = _
  dsimp only [hostOps0]
  after_results_simp
  try rfl

/-- The first edge bias laid out as a row. -/
theorem v42_eq : (V1 m ρ c main_v42 : (⟨S1x256, .f32⟩ : BufTy).Contents (Elt Ideal))
    = shapeCast S1x256 (m ((c : Thread nD τ).loc main_arg4) : (⟨S256, .f32⟩ : BufTy).Contents (Elt Ideal)) shapeCasts_S256_S1x256 := by
  show StableHlo.after hostOps0 (W0 m ρ c) (Proc.devRef .tc main_v42) = _
  dsimp only [hostOps0]
  after_results_simp
  try rfl

/-- The second edge weight matrix in the narrower format. -/
theorem v43_eq : (V1 m ρ c main_v43 : (⟨S256x256, .bf16⟩ : BufTy).Contents (Elt Ideal))
    = truncf (F := Ideal) .bf16 (m ((c : Thread nD τ).loc main_arg5) : (⟨S256x256, .f32⟩ : BufTy).Contents (Elt Ideal)) bitsLt_bf16_f32 := by
  show StableHlo.after hostOps0 (W0 m ρ c) (Proc.devRef .tc main_v43) = _
  dsimp only [hostOps0]
  after_results_simp
  try rfl

/-- The second edge bias laid out as a row. -/
theorem v44_eq : (V1 m ρ c main_v44 : (⟨S1x256, .f32⟩ : BufTy).Contents (Elt Ideal))
    = shapeCast S1x256 (m ((c : Thread nD τ).loc main_arg6) : (⟨S256, .f32⟩ : BufTy).Contents (Elt Ideal)) shapeCasts_S256_S1x256 := by
  show StableHlo.after hostOps0 (W0 m ρ c) (Proc.devRef .tc main_v44) = _
  dsimp only [hostOps0]
  after_results_simp
  try rfl

/-- The first coordinate weight matrix in the narrower format. -/
theorem v45_eq : (V1 m ρ c main_v45 : (⟨S256x256, .bf16⟩ : BufTy).Contents (Elt Ideal))
    = truncf (F := Ideal) .bf16 (m ((c : Thread nD τ).loc main_arg11) : (⟨S256x256, .f32⟩ : BufTy).Contents (Elt Ideal)) bitsLt_bf16_f32 := by
  show StableHlo.after hostOps0 (W0 m ρ c) (Proc.devRef .tc main_v45) = _
  dsimp only [hostOps0]
  after_results_simp
  try rfl

/-- The first coordinate bias laid out as a row. -/
theorem v46_eq : (V1 m ρ c main_v46 : (⟨S1x256, .f32⟩ : BufTy).Contents (Elt Ideal))
    = shapeCast S1x256 (m ((c : Thread nD τ).loc main_arg12) : (⟨S256, .f32⟩ : BufTy).Contents (Elt Ideal)) shapeCasts_S256_S1x256 := by
  show StableHlo.after hostOps0 (W0 m ρ c) (Proc.devRef .tc main_v46) = _
  dsimp only [hostOps0]
  after_results_simp
  try rfl

/-- The second coordinate weight, a column, laid out as a row. -/
theorem v47_eq : (V1 m ρ c main_v47 : (⟨S1x256, .f32⟩ : BufTy).Contents (Elt Ideal))
    = shapeCast S1x256 (m ((c : Thread nD τ).loc main_arg13) : (⟨S256x1, .f32⟩ : BufTy).Contents (Elt Ideal)) shapeCasts_S256x1_S1x256 := by
  show StableHlo.after hostOps0 (W0 m ρ c) (Proc.devRef .tc main_v47) = _
  dsimp only [hostOps0]
  after_results_simp
  try rfl

/-- The second coordinate bias, one number, laid out as a 1 × 1 array. -/
theorem v48_eq : (V1 m ρ c main_v48 : (⟨S1x1, .f32⟩ : BufTy).Contents (Elt Ideal))
    = shapeCast S1x1 (m ((c : Thread nD τ).loc main_arg14) : (⟨S1, .f32⟩ : BufTy).Contents (Elt Ideal)) shapeCasts_S1_S1x1 := by
  show StableHlo.after hostOps0 (W0 m ρ c) (Proc.devRef .tc main_v48) = _
  dsimp only [hostOps0]
  after_results_simp
  try rfl

/-- The first edge weight matrix's rows 0 … 255 (the rows that meet the sender's features). -/
theorem wA (k j : Fin 256) :
    (V1 m ρ c main_v38 : (⟨S256x256, .bf16⟩ : BufTy).Contents (Elt Ideal)) (ix2 k j)
      = (m ((c : Thread nD τ).loc main_arg3) : (⟨S513x256, .f32⟩ : BufTy).Contents (Elt Ideal)) (ix2 ⟨k.val, by omega⟩ j) := by
  rw [v38_eq]
  exact rows_apply 0 _ slices_S513x256_S256x256_0_0 k j ⟨k.val, by omega⟩ (by show k.val = 0 + k.val; omega)

/-- The first edge weight matrix's rows 256 … 511 (the rows that meet the receiver's features). -/
theorem wB (k j : Fin 256) :
    (V1 m ρ c main_v40 : (⟨S256x256, .bf16⟩ : BufTy).Contents (Elt Ideal)) (ix2 k j)
      = (m ((c : Thread nD τ).loc main_arg3) : (⟨S513x256, .f32⟩ : BufTy).Contents (Elt Ideal)) (ix2 ⟨256 + k.val, by omega⟩ j) := by
  rw [v40_eq]
  exact rows_apply 256 _ slices_S513x256_S256x256_256_0 k j ⟨256 + k.val, by omega⟩ rfl

/-- The first edge weight matrix's last row, 512 (the row that meets the squared distance). -/
theorem wC (j : Fin 256) :
    (V1 m ρ c main_v41 : (⟨S1x256, .f32⟩ : BufTy).Contents (Elt Ideal)) (ix2 0 j)
      = (m ((c : Thread nD τ).loc main_arg3) : (⟨S513x256, .f32⟩ : BufTy).Contents (Elt Ideal)) (ix2 ⟨512, by omega⟩ j) := by
  rw [v41_eq]
  exact rows_apply 512 _ slices_S513x256_S1x256_512_0 0 j ⟨512, by omega⟩ rfl

/-- The first edge bias, as a row. -/
theorem wb1 (j : Fin 256) :
    (V1 m ρ c main_v42 : (⟨S1x256, .f32⟩ : BufTy).Contents (Elt Ideal)) (ix2 0 j) = (m ((c : Thread nD τ).loc main_arg4) : (⟨S256, .f32⟩ : BufTy).Contents (Elt Ideal)) (ix1 j) := by
  rw [v42_eq]
  exact vector_as_row_apply _ shapeCasts_S256_S1x256 j

/-- The second edge weight matrix. -/
theorem wW2 (k j : Fin 256) :
    (V1 m ρ c main_v43 : (⟨S256x256, .bf16⟩ : BufTy).Contents (Elt Ideal)) (ix2 k j) = (m ((c : Thread nD τ).loc main_arg5) : (⟨S256x256, .f32⟩ : BufTy).Contents (Elt Ideal)) (ix2 k j) := by
  rw [v43_eq]
  rfl

/-- The second edge bias, as a row. -/
theorem wb2 (j : Fin 256) :
    (V1 m ρ c main_v44 : (⟨S1x256, .f32⟩ : BufTy).Contents (Elt Ideal)) (ix2 0 j) = (m ((c : Thread nD τ).loc main_arg6) : (⟨S256, .f32⟩ : BufTy).Contents (Elt Ideal)) (ix1 j) := by
  rw [v44_eq]
  exact vector_as_row_apply _ shapeCasts_S256_S1x256 j

/-- The first coordinate weight matrix. -/
theorem wW3 (k j : Fin 256) :
    (V1 m ρ c main_v45 : (⟨S256x256, .bf16⟩ : BufTy).Contents (Elt Ideal)) (ix2 k j) = (m ((c : Thread nD τ).loc main_arg11) : (⟨S256x256, .f32⟩ : BufTy).Contents (Elt Ideal)) (ix2 k j) := by
  rw [v45_eq]
  rfl

/-- The first coordinate bias, as a row. -/
theorem wb3 (j : Fin 256) :
    (V1 m ρ c main_v46 : (⟨S1x256, .f32⟩ : BufTy).Contents (Elt Ideal)) (ix2 0 j) = (m ((c : Thread nD τ).loc main_arg12) : (⟨S256, .f32⟩ : BufTy).Contents (Elt Ideal)) (ix1 j) := by
  rw [v46_eq]
  exact vector_as_row_apply _ shapeCasts_S256_S1x256 j

/-- The second coordinate weight, a column of 256 entries laid out as a row. -/
theorem ww (k : Fin 256) :
    (V1 m ρ c main_v47 : (⟨S1x256, .f32⟩ : BufTy).Contents (Elt Ideal)) (ix2 0 k) = (m ((c : Thread nD τ).loc main_arg13) : (⟨S256x1, .f32⟩ : BufTy).Contents (Elt Ideal)) (ix2 k 0) := by
  rw [v47_eq]
  exact column_as_row_apply _ shapeCasts_S256x1_S1x256 k

/-- The second coordinate bias, one number. -/
theorem wb4 :
    (V1 m ρ c main_v48 : (⟨S1x1, .f32⟩ : BufTy).Contents (Elt Ideal)) (ix2 0 0) = (m ((c : Thread nD τ).loc main_arg14) : (⟨S1, .f32⟩ : BufTy).Contents (Elt Ideal)) (ix1 0) := by
  rw [v48_eq]
  exact vector_as_row_apply _ shapeCasts_S1_S1x1 0

/-! ## Region 1's entry: the node kernel's inputs and weights

Between the two regions the host program scatters the edge results; it writes none of the argument arrays and does not
write the rounded node features again, so each of them is read back through those stretches unchanged. -/

/-- Argument 7 is as launched when region 0 has ended: nothing writes an argument. -/
theorem W2_main_arg7 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg7) := rfl

/-- Argument 8 is as launched when region 0 has ended: nothing writes an argument. -/
theorem W2_main_arg8 : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg8) := rfl

/-- Argument 9 is as launched when region 0 has ended: nothing writes an argument. -/
theorem W2_main_arg9 : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg9) := rfl

/-- Argument 10 is as launched when region 0 has ended: nothing writes an argument. -/
theorem W2_main_arg10 : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg10) := rfl

/-- The node features, rounded once before region 0, are still there when region 1 begins. -/
theorem W5_main_v4 : W5 m ρ c (Proc.devRef .tc main_v4) = W1 m ρ c (Proc.devRef .tc main_v4) :=
  calc W5 m ρ c (Proc.devRef .tc main_v4)
    _ = W4 m ρ c (Proc.devRef .tc main_v4) := StableHlo.after_of_forall_not_mem (b := Proc.devRef .tc main_v4) _ _ (List.forall_iff_forall_mem.mp (by
    simp only [hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W3 m ρ c (Proc.devRef .tc main_v4) := StableHlo.after_of_forall_not_mem (b := Proc.devRef .tc main_v4) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W2 m ρ c (Proc.devRef .tc main_v4) := StableHlo.after_of_forall_not_mem (b := Proc.devRef .tc main_v4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_v4) := W2_of_ne m ρ c main_v4 (by decide)

/-- The node features in the narrower format, as region 1 finds them. -/
theorem v4_eq : (V5 m ρ c main_v4 : (⟨S10000x256, .bf16⟩ : BufTy).Contents (Elt Ideal))
    = truncf (F := Ideal) .bf16 (m ((c : Thread nD τ).loc main_arg0) : (⟨S10000x256, .f32⟩ : BufTy).Contents (Elt Ideal)) bitsLt_bf16_f32 := by
  show W5 m ρ c (Proc.devRef .tc main_v4) = _
  rw [W5_main_v4]
  show StableHlo.after hostOps0 (W0 m ρ c) (Proc.devRef .tc main_v4) = _
  dsimp only [hostOps0]
  after_results_simp
  try rfl

/-- Rows 0 … 255 of the first node weight matrix, as one array. -/
theorem v69_eq : (V5 m ρ c main_v69 : (⟨S256x256, .bf16⟩ : BufTy).Contents (Elt Ideal))
    = truncf (F := Ideal) .bf16 (extractStridedSlice S256x256 ![0, 0] (m ((c : Thread nD τ).loc main_arg7) : (⟨S512x256, .f32⟩ : BufTy).Contents (Elt Ideal)) slices_S512x256_S256x256_0_0) bitsLt_bf16_f32 := by
  show StableHlo.after hostOps1_2 (W4 m ρ c) (Proc.devRef .tc main_v69) = _
  dsimp only [hostOps1_2]
  after_results_simp
  rw [W2_main_arg7]
  try rfl

/-- Rows 256 … 511 of the first node weight matrix, as one array. -/
theorem v71_eq : (V5 m ρ c main_v71 : (⟨S256x256, .bf16⟩ : BufTy).Contents (Elt Ideal))
    = truncf (F := Ideal) .bf16 (extractStridedSlice S256x256 ![256, 0] (m ((c : Thread nD τ).loc main_arg7) : (⟨S512x256, .f32⟩ : BufTy).Contents (Elt Ideal)) slices_S512x256_S256x256_256_0) bitsLt_bf16_f32 := by
  show StableHlo.after hostOps1_2 (W4 m ρ c) (Proc.devRef .tc main_v71) = _
  dsimp only [hostOps1_2]
  after_results_simp
  rw [W2_main_arg7]
  try rfl

/-- The first node bias laid out as a row. -/
theorem v72_eq : (V5 m ρ c main_v72 : (⟨S1x256, .f32⟩ : BufTy).Contents (Elt Ideal))
    = shapeCast S1x256 (m ((c : Thread nD τ).loc main_arg8) : (⟨S256, .f32⟩ : BufTy).Contents (Elt Ideal)) shapeCasts_S256_S1x256 := by
  show StableHlo.after hostOps1_2 (W4 m ρ c) (Proc.devRef .tc main_v72) = _
  dsimp only [hostOps1_2]
  after_results_simp
  rw [W2_main_arg8]
  try rfl

/-- The second node weight matrix in the narrower format. -/
theorem v73_eq : (V5 m ρ c main_v73 : (⟨S256x256, .bf16⟩ : BufTy).Contents (Elt Ideal))
    = truncf (F := Ideal) .bf16 (m ((c : Thread nD τ).loc main_arg9) : (⟨S256x256, .f32⟩ : BufTy).Contents (Elt Ideal)) bitsLt_bf16_f32 := by
  show StableHlo.after hostOps1_2 (W4 m ρ c) (Proc.devRef .tc main_v73) = _
  dsimp only [hostOps1_2]
  after_results_simp
  rw [W2_main_arg9]
  try rfl

/-- The second node bias laid out as a row. -/
theorem v74_eq : (V5 m ρ c main_v74 : (⟨S1x256, .f32⟩ : BufTy).Contents (Elt Ideal))
    = shapeCast S1x256 (m ((c : Thread nD τ).loc main_arg10) : (⟨S256, .f32⟩ : BufTy).Contents (Elt Ideal)) shapeCasts_S256_S1x256 := by
  show StableHlo.after hostOps1_2 (W4 m ρ c) (Proc.devRef .tc main_v74) = _
  dsimp only [hostOps1_2]
  after_results_simp
  rw [W2_main_arg10]
  try rfl

/-- The node features the node kernel reads are the argument's (a change of format only). -/
theorem nH (n : Fin 10000) (k : Fin 256) :
    (V5 m ρ c main_v4 : (⟨S10000x256, .bf16⟩ : BufTy).Contents (Elt Ideal)) (ix2 n k) = (m ((c : Thread nD τ).loc main_arg0) : (⟨S10000x256, .f32⟩ : BufTy).Contents (Elt Ideal)) (ix2 n k) := by
  rw [v4_eq]
  rfl

/-- The first node weight matrix's rows 0 … 255 (the rows that meet the node's own features). -/
theorem nW1a (k j : Fin 256) :
    (V5 m ρ c main_v69 : (⟨S256x256, .bf16⟩ : BufTy).Contents (Elt Ideal)) (ix2 k j)
      = (m ((c : Thread nD τ).loc main_arg7) : (⟨S512x256, .f32⟩ : BufTy).Contents (Elt Ideal)) (ix2 ⟨k.val, by omega⟩ j) := by
  rw [v69_eq]
  exact rows_apply 0 _ slices_S512x256_S256x256_0_0 k j ⟨k.val, by omega⟩ (by show k.val = 0 + k.val; omega)

/-- The first node weight matrix's rows 256 … 511 (the rows that meet the aggregated edge features). -/
theorem nW1b (k j : Fin 256) :
    (V5 m ρ c main_v71 : (⟨S256x256, .bf16⟩ : BufTy).Contents (Elt Ideal)) (ix2 k j)
      = (m ((c : Thread nD τ).loc main_arg7) : (⟨S512x256, .f32⟩ : BufTy).Contents (Elt Ideal)) (ix2 ⟨256 + k.val, by omega⟩ j) := by
  rw [v71_eq]
  exact rows_apply 256 _ slices_S512x256_S256x256_256_0 k j ⟨256 + k.val, by omega⟩ rfl

/-- The first node bias, as a row. -/
theorem nb1 (j : Fin 256) :
    (V5 m ρ c main_v72 : (⟨S1x256, .f32⟩ : BufTy).Contents (Elt Ideal)) (ix2 0 j) = (m ((c : Thread nD τ).loc main_arg8) : (⟨S256, .f32⟩ : BufTy).Contents (Elt Ideal)) (ix1 j) := by
  rw [v72_eq]
  exact vector_as_row_apply _ shapeCasts_S256_S1x256 j

/-- The second node weight matrix. -/
theorem nW2 (k j : Fin 256) :
    (V5 m ρ c main_v73 : (⟨S256x256, .bf16⟩ : BufTy).Contents (Elt Ideal)) (ix2 k j) = (m ((c : Thread nD τ).loc main_arg9) : (⟨S256x256, .f32⟩ : BufTy).Contents (Elt Ideal)) (ix2 k j) := by
  rw [v73_eq]
  rfl

/-- The second node bias, as a row. -/
theorem nb2 (j : Fin 256) :
    (V5 m ρ c main_v74 : (⟨S1x256, .f32⟩ : BufTy).Contents (Elt Ideal)) (ix2 0 j) = (m ((c : Thread nD τ).loc main_arg10) : (⟨S256, .f32⟩ : BufTy).Contents (Elt Ideal)) (ix1 j) := by
  rw [v74_eq]
  exact vector_as_row_apply _ shapeCasts_S256_S1x256 j

end Cert.Glue

end
-- ==== Proof.RefSide.lean ====
/-
  The reference program, read as the row formulas of one message-passing layer.

  The reference computes each layer on whole arrays: it joins the gathered source rows, the gathered target rows and
  the squared distances along the columns, multiplies by the first weight matrix, adds the bias (a vector spread to a
  row and then down the rows) and applies the activation `y · (1 / (1 + e^(−y)))`; the second edge layer, the two
  layers of the coordinate weight and the two node layers (whose input joins a node's own row with its aggregated row)
  have the same shape. Read at one entry, every one of these is a row formula:

    • a product of two matrices plus such a bias, at `(e, j)`, is column `j` of `x · W + b` for the row `x` = row `e` of
      the left operand;
    • the activation, spelled with the literal one broadcast twice, is `silu` of the entry, because
      `1 / (1 + e^(−y))` is the logistic function by definition;
    • arrays joined along the columns, at `(e, k)`, are the joined row `[u, v, r]` (or `[u, v]`) of their rows, by
      cases on which part `k` falls in.

  Composed along the program, the edge features are `edgeFeat`, the coordinate weights `coordScalar` and the new node
  features `nodeOut` of the gathered rows, which stay opaque here. Only definitions are opened: the reference IS the
  joined-row form, no law of arithmetic is used and nothing needs to be finite.
-/
import proofs.«162943_j20607253086819_2_alg».proof.Proof.Gen.ReferenceIdeal.Read
import proofs.«162943_j20607253086819_2_alg».proof.Proof.Layer
import proofs.«162943_j20607253086819_2_alg».proof.Proof.LibDenseRow
import Idealize.ShloMosaic.Lib.Pipeline.Value
import Idealize.ShloMosaic.Lib.ValueIdx
import Idealize.ShloMosaic.PureOps.Ideal.Laws
import Idealize.ShloMosaic.Lib.IdealHost

noncomputable section

open scoped BigOperators

namespace Cert.RefSide

open Cert.ReferenceIdeal Cert.ReferenceIdeal.Gen Cert.ReferenceIdeal.Read Cert.Layer
open Idealize.ShloMosaic Idealize.ShloMosaic.ValueIdx

/-! ## The printed contractions are plain rows-by-columns products -/

theorem dot_edge1 : dot_S320000x513_S513x256_S320000x256_1_0_0_1_n_n = DotDims.plain 320000 513 256 := rfl
theorem dot_edge2 : dot_S320000x256_S256x256_S320000x256_1_0_0_1_n_n = DotDims.plain 320000 256 256 := rfl
theorem dot_coord : dot_S320000x256_S256x1_S320000x1_1_0_0_1_n_n = DotDims.plain 320000 256 1 := rfl
theorem dot_node1 : dot_S10000x512_S512x256_S10000x256_1_0_0_1_n_n = DotDims.plain 10000 512 256 := rfl
theorem dot_node2 : dot_S10000x256_S256x256_S10000x256_1_0_0_1_n_n = DotDims.plain 10000 256 256 := rfl

/-! ## One dense layer at an entry -/

/-- A rows-by-columns product plus a bias vector broadcast to a row and then down the rows: at entry `(e, j)` it is
    column `j` of `x · W + b` for the row `x` = row `e` of the left operand. -/
theorem dense_ref (M K N : Nat) (X : FVec Ideal ⟨2, ![M, K]⟩ .f32) (W : FVec Ideal ⟨2, ![K, N]⟩ .f32)
    (b : FVec Ideal ⟨1, ![N]⟩ .f32)
    (h₁ : (⟨1, ![N]⟩ : Shape).BroadcastsInDim ⟨2, ![1, N]⟩ ![1])
    (h₂ : (⟨2, ![1, N]⟩ : Shape).BroadcastsInDim ⟨2, ![M, N]⟩ ![0, 1]) (e : Fin M) (j : Fin N) :
    addf (Host.dotGeneral (DotDims.plain M K N) none X W)
        (broadcastInDim ⟨2, ![M, N]⟩ ![0, 1] h₂ (broadcastInDim ⟨2, ![1, N]⟩ ![1] h₁ b)) (ix2 e j)
      = dense (fun k => X (ix2 e k)) (mat W) (vec b) j := by
  rw [addf_apply, Cert.LibDenseRow.dotGeneral_apply M K N none X W e j, Cert.LibDenseRow.biasVec_apply M N b h₁ h₂ e j]
  rfl

/-! ## The activation -/

/-- The host's spelling of the activation, `y · (1 / (1 + e^(−y)))` with both ones the broadcast literal, at an entry:
    `silu` of the entry. -/
theorem silu_ref {s : Shape} (h : S_.BroadcastsInDim s (![] : Fin 0 → Fin s.rank)) (Y : FVec Ideal s .f32) (i : s.Idx) :
    mulf Y (Host.divf (broadcastInDim s ![] h (constant (F := Ideal) S_ .f32 0x3F800000#32))
      (addf (broadcastInDim s ![] h (constant (F := Ideal) S_ .f32 0x3F800000#32)) (Host.exp (Host.negf Y)))) i
      = silu (Y i) := by
  have h1 : broadcastInDim s ![] h (constant (F := Ideal) S_ .f32 0x3F800000#32) i = 1 :=
    (broadcastInDim_apply _ h _ i ix0 (fun a => a.elim0)).trans Ideal.ofBits_one_f32
  show Y i * Ideal.div (broadcastInDim s ![] h (constant (F := Ideal) S_ .f32 0x3F800000#32) i)
    (broadcastInDim s ![] h (constant (F := Ideal) S_ .f32 0x3F800000#32) i + Ideal.exp (-(Y i))) = _
  rw [h1]
  rfl

/-! ## The joined rows -/

/-- The three arrays joined along the columns, at `(e, k)`: the row of the first, then the row of the second, then the
    one entry of the third. -/
theorem cat3_ref (A B : FVec Ideal S320000x256 .f32) (R : FVec Ideal S320000x1 .f32) (e : Fin 320000) (k : Fin 513) :
    concatenate S320000x513 1 [⟨S320000x256, A⟩, ⟨S320000x256, B⟩, ⟨S320000x1, R⟩]
        concatenates_S320000x256_S320000x256_S320000x1_S320000x513_d1 (ix2 e k)
      = cat3 (a := 256) (b := 256) (rowOfArr A e) (rowOfArr B e) (R (ix2 e 0)) k := by
  by_cases h1 : k.val < 256
  · rw [cat3, dif_pos h1]
    exact concatenate_apply_piece (1 : Fin S320000x513.rank) [⟨S320000x256, A⟩, ⟨S320000x256, B⟩, ⟨S320000x1, R⟩] concatenates_S320000x256_S320000x256_S320000x1_S320000x513_d1
      (ix2 e k) 0 (by simp) S320000x256 A rfl rfl 0 rfl (ix2 e ⟨k.val, h1⟩)
      (fun b hb => by
        match b with
        | ⟨0, _⟩ => rfl
        | ⟨1, _⟩ => exact absurd rfl hb)
      (by show 0 + k.val = k.val; omega)
  · by_cases h2 : k.val < 256 + 256
    · rw [cat3, dif_neg h1, dif_pos h2]
      exact concatenate_apply_piece (1 : Fin S320000x513.rank) [⟨S320000x256, A⟩, ⟨S320000x256, B⟩, ⟨S320000x1, R⟩] concatenates_S320000x256_S320000x256_S320000x1_S320000x513_d1
        (ix2 e k) 1 (by simp) S320000x256 B rfl rfl 256 rfl (ix2 e ⟨k.val - 256, by omega⟩)
        (fun b hb => by
          match b with
          | ⟨0, _⟩ => rfl
          | ⟨1, _⟩ => exact absurd rfl hb)
        (by show 256 + (k.val - 256) = k.val; omega)
    · rw [cat3, dif_neg h1, dif_neg h2]
      exact concatenate_apply_piece (1 : Fin S320000x513.rank) [⟨S320000x256, A⟩, ⟨S320000x256, B⟩, ⟨S320000x1, R⟩] concatenates_S320000x256_S320000x256_S320000x1_S320000x513_d1
        (ix2 e k) 2 (by simp) S320000x1 R rfl rfl 512 rfl (ix2 e 0)
        (fun b hb => by
          match b with
          | ⟨0, _⟩ => rfl
          | ⟨1, _⟩ => exact absurd rfl hb)
        (by show 512 + 0 = k.val; have := k.isLt; omega)

/-- The two arrays joined along the columns, at `(n, k)`: the row of the first, then the row of the second. -/
theorem cat2_ref (A B : FVec Ideal S10000x256 .f32) (n : Fin 10000) (k : Fin 512) :
    concatenate S10000x512 1 [⟨S10000x256, A⟩, ⟨S10000x256, B⟩] concatenates_S10000x256_S10000x256_S10000x512_d1 (ix2 n k)
      = cat2 (a := 256) (b := 256) (rowOfArr A n) (rowOfArr B n) k := by
  by_cases h1 : k.val < 256
  · rw [cat2, dif_pos h1]
    exact concatenate_pair_apply_left (1 : Fin S10000x512.rank) A B concatenates_S10000x256_S10000x256_S10000x512_d1
      (ix2 n k) rfl (ix2 n ⟨k.val, h1⟩)
      (fun b => by
        match b with
        | ⟨0, _⟩ => rfl
        | ⟨1, _⟩ => rfl)
  · rw [cat2, dif_neg h1]
    exact concatenate_pair_apply_right (1 : Fin S10000x512.rank) A B concatenates_S10000x256_S10000x256_S10000x512_d1
      (ix2 n k) rfl rfl (ix2 n ⟨k.val - 256, by have := k.isLt; omega⟩)
      (fun b hb => by
        match b with
        | ⟨0, _⟩ => rfl
        | ⟨1, _⟩ => exact absurd rfl hb)
      (by show (k.val - 256) + 256 = k.val; omega)

/-! ## The layers of the printed program, each at one entry -/

/-- The second edge product (`[E, 256]` by `[256, 256]`) plus its bias, at `(e, j)`. -/
theorem dense_edge2 (X : FVec Ideal S320000x256 .f32) (W : FVec Ideal S256x256 .f32) (b : FVec Ideal S256 .f32)
    (e : Fin 320000) (j : Fin 256) :
    addf (Host.dotGeneral dot_S320000x256_S256x256_S320000x256_1_0_0_1_n_n none X W)
        (broadcastInDim S320000x256 ![0, 1] bcast_S1x256_S320000x256_0_1 (broadcastInDim S1x256 ![1] bcast_S256_S1x256_1 b)) (ix2 e j)
      = dense (fun k => X (ix2 e k)) (mat W) (vec b) j := by
  rw [dot_edge2]; exact dense_ref 320000 256 256 X W b _ _ e j

/-- The last coordinate product (`[E, 256]` by `[256, 1]`) plus its one-entry bias, at `(e, z)`. -/
theorem dense_coord (X : FVec Ideal S320000x256 .f32) (W : FVec Ideal S256x1 .f32) (b : FVec Ideal S1 .f32)
    (e : Fin 320000) (z : Fin 1) :
    addf (Host.dotGeneral dot_S320000x256_S256x1_S320000x1_1_0_0_1_n_n none X W)
        (broadcastInDim S320000x1 ![0, 1] bcast_S1x1_S320000x1_0_1 (broadcastInDim S1x1 ![1] bcast_S1_S1x1_1 b)) (ix2 e z)
      = dense (fun k => X (ix2 e k)) (mat W) (vec b) z := by
  rw [dot_coord]; exact dense_ref 320000 256 1 X W b _ _ e z

/-- The first node product (`[N, 512]` by `[512, 256]`) plus its bias, at `(n, k)`. -/
theorem dense_node1 (X : FVec Ideal S10000x512 .f32) (W : FVec Ideal S512x256 .f32) (b : FVec Ideal S256 .f32)
    (n : Fin 10000) (k : Fin 256) :
    addf (Host.dotGeneral dot_S10000x512_S512x256_S10000x256_1_0_0_1_n_n none X W)
        (broadcastInDim S10000x256 ![0, 1] bcast_S1x256_S10000x256_0_1 (broadcastInDim S1x256 ![1] bcast_S256_S1x256_1 b)) (ix2 n k)
      = dense (fun k' => X (ix2 n k')) (mat W) (vec b) k := by
  rw [dot_node1]; exact dense_ref 10000 512 256 X W b _ _ n k

/-- The second node product (`[N, 256]` by `[256, 256]`) plus its bias, at `(n, j)`. -/
theorem dense_node2 (X : FVec Ideal S10000x256 .f32) (W : FVec Ideal S256x256 .f32) (b : FVec Ideal S256 .f32)
    (n : Fin 10000) (j : Fin 256) :
    addf (Host.dotGeneral dot_S10000x256_S256x256_S10000x256_1_0_0_1_n_n none X W)
        (broadcastInDim S10000x256 ![0, 1] bcast_S1x256_S10000x256_0_1 (broadcastInDim S1x256 ![1] bcast_S256_S1x256_1 b)) (ix2 n j)
      = dense (fun k => X (ix2 n k)) (mat W) (vec b) j := by
  rw [dot_node2]; exact dense_ref 10000 256 256 X W b _ _ n j

/-- The first edge layer before its activation, at `(e, k)`: the joined row `[A(e), B(e), R(e)]` times the matrix plus
    the bias. -/
theorem dense_edge1 (A B : FVec Ideal S320000x256 .f32) (R : FVec Ideal S320000x1 .f32) (W : FVec Ideal S513x256 .f32)
    (b : FVec Ideal S256 .f32) (e : Fin 320000) (k : Fin 256) :
    addf (Host.dotGeneral dot_S320000x513_S513x256_S320000x256_1_0_0_1_n_n none
          (concatenate S320000x513 1 [⟨S320000x256, A⟩, ⟨S320000x256, B⟩, ⟨S320000x1, R⟩]
            concatenates_S320000x256_S320000x256_S320000x1_S320000x513_d1) W)
        (broadcastInDim S320000x256 ![0, 1] bcast_S1x256_S320000x256_0_1 (broadcastInDim S1x256 ![1] bcast_S256_S1x256_1 b)) (ix2 e k)
      = dense (cat3 (a := 256) (b := 256) (rowOfArr A e) (rowOfArr B e) (R (ix2 e 0))) (mat W) (vec b) k := by
  rw [dot_edge1]
  refine (dense_ref 320000 513 256 _ W b _ _ e k).trans ?_
  exact congrArg (fun x => dense x (mat W) (vec b) k) (funext fun k' => cat3_ref A B R e k')

/-! ## The reference's stages at one entry -/

/-- The first hidden row of the reference, at `(e, k)`. -/
theorem hidden_at (x0 : (⟨S10000x256, .f32⟩ : BufTy).Contents (Elt Ideal)) (x1 : (⟨S10000x3, .f32⟩ : BufTy).Contents (Elt Ideal)) (x2 : (⟨S2x320000, .i32⟩ : BufTy).Contents (Elt Ideal)) (x3 : (⟨S513x256, .f32⟩ : BufTy).Contents (Elt Ideal)) (x4 : (⟨S256, .f32⟩ : BufTy).Contents (Elt Ideal)) (e : Fin 320000) (k : Fin 256) :
    val_main_v41 (F := Ideal) x0 x1 x2 x3 x4 (ix2 e k) = edgeHidden (val_main_v28 (F := Ideal) x0 x2) (val_main_v35 (F := Ideal) x0 x2) (val_main_v21 (F := Ideal) x1 x2) x3 x4 e k := by
  refine (silu_ref bcast_S_S320000x256 (val_main_v40 (F := Ideal) x0 x1 x2 x3 x4) (ix2 e k)).trans ?_
  exact congrArg silu (dense_edge1 (val_main_v28 (F := Ideal) x0 x2) (val_main_v35 (F := Ideal) x0 x2) (val_main_v21 (F := Ideal) x1 x2) x3 x4 e k)

/-- The edge features of the reference, at `(e, j)`. -/
theorem edge_at (x0 : (⟨S10000x256, .f32⟩ : BufTy).Contents (Elt Ideal)) (x1 : (⟨S10000x3, .f32⟩ : BufTy).Contents (Elt Ideal)) (x2 : (⟨S2x320000, .i32⟩ : BufTy).Contents (Elt Ideal)) (x3 : (⟨S513x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (e : Fin 320000) (j : Fin 256) :
    val_main_v46 (F := Ideal) x0 x1 x2 x3 x4 x5 x6 (ix2 e j) = edgeFeat (val_main_v28 (F := Ideal) x0 x2) (val_main_v35 (F := Ideal) x0 x2) (val_main_v21 (F := Ideal) x1 x2) x3 x4 x5 x6 e j := by
  refine (silu_ref bcast_S_S320000x256 (val_main_v45 (F := Ideal) x0 x1 x2 x3 x4 x5 x6) (ix2 e j)).trans ?_
  refine congrArg silu ?_
  refine (dense_edge2 (val_main_v41 (F := Ideal) x0 x1 x2 x3 x4) x5 x6 e j).trans ?_
  exact congrArg (fun x => dense x (mat x5) (vec x6) j) (funext fun k => hidden_at x0 x1 x2 x3 x4 e k)

/-- The hidden row of the coordinate layer of the reference, at `(e, k)`. -/
theorem coordHidden_at (x0 : (⟨S10000x256, .f32⟩ : BufTy).Contents (Elt Ideal)) (x1 : (⟨S10000x3, .f32⟩ : BufTy).Contents (Elt Ideal)) (x2 : (⟨S2x320000, .i32⟩ : BufTy).Contents (Elt Ideal)) (x3 : (⟨S513x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x11 : (⟨S256x256, .f32⟩ : BufTy).Contents (Elt Ideal)) (x12 : (⟨S256, .f32⟩ : BufTy).Contents (Elt Ideal)) (e : Fin 320000) (k : Fin 256) :
    val_main_v51 (F := Ideal) x0 x1 x2 x3 x4 x5 x6 x11 x12 (ix2 e k)
      = silu (dense (edgeFeat (val_main_v28 (F := Ideal) x0 x2) (val_main_v35 (F := Ideal) x0 x2) (val_main_v21 (F := Ideal) x1 x2) x3 x4 x5 x6 e) (mat x11) (vec x12) k) := by
  refine (silu_ref bcast_S_S320000x256 (val_main_v50 (F := Ideal) x0 x1 x2 x3 x4 x5 x6 x11 x12) (ix2 e k)).trans (congrArg silu ?_)
  refine (dense_edge2 (val_main_v46 (F := Ideal) x0 x1 x2 x3 x4 x5 x6) x11 x12 e k).trans ?_
  exact congrArg (fun x => dense x (mat x11) (vec x12) k) (funext fun j => edge_at x0 x1 x2 x3 x4 x5 x6 e j)

/-- The coordinate weight of the reference, at `(e, z)`. -/
theorem coord_at (x0 : (⟨S10000x256, .f32⟩ : BufTy).Contents (Elt Ideal)) (x1 : (⟨S10000x3, .f32⟩ : BufTy).Contents (Elt Ideal)) (x2 : (⟨S2x320000, .i32⟩ : BufTy).Contents (Elt Ideal)) (x3 : (⟨S513x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x11 : (⟨S256x256, .f32⟩ : BufTy).Contents (Elt Ideal)) (x12 : (⟨S256, .f32⟩ : BufTy).Contents (Elt Ideal)) (x13 : (⟨S256x1, .f32⟩ : BufTy).Contents (Elt Ideal)) (x14 : (⟨S1, .f32⟩ : BufTy).Contents (Elt Ideal)) (e : Fin 320000) (z : Fin 1) :
    val_main_v55 (F := Ideal) x0 x1 x2 x3 x4 x5 x6 x11 x12 x13 x14 (ix2 e z)
      = coordScalar (edgeFeat (val_main_v28 (F := Ideal) x0 x2) (val_main_v35 (F := Ideal) x0 x2) (val_main_v21 (F := Ideal) x1 x2) x3 x4 x5 x6 e) x11 x12 x13 x14 := by
  obtain rfl : z = 0 := Subsingleton.elim _ _
  refine (dense_coord (val_main_v51 (F := Ideal) x0 x1 x2 x3 x4 x5 x6 x11 x12) x13 x14 e 0).trans ?_
  show (∑ k : Fin 256, val_main_v51 (F := Ideal) x0 x1 x2 x3 x4 x5 x6 x11 x12 (ix2 e k) * x13 (ix2 k 0)) + x14 (ix1 0) = _
  unfold coordScalar
  refine congrArg (· + x14 (ix1 0)) (Finset.sum_congr rfl fun k _ => congrArg (· * x13 (ix2 k 0)) ?_)
  exact coordHidden_at x0 x1 x2 x3 x4 x5 x6 x11 x12 e k

/-- The new node features of the reference, at `(n, j)`. -/
theorem node_at (x0 : (⟨S10000x256, .f32⟩ : BufTy).Contents (Elt Ideal)) (x1 : (⟨S10000x3, .f32⟩ : BufTy).Contents (Elt Ideal)) (x2 : (⟨S2x320000, .i32⟩ : BufTy).Contents (Elt Ideal)) (x3 : (⟨S513x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S512x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (n : Fin 10000) (j : Fin 256) :
    val_main_v80 (F := Ideal) x0 x1 x2 x3 x4 x5 x6 x7 x8 x9 x10 (ix2 n j)
      = nodeOut (rowOfArr x0 n) (rowOfArr (val_main_v70 (F := Ideal) x0 x1 x2 x3 x4 x5 x6) n) x7 x8 x9 x10 j := by
  refine (dense_node2 (val_main_v76 (F := Ideal) x0 x1 x2 x3 x4 x5 x6 x7 x8) x9 x10 n j).trans ?_
  refine congrArg (fun x => dense x (mat x9) (vec x10) j) (funext fun k => ?_)
  refine (silu_ref bcast_S_S10000x256 (val_main_v75 (F := Ideal) x0 x1 x2 x3 x4 x5 x6 x7 x8) (ix2 n k)).trans (congrArg silu ?_)
  refine (dense_node1 (val_main_v71 (F := Ideal) x0 x1 x2 x3 x4 x5 x6) x7 x8 n k).trans ?_
  exact congrArg (fun x => dense x (mat x7) (vec x8) k)
    (funext fun k' => cat2_ref x0 (val_main_v70 (F := Ideal) x0 x1 x2 x3 x4 x5 x6) n k')

/-! ## The three arrays -/

/-- THE REFERENCE'S EDGE FEATURES are the row formula `edgeFeat` of the gathered rows and the squared distances. -/
theorem ref_edge (x0 : (⟨S10000x256, .f32⟩ : BufTy).Contents (Elt Ideal)) (x1 : (⟨S10000x3, .f32⟩ : BufTy).Contents (Elt Ideal)) (x2 : (⟨S2x320000, .i32⟩ : BufTy).Contents (Elt Ideal)) (x3 : (⟨S513x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) :
    val_main_v46 (F := Ideal) x0 x1 x2 x3 x4 x5 x6
      = fun i => edgeFeat (val_main_v28 (F := Ideal) x0 x2) (val_main_v35 (F := Ideal) x0 x2) (val_main_v21 (F := Ideal) x1 x2) x3 x4 x5 x6 (i 0) (i 1) := by
  funext i
  obtain ⟨e, j, rfl⟩ : ∃ (e : Fin 320000) (j : Fin 256), i = ix2 e j := ⟨i 0, i 1, eq_ix2 i⟩
  exact edge_at x0 x1 x2 x3 x4 x5 x6 e j

/-- THE REFERENCE'S COORDINATE WEIGHTS are the row formula `coordScalar` of the edge features. -/
theorem ref_coord (x0 : (⟨S10000x256, .f32⟩ : BufTy).Contents (Elt Ideal)) (x1 : (⟨S10000x3, .f32⟩ : BufTy).Contents (Elt Ideal)) (x2 : (⟨S2x320000, .i32⟩ : BufTy).Contents (Elt Ideal)) (x3 : (⟨S513x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x11 : (⟨S256x256, .f32⟩ : BufTy).Contents (Elt Ideal)) (x12 : (⟨S256, .f32⟩ : BufTy).Contents (Elt Ideal)) (x13 : (⟨S256x1, .f32⟩ : BufTy).Contents (Elt Ideal)) (x14 : (⟨S1, .f32⟩ : BufTy).Contents (Elt Ideal)) :
    val_main_v55 (F := Ideal) x0 x1 x2 x3 x4 x5 x6 x11 x12 x13 x14
      = fun i => coordScalar (edgeFeat (val_main_v28 (F := Ideal) x0 x2) (val_main_v35 (F := Ideal) x0 x2) (val_main_v21 (F := Ideal) x1 x2) x3 x4 x5 x6 (i 0)) x11 x12 x13 x14 := by
  funext i
  obtain ⟨e, z, rfl⟩ : ∃ (e : Fin 320000) (z : Fin 1), i = ix2 e z := ⟨i 0, i 1, eq_ix2 i⟩
  exact coord_at x0 x1 x2 x3 x4 x5 x6 x11 x12 x13 x14 e z

/-- THE REFERENCE'S NEW NODE FEATURES are the row formula `nodeOut` of the node's own row and its aggregated row. -/
theorem ref_node (x0 : (⟨S10000x256, .f32⟩ : BufTy).Contents (Elt Ideal)) (x1 : (⟨S10000x3, .f32⟩ : BufTy).Contents (Elt Ideal)) (x2 : (⟨S2x320000, .i32⟩ : BufTy).Contents (Elt Ideal)) (x3 : (⟨S513x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S512x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) :
    val_main_v80 (F := Ideal) x0 x1 x2 x3 x4 x5 x6 x7 x8 x9 x10
      = fun i => nodeOut (rowOfArr x0 (i 0)) (rowOfArr (val_main_v70 (F := Ideal) x0 x1 x2 x3 x4 x5 x6) (i 0)) x7 x8 x9 x10 (i 1) := by
  funext i
  obtain ⟨n, j, rfl⟩ : ∃ (n : Fin 10000) (j : Fin 256), i = ix2 n j := ⟨i 0, i 1, eq_ix2 i⟩
  exact node_at x0 x1 x2 x3 x4 x5 x6 x7 x8 x9 x10 n j

end Cert.RefSide

end
-- ==== Proof.LibRowGatherScatter.lean ====
/-
  Rows gathered, rows scattered and added, and a matrix product, each read at one element.

  A graph layer moves whole rows: edge `e` reads the row of its source node out of an array `[N, C]` (a gather with one
  start index per edge), and the rows of all edges that end in node `p` are added into row `p` of another array (a
  scatter with an `add` body). This file reads both operations, at the dimension numbers such a layer has, at one
  element `(e, c)` resp. `(p, c)`:

    • the gathered element `(e, c)` is the operand at `(rowOf idx e, c)`, where `rowOf idx e` is edge `e`'s index word read
      as a signed integer and clamped into `[0, N − 1]`;
    • the scattered-and-added element `(p, c)` is the operand's plus the sum, over the edges `e` whose index word read as a
      signed integer is `p` (`edgesInto idx p`), of the update at `(e, c)`; an index word outside `[0, N − 1]` names no node
      and its row is dropped.

  Neither the row `rowOf idx e` nor the edge set `edgesInto idx p` depends on the row width `C`: the same edges feed node
  `p` whether rows of width 3 or of width 32 are moved. The file also reads the product of an `[N, K]` by a `[K, M]`
  matrix at `(p, j)` as the sum over `k` of the products, and the three broadcasts such a layer uses (a scalar to any
  shape, a vector `[E]` to a column `[E, 1]`, a column `[E, 1]` to `[E, C]`) at one element.

  Everything is stated for arbitrary extents `N`, `E`, `C`, `K`, `M`; the dimension-number records are written out with
  their well-formedness condition as a parameter, so a record with the same lists over literal shapes is one of these
  by unfolding.
-/
import Idealize.ShloMosaic.Lib.ValueIdx
import Idealize.ShloMosaic.PureOps.Ideal.Laws
import Idealize.ShloMosaic.Lib.Pipeline.Value

noncomputable section

open scoped BigOperators

namespace Cert.LibRowGatherScatter

open Idealize.ShloMosaic Idealize.ShloMosaic.ValueIdx

/-! ## Gathering rows -/

/-- The dimension numbers of a gather of rows: operand `[N, C]`, one start index per edge (`[E, 1]`, the index vector on
    axis 1), result `[E, C]`; the operand's axis 0 is indexed and collapsed, its axis 1 is the result's offset axis 1, a
    slice is one whole row (`[1, C]`). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its index word as a signed integer, clamped into `[0, N − 1]`. It does not depend on the row
    width. -/
def rowOf {N E w : Nat} (hN : 0 < N) (idx : IVec ⟨2, ![E, 1]⟩ w) (e : Fin E) : Fin N :=
  ⟨min (idx (ix2 e 0)).toInt.toNat (N - 1), by omega⟩

/-- On the operand's row axis, the element a gather of rows reads for result element `(e, c)` lies in row `rowOf idx e`:
    the start index is clamped to `N − 1` (a slice is one row), and neither a batching nor an offset coordinate is added
    on a collapsed axis. -/
theorem operandIdx_row {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (((rowGatherDims N E C wf).operandIdx (ix2 e c) idx (0 : Fin 2) : Fin N) : ℕ) = (rowOf hN idx e : ℕ) := by
  show (rowGatherDims N E C wf).start (ix2 e c) idx (0 : Fin 2) + (rowGatherDims N E C wf).batchCoord (ix2 e c) (0 : Fin 2)
    + (rowGatherDims N E C wf).offCoord (ix2 e c) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the operand's column axis, the element a gather of rows reads for result element `(e, c)` is in column `c`: the
    axis is not indexed (start `0`) and the result's offset coordinate is `c`. -/
theorem operandIdx_col {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (((rowGatherDims N E C wf).operandIdx (ix2 e c) idx (1 : Fin 2) : Fin C) : ℕ) = (c : ℕ) := by
  show (rowGatherDims N E C wf).start (ix2 e c) idx (1 : Fin 2) + (rowGatherDims N E C wf).batchCoord (ix2 e c) (1 : Fin 2)
    + (rowGatherDims N E C wf).offCoord (ix2 e c) (1 : Fin 2) = _
  rw [GatherDims.batchCoord_eq_zero _ _ _ List.not_mem_nil]
  have hs : (rowGatherDims N E C wf).start (ix2 e c) idx (1 : Fin 2) = 0 := by
    unfold GatherDims.start
    rw [dif_neg (show (1 : Fin 2) ∉ ([0] : List (Fin 2)) by decide)]
  rw [hs]
  have hk : (1 : Fin 2) ∈ (rowGatherDims N E C wf).sKept :=
    (GatherDims.mem_sKept _ _).2 ⟨show (1 : Fin 2) ∉ ([0] : List (Fin 2)) by decide, List.not_mem_nil⟩
  unfold GatherDims.offCoord
  rw [dif_pos hk]
  simp only [Nat.zero_add, Nat.add_zero]
  rfl

/-- A GATHER OF ROWS READ AT `(e, c)`: the operand at row `rowOf idx e`, column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf hN idx e) c) := by
  unfold Host.gather
  congr 1
  funext a
  match a with
  | ⟨0, _⟩ => exact Fin.ext (operandIdx_row hN wf idx e c)
  | ⟨1, _⟩ => exact Fin.ext (operandIdx_col wf idx e c)

/-! ## Scattering rows and adding them -/

/-- The dimension numbers of a scatter of rows: operand `[N, C]`, one scatter index per edge (`[E, 1]`, the index vector
    on axis 1), updates `[E, C]`; the scatter index names the operand's axis 0, which is an inserted window axis, and
    the updates' axis 1 is the window axis, going to the operand's axis 1. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The edges that end in node `p`: those whose index word, read as a signed integer, is `p`. It does not depend on the row
    width. -/
def edgesInto {N E w : Nat} (idx : IVec ⟨2, ![E, 1]⟩ w) (p : Fin N) : Finset (Fin E) :=
  Finset.univ.filter fun e => (idx (ix2 e 0)).toInt = (p.val : ℤ)

section Scatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the operand's row axis the window of update `(e, c)` starts at edge `e`'s index word, read signed, not clamped. -/
theorem scatter_start_row :
    (rowScatterDims N E C wf).start (ix2 e c) idx (0 : Fin 2) = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis, which no scatter index names, the window starts at `0`. -/
theorem scatter_start_col :
    (rowScatterDims N E C wf).start (ix2 e c) idx (1 : Fin 2) = 0 := by
  unfold ScatterDims.start
  rw [dif_neg (show (1 : Fin 2) ∉ ([0] : List (Fin 2)) by decide)]

/-- The row axis is an inserted window axis: the window coordinate there is `0`. -/
theorem scatter_window_row :
    (rowScatterDims N E C wf).window (ix2 e c) (0 : Fin 2) = 0 := by
  unfold ScatterDims.window
  rw [dif_neg (by simp [ScatterDims.sKept, Shape.kept])]

/-- The column axis carries the updates' window axis: the window coordinate there is `c`. -/
theorem scatter_window_col :
    (rowScatterDims N E C wf).window (ix2 e c) (1 : Fin 2) = c.val := by
  unfold ScatterDims.window
  rw [dif_pos (by simp [ScatterDims.sKept, Shape.kept])]
  rfl

/-- Start plus window coordinate on the row axis: edge `e`'s index word, read signed. -/
theorem scatter_sum_row :
    (rowScatterDims N E C wf).start (ix2 e c) idx (0 : Fin 2) + ((rowScatterDims N E C wf).window (ix2 e c) (0 : Fin 2) : ℤ)
      = (idx (ix2 e 0)).toInt := by
  rw [scatter_start_row, scatter_window_row]; simp

/-- Start plus window coordinate on the column axis: `c`. -/
theorem scatter_sum_col :
    (rowScatterDims N E C wf).start (ix2 e c) idx (1 : Fin 2) + ((rowScatterDims N E C wf).window (ix2 e c) (1 : Fin 2) : ℤ)
      = (c.val : ℤ) := by
  rw [scatter_start_col, scatter_window_col]; simp

/-- WHERE AN UPDATE LANDS: update `(e, c)` lands at operand element `(p, c')` exactly when edge `e`'s index word, read
    signed, is `p` and `c = c'`. (An index word that is negative or at least `N` lands nowhere.) -/
theorem resultIdx?_rows_eq_some_iff (p : Fin N) (c' : Fin C) :
    (rowScatterDims N E C wf).resultIdx? (ix2 e c) idx = some (ix2 p c') ↔ ((idx (ix2 e 0)).toInt = (p.val : ℤ) ∧ c = c') := by
  have h0 := scatter_sum_row wf idx e c
  have h1 := scatter_sum_col wf idx e c
  unfold ScatterDims.resultIdx?
  split
  · rename_i h
    rw [Option.some.injEq]
    constructor
    · intro hf
      have e0 : ((rowScatterDims N E C wf).start (ix2 e c) idx (0 : Fin 2)
          + ((rowScatterDims N E C wf).window (ix2 e c) (0 : Fin 2) : ℤ)).toNat = p.val :=
        congrArg Fin.val (congrFun hf (0 : Fin 2))
      have e1 : ((rowScatterDims N E C wf).start (ix2 e c) idx (1 : Fin 2)
          + ((rowScatterDims N E C wf).window (ix2 e c) (1 : Fin 2) : ℤ)).toNat = c'.val :=
        congrArg Fin.val (congrFun hf (1 : Fin 2))
      have hh := (h (0 : Fin 2)).1
      rw [h0] at e0 hh
      rw [h1] at e1
      exact ⟨by omega, Fin.ext (by omega)⟩
    · rintro ⟨ht, rfl⟩
      funext a
      match a with
      | ⟨0, _⟩ =>
        refine Fin.ext ?_
        show ((rowScatterDims N E C wf).start (ix2 e c) idx (0 : Fin 2)
          + ((rowScatterDims N E C wf).window (ix2 e c) (0 : Fin 2) : ℤ)).toNat = p.val
        rw [h0, ht]; simp
      | ⟨1, _⟩ =>
        refine Fin.ext ?_
        show ((rowScatterDims N E C wf).start (ix2 e c) idx (1 : Fin 2)
          + ((rowScatterDims N E C wf).window (ix2 e c) (1 : Fin 2) : ℤ)).toNat = c.val
        rw [h1]; simp
  · rename_i h
    constructor
    · intro hf; cases hf
    · rintro ⟨ht, rfl⟩
      exfalso; apply h; intro a
      match a with
      | ⟨0, _⟩ =>
        show 0 ≤ (rowScatterDims N E C wf).start (ix2 e c) idx (0 : Fin 2)
            + ((rowScatterDims N E C wf).window (ix2 e c) (0 : Fin 2) : ℤ)
          ∧ (rowScatterDims N E C wf).start (ix2 e c) idx (0 : Fin 2)
            + ((rowScatterDims N E C wf).window (ix2 e c) (0 : Fin 2) : ℤ) < ((N : ℕ) : ℤ)
        rw [h0, ht]
        have := p.isLt
        omega
      | ⟨1, _⟩ =>
        show 0 ≤ (rowScatterDims N E C wf).start (ix2 e c) idx (1 : Fin 2)
            + ((rowScatterDims N E C wf).window (ix2 e c) (1 : Fin 2) : ℤ)
          ∧ (rowScatterDims N E C wf).start (ix2 e c) idx (1 : Fin 2)
            + ((rowScatterDims N E C wf).window (ix2 e c) (1 : Fin 2) : ℤ) < ((C : ℕ) : ℤ)
        rw [h1]
        have := c.isLt
        omega

end Scatter

/-- A SCATTER-ADD OF ROWS READ AT `(p, c)`, on the extended reals: the operand's element plus the sum over the edges that
    end in `p` of the update at `(e, c)`. The sum over all update elements that land at `(p, c)` is split by
    coordinates; in row `e` only column `c` can land there, and it does exactly when `e` ends in `p`. -/
theorem scatterAdd_rows_apply {N E C w : Nat} (wf : ScatterDims.WF ⟨2, ![N, C]⟩ ⟨2, ![E, 1]⟩ ⟨2, ![E, C]⟩ [1] [0] [0] 1)
    (idx : IVec ⟨2, ![E, 1]⟩ w) {φ : FTy} (x : FVec Ideal ⟨2, ![N, C]⟩ φ) (upd : FVec Ideal ⟨2, ![E, C]⟩ φ)
    (p : Fin N) (c : Fin C) :
    Host.scatterAdd (F := Ideal) (rowScatterDims N E C wf) x idx upd (ix2 p c)
      = x (ix2 p c) + ∑ e ∈ edgesInto idx p, upd (ix2 e c) := by
  show x (ix2 p c) + ∑ j ∈ Finset.univ.filter (fun j => (rowScatterDims N E C wf).resultIdx? j idx = some (ix2 p c)), upd j = _
  congr 1
  unfold edgesInto
  rw [Finset.sum_filter, Finset.sum_filter, sum_idx2]
  refine Finset.sum_congr rfl fun e _ => ?_
  simp only [resultIdx?_rows_eq_some_iff]
  by_cases ht : (idx (ix2 e 0)).toInt = (p.val : ℤ)
  · simp only [ht, true_and, if_true]
    exact Finset.sum_ite_eq' Finset.univ c (fun b => upd (ix2 e b)) |>.trans (by simp)
  · simp [ht]

/-! ## A matrix product -/

/-- The dimension numbers of the product of an `[N, K]` by a `[K, M]` matrix: the left operand's axis 1 contracted with
    the right operand's axis 0, no batch axes. -/
abbrev rowDotDims (N K M : Nat)
    (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ where
  lhsContracting := [1]
  rhsContracting := [0]
  lhsNonContracting := [0]
  rhsNonContracting := [1]
  lhsBatch := []
  rhsBatch := []
  wf := wf

section Dot
variable {N K M : Nat} (wf : DotDims.WF ⟨2, ![N, K]⟩ ⟨2, ![K, M]⟩ ⟨2, ![N, M]⟩ [1] [0] [0] [1] [] [])

/-- The left operand is read in the result's row. -/
theorem dot_lhs_row (i : (⟨2, ![N, M]⟩ : Shape).Idx) (q : (rowDotDims N K M wf).contr.Idx) :
    ((rowDotDims N K M wf).lhsIdx i q (0 : Fin 2)).val = (i 0).val := by
  unfold DotDims.lhsIdx
  rw [dif_neg (show (0 : Fin 2) ∉ (rowDotDims N K M wf).lhsBatch from List.not_mem_nil),
    dif_pos (show (0 : Fin 2) ∈ (rowDotDims N K M wf).lhsNonContracting from List.mem_singleton.mpr rfl)]
  rfl

/-- The left operand is read in the column the contraction position names. -/
theorem dot_lhs_col (i : (⟨2, ![N, M]⟩ : Shape).Idx) (q : (rowDotDims N K M wf).contr.Idx) :
    ((rowDotDims N K M wf).lhsIdx i q (1 : Fin 2)).val = (q ⟨0, Nat.one_pos⟩).val :=
  (rowDotDims N K M wf).lhsIdx_val_of_single rfl i q

/-- The right operand is read in the row the contraction position names. -/
theorem dot_rhs_row (i : (⟨2, ![N, M]⟩ : Shape).Idx) (q : (rowDotDims N K M wf).contr.Idx) :
    ((rowDotDims N K M wf).rhsIdx i q (0 : Fin 2)).val = (q ⟨0, Nat.one_pos⟩).val :=
  (rowDotDims N K M wf).rhsIdx_val_of_single rfl i q

/-- The right operand is read in the result's column. -/
theorem dot_rhs_col (i : (⟨2, ![N, M]⟩ : Shape).Idx) (q : (rowDotDims N K M wf).contr.Idx) :
    ((rowDotDims N K M wf).rhsIdx i q (1 : Fin 2)).val = (i 1).val := by
  unfold DotDims.rhsIdx
  rw [dif_neg (show (1 : Fin 2) ∉ (rowDotDims N K M wf).rhsBatch from List.not_mem_nil),
    dif_pos (show (1 : Fin 2) ∈ (rowDotDims N K M wf).rhsNonContracting from List.mem_singleton.mpr rfl)]
  rfl

/-- A MATRIX PRODUCT READ AT `(p, j)`, on the extended reals: the sum over `k` of left `(p, k)` times right `(k, j)`. -/
theorem dotGeneral_rows_apply {φ₁ φ₂ : FTy} (prec : Option ContractPrecision)
    (l : FVec Ideal ⟨2, ![N, K]⟩ φ₁) (r : FVec Ideal ⟨2, ![K, M]⟩ φ₂) (p : Fin N) (j : Fin M) :
    Host.dotGeneral (rowDotDims N K M wf) prec l r (ix2 p j) = ∑ k : Fin K, l (ix2 p k) * r (ix2 k j) := by
  simp only [Host.dotGeneral]
  rw [Ideal.dotGeneral_apply, ← Equiv.sum_comp (contrEquiv1 (rowDotDims N K M wf) K rfl rfl).symm]
  refine Finset.sum_congr rfl fun k _ => ?_
  have hk := contrEquiv1_symm_val (rowDotDims N K M wf) K rfl rfl k
  have el : (rowDotDims N K M wf).lhsIdx (ix2 p j) ((contrEquiv1 (rowDotDims N K M wf) K rfl rfl).symm k) = ix2 p k :=
    funext fun a => Fin.ext (by
      match a with
      | ⟨0, _⟩ => exact dot_lhs_row wf _ _
      | ⟨1, _⟩ => exact (dot_lhs_col wf _ _).trans hk)
  have er : (rowDotDims N K M wf).rhsIdx (ix2 p j) ((contrEquiv1 (rowDotDims N K M wf) K rfl rfl).symm k) = ix2 k j :=
    funext fun a => Fin.ext (by
      match a with
      | ⟨0, _⟩ => exact (dot_rhs_row wf _ _).trans hk
      | ⟨1, _⟩ => exact dot_rhs_col wf _ _)
  rw [el, er]

end Dot

/-! ## Broadcasts -/

section Broadcast
variable {α : Type}

/-- A scalar broadcast to any shape reads the scalar everywhere. -/
theorem bcast_scalar_apply {t : Shape} (h : (⟨0, ![]⟩ : Shape).BroadcastsInDim t (![] : Fin 0 → Fin t.rank))
    (y : (⟨0, ![]⟩ : Shape).Idx → α) (i : t.Idx) : broadcastInDim t ![] h y i = y ix0 :=
  broadcastInDim_apply _ h y i ix0 (fun a => a.elim0)

/-- A vector `[E]` (more than one element, or none) broadcast to a column `[E, 1]` reads element `e` in row `e`. -/
theorem bcast_col_apply {E : Nat} (hE : E ≠ 1)
    (h : (⟨1, ![E]⟩ : Shape).BroadcastsInDim ⟨2, ![E, 1]⟩ (![0] : Fin 1 → Fin 2))
    (y : (⟨1, ![E]⟩ : Shape).Idx → α) (e : Fin E) (z : Fin 1) :
    broadcastInDim ⟨2, ![E, 1]⟩ ![0] h y (ix2 e z) = y (ix1 e) :=
  broadcastInDim_apply _ h y (ix2 e z) (ix1 e) (fun a => match a with
    | ⟨0, _⟩ => by show e.val = if E = 1 then 0 else e.val; rw [if_neg hE])

/-- A column `[E, 1]` broadcast along its unit axis to `[E, C]` reads the column's element of row `e` everywhere in row
    `e`. -/
theorem bcast_row_apply {E C : Nat} (hE : E ≠ 1)
    (h : (⟨2, ![E, 1]⟩ : Shape).BroadcastsInDim ⟨2, ![E, C]⟩ (![0, 1] : Fin 2 → Fin 2))
    (y : (⟨2, ![E, 1]⟩ : Shape).Idx → α) (e : Fin E) (c : Fin C) :
    broadcastInDim ⟨2, ![E, C]⟩ ![0, 1] h y (ix2 e c) = y (ix2 e 0) :=
  broadcastInDim_apply _ h y (ix2 e c) (ix2 e 0) (fun a => match a with
    | ⟨0, _⟩ => by show e.val = if E = 1 then 0 else e.val; rw [if_neg hE]
    | ⟨1, _⟩ => by show 0 = if (1 : Nat) = 1 then 0 else c.val; rw [if_pos rfl])

end Broadcast

end Cert.LibRowGatherScatter

end
-- ==== Proof.LibVecScatter.lean ====
/-
  A vector scattered into a vector and added, read at one element.

  Counting how many edges end in each node is a scatter with an `add` body and no window: one number per edge (an
  array `[E]`) is added into the entry of an array `[N]` that the edge's index word names. This file reads that
  operation, at the dimension numbers it has, at one element `p`:

    • the scattered-and-added element `p` is the operand's plus the sum, over the edges `e` whose index word read as a
      signed integer is `p`, of the update at `e`; an index word outside `[0, N − 1]` names no entry and its number
      is dropped.

  The edge set is the one a scatter of whole rows `[E, C]` into `[N, C]` with the same index array uses, whatever the
  row width `C`: an update is placed by its index word alone, and with no window axis there is no second coordinate to
  match. So a count taken with rank-1 arrays and a count taken in every column of rank-2 arrays are the same number.

  Everything is stated for arbitrary extents `N`, `E` and index width `w`; the dimension-number record is written out
  with its well-formedness condition as a parameter, so a record with the same lists over literal shapes is one of
  these by unfolding.
-/
import Idealize.ShloMosaic.Lib.ValueIdx
import Idealize.ShloMosaic.PureOps.Ideal.Laws
import Idealize.ShloMosaic.Lib.Pipeline.Value
import proofs.«162943_j20607253086819_2_alg».proof.Proof.LibRowGatherScatter

noncomputable section

open scoped BigOperators

namespace Cert.LibVecScatter

open Idealize.ShloMosaic Idealize.ShloMosaic.ValueIdx
open Cert.LibRowGatherScatter (edgesInto)

/-! ## Sums over a one-axis index set -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Scattering a vector and adding it -/

/-- The dimension numbers of a scatter of single numbers: operand `[N]`, one scatter index per edge (`[E, 1]`, the
    index vector on axis 1), updates `[E]`; the scatter index names the operand's only axis, which is an inserted
    window axis, and the updates have no window axis at all. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Scatter
variable {N E w : Nat} (wf : ScatterDims.WF ⟨1, ![N]⟩ ⟨2, ![E, 1]⟩ ⟨1, ![E]⟩ [] [0] [0] 1)
  (idx : IVec ⟨2, ![E, 1]⟩ w) (e : Fin E)

/-- On the operand's one axis the window of update `e` starts at edge `e`'s index word, read signed, not clamped. -/
theorem scatter_start :
    (vecScatterDims N E wf).start (ix1 e) idx (0 : Fin 1) = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is an inserted window axis: the window coordinate there is `0`. -/
theorem scatter_window :
    (vecScatterDims N E wf).window (ix1 e) (0 : Fin 1) = 0 := by
  unfold ScatterDims.window
  rw [dif_neg (by simp [ScatterDims.sKept, Shape.kept])]

/-- Start plus window coordinate on the operand's one axis: edge `e`'s index word, read signed. -/
theorem scatter_sum :
    (vecScatterDims N E wf).start (ix1 e) idx (0 : Fin 1) + ((vecScatterDims N E wf).window (ix1 e) (0 : Fin 1) : ℤ)
      = (idx (ix2 e 0)).toInt := by
  rw [scatter_start, scatter_window]; simp

/-- WHERE AN UPDATE LANDS: update `e` lands at operand element `p` exactly when edge `e`'s index word, read signed,
    is `p`. (An index word that is negative or at least `N` lands nowhere.) -/
theorem resultIdx?_vec_eq_some_iff (p : Fin N) :
    (vecScatterDims N E wf).resultIdx? (ix1 e) idx = some (ix1 p) ↔ (idx (ix2 e 0)).toInt = (p.val : ℤ) := by
  have h0 := scatter_sum wf idx e
  unfold ScatterDims.resultIdx?
  split
  · rename_i h
    rw [Option.some.injEq]
    constructor
    · intro hf
      have e0 : ((vecScatterDims N E wf).start (ix1 e) idx (0 : Fin 1)
          + ((vecScatterDims N E wf).window (ix1 e) (0 : Fin 1) : ℤ)).toNat = p.val :=
        congrArg Fin.val (congrFun hf (0 : Fin 1))
      have hh := (h (0 : Fin 1)).1
      rw [h0] at e0 hh
      omega
    · intro ht
      funext a
      match a with
      | ⟨0, _⟩ =>
        refine Fin.ext ?_
        show ((vecScatterDims N E wf).start (ix1 e) idx (0 : Fin 1)
          + ((vecScatterDims N E wf).window (ix1 e) (0 : Fin 1) : ℤ)).toNat = p.val
        rw [h0, ht]; simp
  · rename_i h
    constructor
    · intro hf; cases hf
    · intro ht
      exfalso; apply h; intro a
      match a with
      | ⟨0, _⟩ =>
        show 0 ≤ (vecScatterDims N E wf).start (ix1 e) idx (0 : Fin 1)
            + ((vecScatterDims N E wf).window (ix1 e) (0 : Fin 1) : ℤ)
          ∧ (vecScatterDims N E wf).start (ix1 e) idx (0 : Fin 1)
            + ((vecScatterDims N E wf).window (ix1 e) (0 : Fin 1) : ℤ) < ((N : ℕ) : ℤ)
        rw [h0, ht]
        have := p.isLt
        omega

end Scatter

/-- A SCATTER-ADD OF A VECTOR READ AT `p`, on the extended reals: the operand's element plus the sum over the edges that
    end in `p` of the update at `e`. Update `e` lands at `p` exactly when `e` ends in `p`; the edge set is the one a
    scatter of rows with the same index array uses. -/
theorem scatterAdd_vec_apply {N E w : Nat} (wf : ScatterDims.WF ⟨1, ![N]⟩ ⟨2, ![E, 1]⟩ ⟨1, ![E]⟩ [] [0] [0] 1)
    (idx : IVec ⟨2, ![E, 1]⟩ w) {φ : FTy} (x : FVec Ideal ⟨1, ![N]⟩ φ) (upd : FVec Ideal ⟨1, ![E]⟩ φ) (p : Fin N) :
    Host.scatterAdd (F := Ideal) (vecScatterDims N E wf) x idx upd (ix1 p)
      = x (ix1 p) + ∑ e ∈ edgesInto idx p, upd (ix1 e) := by
  show x (ix1 p) + ∑ j ∈ Finset.univ.filter (fun j => (vecScatterDims N E wf).resultIdx? j idx = some (ix1 p)), upd j = _
  congr 1
  unfold edgesInto
  rw [Finset.sum_filter, Finset.sum_filter, sum_idx1]
  refine Finset.sum_congr rfl fun e _ => ?_
  simp only [resultIdx?_vec_eq_some_iff]

end Cert.LibVecScatter

end
-- ==== Proof.Count.lean ====
/-
  The two edge counts are one number.

  The aggregated coordinate update of node `p` is divided by the number of edges that end in `p`, clipped below at one.
  One program counts with single numbers: it adds a one per edge into an array `[N]` of zeros at the entry the edge's
  index word names, takes the larger of one and that count, and spreads the result over the three coordinate columns
  (`[N] → [N, 1] → [N, 3]`). The other counts in every column: it adds a row of three ones per edge into an array
  `[N, 3]` of zeros at the row the edge's index word names, and takes the larger of one and that count entry by entry.

  Both use the same index array, and an update is placed by its index word alone: the edges that land in entry `p` of
  the vector are the edges that land in row `p` of the three-column array, namely those whose index word, read as a
  signed integer, is `p`. So at every `(p, c)` both denominators are the larger of one and zero plus a one for each
  such edge, with the same literals for zero and one on both sides; no literal needs evaluating and nothing needs to
  be finite.
-/
import proofs.«162943_j20607253086819_2_alg».proof.KernelIdeal
import proofs.«162943_j20607253086819_2_alg».proof.ReferenceIdeal
import proofs.«162943_j20607253086819_2_alg».proof.Proof.LibRowGatherScatter
import proofs.«162943_j20607253086819_2_alg».proof.Proof.LibVecScatter

noncomputable section

open scoped BigOperators

namespace Cert.Count

open Idealize.ShloMosaic Idealize.ShloMosaic.ValueIdx
open Cert.LibRowGatherScatter Cert.LibVecScatter

variable [Cert.KernelIdeal.Facts₀] [Cert.ReferenceIdeal.Facts₀]

/-! ## The two printed scatter records -/

/-- The kernel's count record is the scatter of single numbers `vecScatterDims` at `N = 10000`, `E = 320000`. -/
theorem kernel_count_record :
    Cert.KernelIdeal.scatter_S10000_S320000x1_S320000_n_0_0_1
      = vecScatterDims 10000 320000 Cert.KernelIdeal.Facts₀.scatter_S10000_S320000x1_S320000_n_0_0_1_wf := rfl

/-- The reference's count record is the scatter of rows `rowScatterDims` at `N = 10000`, `E = 320000`, `C = 3`. -/
theorem reference_count_record :
    Cert.ReferenceIdeal.scatter_S10000x3_S320000x1_S320000x3_1_0_0_1
      = rowScatterDims 10000 320000 3 Cert.ReferenceIdeal.Facts₀.scatter_S10000x3_S320000x1_S320000x3_1_0_0_1_wf := rfl

/-! ## The steps over arbitrary arrays -/

/-- Two arrays `[N]` compared entry by entry and the larger spread `[N] → [N, 1] → [N, 3]`: at `(p, c)` the larger of
    the two entries at `p`. -/
theorem clip_spread_apply (O C : FVec Ideal Cert.KernelIdeal.S10000 .f32) (p : Fin 10000) (c : Fin 3) :
    broadcastInDim Cert.KernelIdeal.S10000x3 ![0, 1] Cert.KernelIdeal.Facts₀.bcast_S10000x1_S10000x3_0_1
      (broadcastInDim Cert.KernelIdeal.S10000x1 ![0] Cert.KernelIdeal.Facts₀.bcast_S10000_S10000x1_0 (maximumf O C)) (ix2 p c)
      = FloatOps.maximumf (O (ix1 p)) (C (ix1 p)) := by
  rw [bcast_row_apply (by omega), bcast_col_apply (by omega)]
  rfl

/-- A scalar `o` per edge added into an array `[N]` filled with a scalar `z`: at `p`, `z` plus an `o` for every edge
    that ends in `p`. -/
theorem count_vec_apply (z o : FVec Ideal Cert.KernelIdeal.S_ .f32)
    (idx : (⟨Cert.KernelIdeal.S320000x1, .i32⟩ : BufTy).Contents (Elt Ideal)) (p : Fin 10000) :
    Host.scatterAdd (F := Ideal) Cert.KernelIdeal.scatter_S10000_S320000x1_S320000_n_0_0_1
        (broadcastInDim Cert.KernelIdeal.S10000 ![] Cert.KernelIdeal.Facts₀.bcast_S_S10000 z) idx
        (broadcastInDim Cert.KernelIdeal.S320000 ![] Cert.KernelIdeal.Facts₀.bcast_S_S320000 o) (ix1 p)
      = z ix0 + ∑ _e ∈ edgesInto idx p, o ix0 := by
  rw [kernel_count_record, scatterAdd_vec_apply, bcast_scalar_apply]
  exact congrArg₂ (· + ·) rfl (Finset.sum_congr rfl fun e _ => bcast_scalar_apply _ _ _)

/-- A row of three `o` per edge added into an array `[N, 3]` filled with a scalar `z`: at `(p, c)`, `z` plus an `o` for
    every edge that ends in `p`. -/
theorem count_rows_apply (z o : FVec Ideal Cert.ReferenceIdeal.S_ .f32)
    (idx : (⟨Cert.ReferenceIdeal.S320000x1, .i32⟩ : BufTy).Contents (Elt Ideal)) (p : Fin 10000) (c : Fin 3) :
    Host.scatterAdd (F := Ideal) Cert.ReferenceIdeal.scatter_S10000x3_S320000x1_S320000x3_1_0_0_1
        (broadcastInDim Cert.ReferenceIdeal.S10000x3 ![] Cert.ReferenceIdeal.Facts₀.bcast_S_S10000x3 z) idx
        (broadcastInDim Cert.ReferenceIdeal.S320000x3 ![] Cert.ReferenceIdeal.Facts₀.bcast_S_S320000x3 o) (ix2 p c)
      = z ix0 + ∑ _e ∈ edgesInto idx p, o ix0 := by
  rw [reference_count_record, scatterAdd_rows_apply, bcast_scalar_apply]
  exact congrArg₂ (· + ·) rfl (Finset.sum_congr rfl fun e _ => bcast_scalar_apply _ _ _)

/-! ## Each denominator at one element -/

/-- THE KERNEL'S DENOMINATOR AT `(p, c)`: the larger of one and the number of edges that end in `p`, the number being
    zero plus a one for every such edge. The two broadcasts `[N] → [N, 1] → [N, 3]` read the count of row `p` in every
    column. -/
theorem kernel_denominator_apply (idx : (⟨Cert.KernelIdeal.S320000x1, .i32⟩ : BufTy).Contents (Elt Ideal))
    (p : Fin 10000) (c : Fin 3) :
    broadcastInDim Cert.KernelIdeal.S10000x3 ![0, 1] Cert.KernelIdeal.Facts₀.bcast_S10000x1_S10000x3_0_1
      (broadcastInDim Cert.KernelIdeal.S10000x1 ![0] Cert.KernelIdeal.Facts₀.bcast_S10000_S10000x1_0
        (maximumf
          (broadcastInDim Cert.KernelIdeal.S10000 ![] Cert.KernelIdeal.Facts₀.bcast_S_S10000
            (id (constant (F := Ideal) Cert.KernelIdeal.S_ .f32 0x3F800000#32)))
          (Host.scatterAdd (F := Ideal) Cert.KernelIdeal.scatter_S10000_S320000x1_S320000_n_0_0_1
            (broadcastInDim Cert.KernelIdeal.S10000 ![] Cert.KernelIdeal.Facts₀.bcast_S_S10000
              (constant (F := Ideal) Cert.KernelIdeal.S_ .f32 0x00000000#32))
            idx
            (broadcastInDim Cert.KernelIdeal.S320000 ![] Cert.KernelIdeal.Facts₀.bcast_S_S320000
              (constant (F := Ideal) Cert.KernelIdeal.S_ .f32 0x3F800000#32)))))
      (ix2 p c)
    = FloatOps.maximumf (F := Ideal) (FloatOps.ofBits .f32 0x3F800000#32)
        (FloatOps.ofBits .f32 0x00000000#32 + ∑ e ∈ edgesInto idx p, FloatOps.ofBits (F := Ideal) .f32 0x3F800000#32) := by
  refine (clip_spread_apply _ _ p c).trans ?_
  exact congrArg₂ (FloatOps.maximumf (F := Ideal)) (bcast_scalar_apply _ _ _) (count_vec_apply _ _ idx p)

/-- THE REFERENCE'S DENOMINATOR AT `(p, c)`: the larger of one and the number of edges that end in `p`, counted in column
    `c` of a scatter of rows of ones: zero plus a one for every such edge. -/
theorem reference_denominator_apply (idx : (⟨Cert.ReferenceIdeal.S320000x1, .i32⟩ : BufTy).Contents (Elt Ideal))
    (p : Fin 10000) (c : Fin 3) :
    maximumf
      (broadcastInDim Cert.ReferenceIdeal.S10000x3 ![] Cert.ReferenceIdeal.Facts₀.bcast_S_S10000x3
        (id (constant (F := Ideal) Cert.ReferenceIdeal.S_ .f32 0x3F800000#32)))
      (Host.scatterAdd (F := Ideal) Cert.ReferenceIdeal.scatter_S10000x3_S320000x1_S320000x3_1_0_0_1
        (broadcastInDim Cert.ReferenceIdeal.S10000x3 ![] Cert.ReferenceIdeal.Facts₀.bcast_S_S10000x3
          (constant (F := Ideal) Cert.ReferenceIdeal.S_ .f32 0x00000000#32))
        idx
        (broadcastInDim Cert.ReferenceIdeal.S320000x3 ![] Cert.ReferenceIdeal.Facts₀.bcast_S_S320000x3
          (constant (F := Ideal) Cert.ReferenceIdeal.S_ .f32 0x3F800000#32)))
      (ix2 p c)
    = FloatOps.maximumf (F := Ideal) (FloatOps.ofBits .f32 0x3F800000#32)
        (FloatOps.ofBits .f32 0x00000000#32 + ∑ e ∈ edgesInto idx p, FloatOps.ofBits (F := Ideal) .f32 0x3F800000#32) := by
  exact congrArg₂ (FloatOps.maximumf (F := Ideal)) (bcast_scalar_apply _ _ _) (count_rows_apply _ _ idx p c)

/-! ## The two denominators are one array -/

/-- THE TWO EDGE COUNTS ARE ONE NUMBER: for any index array, the kernel's denominator (a count of single numbers,
    clipped below at one, then spread over the three columns) and the reference's (a count taken in each of the three
    columns, clipped below at one) are the same array. At `(p, c)` both are the larger of one and the number of edges
    whose index word, read signed, is `p`; that edge set does not depend on the column. -/
theorem denominators_eq (idx : (⟨Cert.KernelIdeal.S320000x1, .i32⟩ : BufTy).Contents (Elt Ideal)) :
    broadcastInDim Cert.KernelIdeal.S10000x3 ![0, 1] Cert.KernelIdeal.Facts₀.bcast_S10000x1_S10000x3_0_1
      (broadcastInDim Cert.KernelIdeal.S10000x1 ![0] Cert.KernelIdeal.Facts₀.bcast_S10000_S10000x1_0
        (maximumf
          (broadcastInDim Cert.KernelIdeal.S10000 ![] Cert.KernelIdeal.Facts₀.bcast_S_S10000
            (id (constant (F := Ideal) Cert.KernelIdeal.S_ .f32 0x3F800000#32)))
          (Host.scatterAdd (F := Ideal) Cert.KernelIdeal.scatter_S10000_S320000x1_S320000_n_0_0_1
            (broadcastInDim Cert.KernelIdeal.S10000 ![] Cert.KernelIdeal.Facts₀.bcast_S_S10000
              (constant (F := Ideal) Cert.KernelIdeal.S_ .f32 0x00000000#32))
            idx
            (broadcastInDim Cert.KernelIdeal.S320000 ![] Cert.KernelIdeal.Facts₀.bcast_S_S320000
              (constant (F := Ideal) Cert.KernelIdeal.S_ .f32 0x3F800000#32)))))
    = maximumf
      (broadcastInDim Cert.ReferenceIdeal.S10000x3 ![] Cert.ReferenceIdeal.Facts₀.bcast_S_S10000x3
        (id (constant (F := Ideal) Cert.ReferenceIdeal.S_ .f32 0x3F800000#32)))
      (Host.scatterAdd (F := Ideal) Cert.ReferenceIdeal.scatter_S10000x3_S320000x1_S320000x3_1_0_0_1
        (broadcastInDim Cert.ReferenceIdeal.S10000x3 ![] Cert.ReferenceIdeal.Facts₀.bcast_S_S10000x3
          (constant (F := Ideal) Cert.ReferenceIdeal.S_ .f32 0x00000000#32))
        idx
        (broadcastInDim Cert.ReferenceIdeal.S320000x3 ![] Cert.ReferenceIdeal.Facts₀.bcast_S_S320000x3
          (constant (F := Ideal) Cert.ReferenceIdeal.S_ .f32 0x3F800000#32))) := by
  funext j
  obtain ⟨p, c, rfl⟩ : ∃ (p : Fin 10000) (c : Fin 3), j = ix2 p c := ⟨j 0, j 1, eq_ix2 j⟩
  exact (kernel_denominator_apply idx p c).trans (reference_denominator_apply idx p c).symm

end Cert.Count

end
-- ==== Proof.Middle.lean ====
/-
  Between and around the two kernel regions: the host operations of the kernel program, read back to the arguments.

  Before the first region the program gathers, for every edge, the feature rows and the coordinates of its two end
  nodes, and forms the coordinate difference and the squared distance; these are the very operations the reference
  applies to the same arguments, so the arrays the first region finds are the reference's own intermediate arrays
  (a change of float format being the identity). After the first region the program multiplies the coordinate
  differences by the region's coordinate weights, adds the products up per node (a scatter with an add body over
  the edges' source nodes), divides by the number of edges of the node, at least one, and adds the result to the
  coordinates; and it adds the region's edge features up per node for the second region. With the first region's
  two arrays equal to the reference's edge features and coordinate weights, every one of these is again the
  reference's operation on equal operands, except the divisor: the program counts the edges of a node once and
  repeats the count over the three coordinates, the reference counts in each of the three columns — the same
  number (`Count.denominators_eq`). The second region then finds the node features, the aggregated edge features
  and the node weights, and its output array is the reference's result.
-/
import proofs.«162943_j20607253086819_2_alg».proof.Proof.Gen.KernelIdeal.Frame
import proofs.«162943_j20607253086819_2_alg».proof.Proof.Gen.ReferenceIdeal.Read
import proofs.«162943_j20607253086819_2_alg».proof.Proof.Layer
import proofs.«162943_j20607253086819_2_alg».proof.Proof.Region0
import proofs.«162943_j20607253086819_2_alg».proof.Proof.Region1
import proofs.«162943_j20607253086819_2_alg».proof.Proof.GlueWeights
import proofs.«162943_j20607253086819_2_alg».proof.Proof.RefSide
import proofs.«162943_j20607253086819_2_alg».proof.Proof.Count
import Idealize.ShloMosaic.Lib.StableHlo.Run

set_option maxRecDepth 16384

noncomputable section

namespace Cert.Middle

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read (val_main_v1 val_main_v18 val_main_v21 val_main_v28 val_main_v35 val_main_v46 val_main_v55 val_main_v67 val_main_v70 val_main_v80)

variable (m : (ℓ : Loc nD τ sig) → Buf (Elt Ideal) ℓ) (ρ : Dev nD → PrngReg) (c : Dev nD)

/-- Argument 0 of @main as core `c` holds it at launch. -/
abbrev a0 : (⟨S10000x256, .f32⟩ : BufTy).Contents (Elt Ideal) := m ((c : Thread nD τ).loc main_arg0)
/-- Argument 1 of @main as core `c` holds it at launch. -/
abbrev a1 : (⟨S10000x3, .f32⟩ : BufTy).Contents (Elt Ideal) := m ((c : Thread nD τ).loc main_arg1)
/-- Argument 2 of @main as core `c` holds it at launch. -/
abbrev a2 : (⟨S2x320000, .i32⟩ : BufTy).Contents (Elt Ideal) := m ((c : Thread nD τ).loc main_arg2)
/-- Argument 3 of @main as core `c` holds it at launch. -/
abbrev a3 : (⟨S513x256, .f32⟩ : BufTy).Contents (Elt Ideal) := m ((c : Thread nD τ).loc main_arg3)
/-- Argument 4 of @main as core `c` holds it at launch. -/
abbrev a4 : (⟨S256, .f32⟩ : BufTy).Contents (Elt Ideal) := m ((c : Thread nD τ).loc main_arg4)
/-- Argument 5 of @main as core `c` holds it at launch. -/
abbrev a5 : (⟨S256x256, .f32⟩ : BufTy).Contents (Elt Ideal) := m ((c : Thread nD τ).loc main_arg5)
/-- Argument 6 of @main as core `c` holds it at launch. -/
abbrev a6 : (⟨S256, .f32⟩ : BufTy).Contents (Elt Ideal) := m ((c : Thread nD τ).loc main_arg6)
/-- Argument 7 of @main as core `c` holds it at launch. -/
abbrev a7 : (⟨S512x256, .f32⟩ : BufTy).Contents (Elt Ideal) := m ((c : Thread nD τ).loc main_arg7)
/-- Argument 8 of @main as core `c` holds it at launch. -/
abbrev a8 : (⟨S256, .f32⟩ : BufTy).Contents (Elt Ideal) := m ((c : Thread nD τ).loc main_arg8)
/-- Argument 9 of @main as core `c` holds it at launch. -/
abbrev a9 : (⟨S256x256, .f32⟩ : BufTy).Contents (Elt Ideal) := m ((c : Thread nD τ).loc main_arg9)
/-- Argument 10 of @main as core `c` holds it at launch. -/
abbrev a10 : (⟨S256, .f32⟩ : BufTy).Contents (Elt Ideal) := m ((c : Thread nD τ).loc main_arg10)
/-- Argument 11 of @main as core `c` holds it at launch. -/
abbrev a11 : (⟨S256x256, .f32⟩ : BufTy).Contents (Elt Ideal) := m ((c : Thread nD τ).loc main_arg11)
/-- Argument 12 of @main as core `c` holds it at launch. -/
abbrev a12 : (⟨S256, .f32⟩ : BufTy).Contents (Elt Ideal) := m ((c : Thread nD τ).loc main_arg12)
/-- Argument 13 of @main as core `c` holds it at launch. -/
abbrev a13 : (⟨S256x1, .f32⟩ : BufTy).Contents (Elt Ideal) := m ((c : Thread nD τ).loc main_arg13)
/-- Argument 14 of @main as core `c` holds it at launch. -/
abbrev a14 : (⟨S1, .f32⟩ : BufTy).Contents (Elt Ideal) := m ((c : Thread nD τ).loc main_arg14)

/-! ## What the first region finds -/

/-- The source rows of the edges, as the first region finds them: the reference's gathered rows. -/
theorem v1_hr : (V1 m ρ c main_v11 : (⟨S320000x256, .bf16⟩ : BufTy).Contents (Elt Ideal))
    = val_main_v28 (F := Ideal) (a0 m c) (a2 m c) := by
  show StableHlo.after hostOps0 (W0 m ρ c) (Proc.devRef .tc main_v11) = _
  dsimp only [hostOps0]
  after_results_simp
  try rfl

/-- The target rows of the edges, likewise. -/
theorem v1_hc : (V1 m ρ c main_v18 : (⟨S320000x256, .bf16⟩ : BufTy).Contents (Elt Ideal))
    = val_main_v35 (F := Ideal) (a0 m c) (a2 m c) := by
  show StableHlo.after hostOps0 (W0 m ρ c) (Proc.devRef .tc main_v18) = _
  dsimp only [hostOps0]
  after_results_simp
  try rfl

/-- The squared distances of the edges, as a column. -/
theorem v1_rad : (V1 m ρ c main_v36 : (⟨S320000x1, .f32⟩ : BufTy).Contents (Elt Ideal))
    = val_main_v21 (F := Ideal) (a1 m c) (a2 m c) := by
  show StableHlo.after hostOps0 (W0 m ρ c) (Proc.devRef .tc main_v36) = _
  dsimp only [hostOps0]
  after_results_simp
  try rfl

/-- The first region's entry contents against the specification's arrays, at the arguments. -/
theorem entry0 : Cert.Region0.Entry (V1 m ρ) c
    (val_main_v28 (F := Ideal) (a0 m c) (a2 m c)) (val_main_v35 (F := Ideal) (a0 m c) (a2 m c))
    (val_main_v21 (F := Ideal) (a1 m c) (a2 m c)) (a3 m c) (a4 m c) (a5 m c) (a6 m c) (a11 m c) (a12 m c) (a13 m c) (a14 m c) where
  hHR := fun e k => congrFun (v1_hr m ρ c) (ix2 e k)
  hHC := fun e k => congrFun (v1_hc m ρ c) (ix2 e k)
  hRAD := fun e => congrFun (v1_rad m ρ c) (ix2 e 0)
  hA := Cert.Glue.wA m ρ c
  hB := Cert.Glue.wB m ρ c
  hC := Cert.Glue.wC m ρ c
  hb1 := Cert.Glue.wb1 m ρ c
  hW2 := Cert.Glue.wW2 m ρ c
  hb2 := Cert.Glue.wb2 m ρ c
  hW3 := Cert.Glue.wW3 m ρ c
  hb3 := Cert.Glue.wb3 m ρ c
  hw := Cert.Glue.ww m ρ c
  hb4 := Cert.Glue.wb4 m ρ c

/-! ## What the first region leaves -/

/-- THE EDGE FEATURES after the first region are the reference's. -/
theorem w2_feat : (W2 m ρ c (Proc.devRef .tc main_v49_0) : (⟨S320000x256, .bf16⟩ : BufTy).Contents (Elt Ideal))
    = val_main_v46 (F := Ideal) (a0 m c) (a1 m c) (a2 m c) (a3 m c) (a4 m c) (a5 m c) (a6 m c) :=
  (W2_arr m ρ c 13).trans ((Cert.Region0.edge_array (V1 m ρ) c (entry0 m ρ c)).trans
    (Cert.RefSide.ref_edge (a0 m c) (a1 m c) (a2 m c) (a3 m c) (a4 m c) (a5 m c) (a6 m c)).symm)

/-- THE COORDINATE WEIGHTS after the first region are the reference's. -/
theorem w2_coord : (W2 m ρ c (Proc.devRef .tc main_v49_1) : (⟨S320000x1, .f32⟩ : BufTy).Contents (Elt Ideal))
    = val_main_v55 (F := Ideal) (a0 m c) (a1 m c) (a2 m c) (a3 m c) (a4 m c) (a5 m c) (a6 m c) (a11 m c) (a12 m c) (a13 m c) (a14 m c) :=
  (W2_arr m ρ c 14).trans ((Cert.Region0.coord_array (V1 m ρ) c (entry0 m ρ c)).trans
    (Cert.RefSide.ref_coord (a0 m c) (a1 m c) (a2 m c) (a3 m c) (a4 m c) (a5 m c) (a6 m c) (a11 m c) (a12 m c) (a13 m c) (a14 m c)).symm)

/-- The edges' source nodes, a vector of index words: untouched by the first region. -/
theorem w2_row : (W2 m ρ c (Proc.devRef .tc main_v1) : (⟨S320000, .i32⟩ : BufTy).Contents (Elt Ideal))
    = val_main_v1 (F := Ideal) (a2 m c) := by
  rw [W2_of_ne m ρ c main_v1 (by decide)]
  show StableHlo.after hostOps0 (W0 m ρ c) (Proc.devRef .tc main_v1) = _
  dsimp only [hostOps0]
  after_results_simp
  try rfl

/-- The coordinate differences of the edges: untouched by the first region. -/
theorem w2_diff : (W2 m ρ c (Proc.devRef .tc main_v33) : (⟨S320000x3, .f32⟩ : BufTy).Contents (Elt Ideal))
    = val_main_v18 (F := Ideal) (a1 m c) (a2 m c) := by
  rw [W2_of_ne m ρ c main_v33 (by decide)]
  show StableHlo.after hostOps0 (W0 m ρ c) (Proc.devRef .tc main_v33) = _
  dsimp only [hostOps0]
  after_results_simp
  try rfl

/-- The coordinates themselves. -/
theorem w2_arg1 : (W2 m ρ c (Proc.devRef .tc main_arg1) : (⟨S10000x3, .f32⟩ : BufTy).Contents (Elt Ideal)) = a1 m c := by
  rw [W2_of_ne m ρ c main_arg1 (by decide)]
  show StableHlo.after hostOps0 (W0 m ρ c) (Proc.devRef .tc main_arg1) = _
  dsimp only [hostOps0]
  after_results_simp
  try rfl

/-! ## What the second region finds, and the two results -/

/-- THE AGGREGATED EDGE FEATURES the second region finds are the reference's: the same sum per node of equal rows. -/
theorem v5_agg : (V5 m ρ c main_v67 : (⟨S10000x256, .f32⟩ : BufTy).Contents (Elt Ideal))
    = val_main_v70 (F := Ideal) (a0 m c) (a1 m c) (a2 m c) (a3 m c) (a4 m c) (a5 m c) (a6 m c) := by
  show StableHlo.after hostOps1_2 (W4 m ρ c) (Proc.devRef .tc main_v67) = _
  dsimp only [hostOps1_2]
  after_results_simp
  rw [w2_row m ρ c, w2_feat m ρ c]
  rfl

/-- THE NEW COORDINATES, at the second region's entry, are the reference's: equal numerators, and divisors that count
    the same edges. -/
theorem w5_coord : (W5 m ρ c (Proc.devRef .tc main_v63) : (⟨S10000x3, .f32⟩ : BufTy).Contents (Elt Ideal))
    = val_main_v67 (F := Ideal) (a0 m c) (a1 m c) (a2 m c) (a3 m c) (a4 m c) (a5 m c) (a6 m c) (a11 m c) (a12 m c) (a13 m c) (a14 m c) := by
  show StableHlo.after hostOps1_2 (W4 m ρ c) (Proc.devRef .tc main_v63) = _
  dsimp only [hostOps1_2]
  after_results_simp
  rw [w2_row m ρ c, w2_diff m ρ c, w2_coord m ρ c, w2_arg1 m ρ c]
  unfold Cert.ReferenceIdeal.Read.val_main_v67 Cert.ReferenceIdeal.Read.val_main_v66
  refine congrArg₂ (fun n d => addf (F := Ideal) (a1 m c) (Host.divf (F := Ideal) n d)) ?_ ?_
  · -- the numerators: the same sum per node of the same products
    unfold Cert.ReferenceIdeal.Read.val_main_v60 Cert.ReferenceIdeal.Read.val_main_v58 Cert.ReferenceIdeal.Read.val_main_cst_7 Cert.ReferenceIdeal.Read.val_main_v59 Cert.ReferenceIdeal.Read.val_main_v57 Cert.ReferenceIdeal.Read.val_main_v56
    rfl
  · -- the divisors: the two counts of the edges of a node
    refine Eq.trans ?_ ((Cert.Count.denominators_eq
      (broadcastInDim S320000x1 ![0] bcast_S320000_S320000x1_0 (val_main_v1 (F := Ideal) (a2 m c)))).trans ?_)
    · rfl
    · unfold Cert.ReferenceIdeal.Read.val_main_v65 Cert.ReferenceIdeal.Read.val_main_call3_v1 Cert.ReferenceIdeal.Read.val_main_call3_v0 Cert.ReferenceIdeal.Read.val_main_cst_10 Cert.ReferenceIdeal.Read.val_main_v64
        Cert.ReferenceIdeal.Read.val_main_v62 Cert.ReferenceIdeal.Read.val_main_cst_9 Cert.ReferenceIdeal.Read.val_main_v63 Cert.ReferenceIdeal.Read.val_main_v61 Cert.ReferenceIdeal.Read.val_main_cst_8
      rfl

/-- The second region's entry contents against the specification's arrays, and its output array. -/
theorem w6_node : (W6 m ρ c (Proc.devRef .tc main_v75) : (⟨S10000x256, .f32⟩ : BufTy).Contents (Elt Ideal))
    = val_main_v80 (F := Ideal) (a0 m c) (a1 m c) (a2 m c) (a3 m c) (a4 m c) (a5 m c) (a6 m c) (a7 m c) (a8 m c) (a9 m c) (a10 m c) :=
  (W6_arr m ρ c 7).trans ((Cert.Region1.node_array (V5 m ρ) c (a0 m c) (val_main_v70 (F := Ideal) (a0 m c) (a1 m c) (a2 m c) (a3 m c) (a4 m c) (a5 m c) (a6 m c))
      (a7 m c) (a8 m c) (a9 m c) (a10 m c)
      (Cert.Glue.nH m ρ c) (fun n k => congrFun (v5_agg m ρ c) (ix2 n k))
      (Cert.Glue.nW1a m ρ c) (Cert.Glue.nW1b m ρ c) (Cert.Glue.nb1 m ρ c) (Cert.Glue.nW2 m ρ c) (Cert.Glue.nb2 m ρ c)).trans
    (Cert.RefSide.ref_node (a0 m c) (a1 m c) (a2 m c) (a3 m c) (a4 m c) (a5 m c) (a6 m c) (a7 m c) (a8 m c) (a9 m c) (a10 m c)).symm)

/-- THE NODE FEATURES the program returns. -/
theorem out_node : (W6 m ρ c (Proc.devRef .tc main_v75) : (⟨S10000x256, .f32⟩ : BufTy).Contents (Elt Ideal))
    = val_main_v80 (F := Ideal) (a0 m c) (a1 m c) (a2 m c) (a3 m c) (a4 m c) (a5 m c) (a6 m c) (a7 m c) (a8 m c) (a9 m c) (a10 m c) := w6_node m ρ c

/-- THE COORDINATES the program returns: written before the second region, which does not touch them. -/
theorem out_coord : (W6 m ρ c (Proc.devRef .tc main_v63) : (⟨S10000x3, .f32⟩ : BufTy).Contents (Elt Ideal))
    = val_main_v67 (F := Ideal) (a0 m c) (a1 m c) (a2 m c) (a3 m c) (a4 m c) (a5 m c) (a6 m c) (a11 m c) (a12 m c) (a13 m c) (a14 m c) :=
  (W6_of_ne m ρ c main_v63 (by decide)).trans (w5_coord m ρ c)

end Cert.Middle

end
-- ==== Proof.lean ====
/-
  One layer of an equivariant graph network: a kernel program against its reference, on the extended reals.

  Both programs take node features h (10000 × 256), coordinates x (10000 × 3), 320000 edges (row, col) and the
  weights of three small networks, and return new node features and new coordinates. For an edge e:

      d(e)   = x(row e) − x(col e),   rad(e) = |d(e)|²
      ef(e)  = silu (silu ([h(row e), h(col e), rad(e)] · We1 + be1) · We2 + be2)
      cs(e)  = silu (ef(e) · Wc1 + bc1) · Wc2 + bc2

  and for a node n, with E(n) the edges whose source is n:

      x'(n)  = x(n) + (∑_{e ∈ E(n)} d(e) · cs(e)) / max (1, |E(n)|)
      h'(n)  = silu ([h(n), ∑_{e ∈ E(n)} ef(e)] · Wn1 + bn1) · Wn2 + bn2.

  The reference computes exactly this with whole-array operations. The kernel program computes ef and cs in one
  kernel over blocks of 3200 edges and h' in a second kernel over blocks of 1000 nodes, with the gathers, the sums
  per node and the division in host operations around them; it multiplies a joined row by a matrix as the sum of the
  products of its parts with the matching rows of the matrix, writes the logistic function as one operation where the
  reference spells 1 / (1 + e^(−t)), counts the edges of a node once where the reference counts them in each of the
  three coordinate columns, and changes float formats in places, which is the identity on the extended reals. None of
  this changes a value: the regrouping of a sum uses commutativity and associativity of addition only, so the two
  programs agree on every extended-real input and the finiteness of the inputs is never used.

  The frames of the two kernel programs are their generated frame theorems; the reference's frame is its generated run
  with the results dropped; the idealized kernel is the kernel's own text (no rewrite was applied), so the
  preservation claim is trivial.
-/
import proofs.«162943_j20607253086819_2_alg».proof.Defs
import proofs.«162943_j20607253086819_2_alg».proof.Proof.Gen.Kernel
import proofs.«162943_j20607253086819_2_alg».proof.Proof.Gen.Kernel.Skeleton
import proofs.«162943_j20607253086819_2_alg».proof.Proof.Gen.Kernel.Launch
import proofs.«162943_j20607253086819_2_alg».proof.Proof.Gen.Kernel.Points
import proofs.«162943_j20607253086819_2_alg».proof.Proof.Gen.Kernel.Frame
import proofs.«162943_j20607253086819_2_alg».proof.Proof.Gen.KernelIdeal
import proofs.«162943_j20607253086819_2_alg».proof.Proof.Gen.KernelIdeal.Skeleton
import proofs.«162943_j20607253086819_2_alg».proof.Proof.Gen.KernelIdeal.Launch
import proofs.«162943_j20607253086819_2_alg».proof.Proof.Gen.KernelIdeal.Points
import proofs.«162943_j20607253086819_2_alg».proof.Proof.Gen.KernelIdeal.Frame
import proofs.«162943_j20607253086819_2_alg».proof.Proof.Gen.ReferenceIdeal
import proofs.«162943_j20607253086819_2_alg».proof.Proof.Gen.ReferenceIdeal.Run
import proofs.«162943_j20607253086819_2_alg».proof.Proof.Gen.ReferenceIdeal.Read
import proofs.«162943_j20607253086819_2_alg».proof.Proof.Gen.Pre_finite_inputs
import proofs.«162943_j20607253086819_2_alg».proof.Proof.KernelRun
import proofs.«162943_j20607253086819_2_alg».proof.Proof.Middle
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference runs, and its arguments end unchanged: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the arguments both programs run, and end with the same node features and the same
    coordinates: the reference's two results, as functions of the arguments. -/
theorem algebraic : Cert.algebraic_KernelIdeal_ReferenceIdeal := by
  intro m ρ m' ρ' _ hagree
  refine ⟨fun c => Cert.ReferenceIdeal.Read.val_main_v80 (F := Ideal) (Cert.Middle.a0 m c) (Cert.Middle.a1 m c) (Cert.Middle.a2 m c) (Cert.Middle.a3 m c) (Cert.Middle.a4 m c) (Cert.Middle.a5 m c) (Cert.Middle.a6 m c) (Cert.Middle.a7 m c) (Cert.Middle.a8 m c) (Cert.Middle.a9 m c) (Cert.Middle.a10 m c),
    fun c => Cert.ReferenceIdeal.Read.val_main_v67 (F := Ideal) (Cert.Middle.a0 m c) (Cert.Middle.a1 m c) (Cert.Middle.a2 m c) (Cert.Middle.a3 m c) (Cert.Middle.a4 m c) (Cert.Middle.a5 m c) (Cert.Middle.a6 m c) (Cert.Middle.a11 m c) (Cert.Middle.a12 m c) (Cert.Middle.a13 m c) (Cert.Middle.a14 m c), ?_, ?_⟩
  · exact (θ_run Cert.KernelIdeal.defs _ _).mono
      (fun r h c => ⟨(h c).1.trans (Cert.Middle.out_node m ρ c), (h c).2.1.trans (Cert.Middle.out_coord m ρ c), (h c).2.2⟩)
      (Cert.KernelIdeal.Named.run (F := Ideal) m ρ)
  · refine (θ_run Cert.ReferenceIdeal.defs _ _).mono (fun r h c => ⟨?_, ?_, (h c).2.2⟩)
      (Cert.ReferenceIdeal.Value.run (F := Ideal) m' ρ')
    · obtain ⟨h0, h1, h2, h3, h4, h5, h6, h7, h8, h9, h10, h11, h12, h13, h14⟩ := hagree c
      rw [(h c).1, Cert.ReferenceIdeal.Read.val_main_v80_eq, h0, h1, h2, h3, h4, h5, h6, h7, h8, h9, h10]
    · obtain ⟨h0, h1, h2, h3, h4, h5, h6, h7, h8, h9, h10, h11, h12, h13, h14⟩ := hagree c
      rw [(h c).2.1, Cert.ReferenceIdeal.Read.val_main_v67_eq, h0, h1, h2, h3, h4, h5, h6, h11, h12, h13, h14]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
